-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x64 : Shape := ⟨2, ![100000, 64]⟩
abbrev S819200 : Shape := ⟨1, ![819200]⟩
abbrev S_ : Shape := ⟨0, ![]⟩
abbrev S100000x128 : Shape := ⟨2, ![100000, 128]⟩
abbrev S4096x200x128 : Shape := ⟨3, ![4096, 200, 128]⟩
abbrev S25600 : Shape := ⟨1, ![25600]⟩
abbrev S4x200x128 : Shape := ⟨3, ![4, 200, 128]⟩
abbrev S1x200x128 : Shape := ⟨3, ![1, 200, 128]⟩
abbrev S200x128 : Shape := ⟨2, ![200, 128]⟩
abbrev S200 : Shape := ⟨1, ![200]⟩
abbrev S4096x200x64 : Shape := ⟨3, ![4096, 200, 64]⟩

abbrev nBuf : Table → Nat
  | .hbm => 8
  | .local .scVector .vmem => 2
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S819200, .i32⟩
  | .hbm, ⟨3, _⟩ => ⟨S_, .i32⟩
  | .hbm, ⟨4, _⟩ => ⟨S_, .f32⟩
  | .hbm, ⟨5, _⟩ => ⟨S100000x128, .f32⟩
  | .hbm, ⟨6, _⟩ => ⟨S4096x200x128, .f32⟩
  | .hbm, ⟨7, _⟩ => ⟨S4096x200x64, .f32⟩
  | .local .scVector .vmem, ⟨0, _⟩ => ⟨S25600, .i32⟩
  | .local .scVector .vmem, ⟨1, _⟩ => ⟨S4x200x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 2, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  ![v3.toNat]
def k0_off2 (i : grid0.Coords) (c0_i32_21 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v20 : BitVec 32 := Scalar.addi v2 c0_i32_21
  let c0_i32_25 : BitVec 32 := 0#32
  let c0_i32_26 : BitVec 32 := 0#32
  ![v20.toNat, 0, 0]
def k0_off2_at (r : Fin 4) : BitVec 32 :=
  if r.val < 2 then
    if r.val < 1 then
      0#32
    else
      1#32
  else
    if r.val < 3 then
      126#32
    else
      127#32
@[reducible] def k0_t1_loop : Scf.Loop 32 :=
  let c0_i32_52 : BitVec 32 := 0#32
  let c31_i32 : BitVec 32 := 31#32
  let v46 : BitVec 32 := Scalar.addi c0_i32_52 c31_i32
  let c1_i32_53 : BitVec 32 := 1#32
  ⟨c0_i32_52, v46, c1_i32_53⟩
def k0_off3 (k0_t1 : Fin k0_t1_loop.trips) (c0_i32_126 : BitVec 32) : Fin 1 → Nat :=
  let c4_i32_125 : BitVec 32 := 4#32
  let c4_i32 : BitVec 32 := 4#32
  let c0_i32_52 : BitVec 32 := 0#32
  let c1_i32_53 : BitVec 32 := 1#32
  let arg15 : BitVec 32 := Scf.iv c0_i32_52 c1_i32_53 k0_t1
  let v105 : BitVec 32 := Scalar.muli c4_i32 arg15
  let v106 : BitVec 32 := Scalar.addi c4_i32_125 v105
  let v107 : BitVec 32 := Scalar.addi v106 c0_i32_126
  let c200_i32_137 : BitVec 32 := 200#32
  let v116 : BitVec 32 := Scalar.muli v107 c200_i32_137
  ![v116.toNat]
def k0_off4 (i : grid0.Coords) (k0_t1 : Fin k0_t1_loop.trips) (c0_i32_126 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_125 : BitVec 32 := 4#32
  let c4_i32 : BitVec 32 := 4#32
  let c0_i32_52 : BitVec 32 := 0#32
  let c1_i32_53 : BitVec 32 := 1#32
  let arg15 : BitVec 32 := Scf.iv c0_i32_52 c1_i32_53 k0_t1
  let v105 : BitVec 32 := Scalar.muli c4_i32 arg15
  let v106 : BitVec 32 := Scalar.addi c4_i32_125 v105
  let v107 : BitVec 32 := Scalar.addi v106 c0_i32_126
  let c2_i32_149 : BitVec 32 := 2#32
  let v125 : BitVec 32 := Scalar.subi v107 c2_i32_149
  let v126 : BitVec 32 := Scalar.addi v2 v125
  let c0_i32_153 : BitVec 32 := 0#32
  let c0_i32_154 : BitVec 32 := 0#32
  ![v126.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  pads_S100000x64_S100000x128_000_0640 : S100000x64.Pads (![0, 0] : Fin 2 → Nat) ![0, 64] ![0, 0] S100000x128
  h_S_ : 0 < S_.numel
  inb_S4x200x128_S1x200x128_0_0_0 : ∀ a, (![0, 0, 0] : Fin 3 → Nat) a + S1x200x128.size a ≤ S4x200x128.size a
  squeezes_S1x200x128_S200x128 : S1x200x128.Squeezes S200x128
  inb_S25600_S200_0 : ∀ a, (![0] : Fin 1 → Nat) a + S200.size a ≤ S25600.size a
  inb_S100000x128_S100000x128_0_0 : ∀ a, (![0, 0] : Fin 2 → Nat) a + S100000x128.size a ≤ S100000x128.size a
  gathers_S100000x128_S200x128 : S100000x128.Gathers 0 S200x128
  inb_S4x200x128_S1x200x128_1_0_0 : ∀ a, (![1, 0, 0] : Fin 3 → Nat) a + S1x200x128.size a ≤ S4x200x128.size a
  inb_S25600_S200_200 : ∀ a, (![200] : Fin 1 → Nat) a + S200.size a ≤ S25600.size a
  inb_S4x200x128_S1x200x128_2_0_0 : ∀ a, (![2, 0, 0] : Fin 3 → Nat) a + S1x200x128.size a ≤ S4x200x128.size a
  inb_S25600_S200_400 : ∀ a, (![400] : Fin 1 → Nat) a + S200.size a ≤ S25600.size a
  inb_S4x200x128_S1x200x128_3_0_0 : ∀ a, (![3, 0, 0] : Fin 3 → Nat) a + S1x200x128.size a ≤ S4x200x128.size a
  inb_S25600_S200_600 : ∀ a, (![600] : Fin 1 → Nat) a + S200.size a ≤ S25600.size a
  inb_S4096x200x128_S1x200x128_0_0_0 : ∀ a, (![0, 0, 0] : Fin 3 → Nat) a + S1x200x128.size a ≤ S4096x200x128.size a
  slices_S4096x200x128_S4096x200x64_0_0_0 : S4096x200x128.Slices ![0, 0, 0] S4096x200x64
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_off2_inb : ∀ i : grid0.Coords, ∀ (r : Fin 4), ∀ a, (k0_off2 i (k0_off2_at r)) a + S1x200x128.size a ≤ S4096x200x128.size a
  k0_t1_ok : k0_t1_loop.OK
  k0_off3_inb : ∀ k0_t1 : Fin k0_t1_loop.trips, ∀ (r : Fin 4), ∀ a, (k0_off3 k0_t1 (BitVec.ofNat 32 r.val)) a + S200.size a ≤ S25600.size a
  k0_off4_inb : ∀ (i : grid0.Coords) (k0_t1 : Fin k0_t1_loop.trips), ∀ (r : Fin 4), ∀ a, (k0_off4 i k0_t1 (BitVec.ofNat 32 r.val)) a + S1x200x128.size a ≤ S4096x200x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S4096x200 : Shape := ⟨2, ![4096, 200]⟩
abbrev S100000x64 : Shape := ⟨2, ![100000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S100000x64_S4096x200x1_S4096x200x64_2_0_n_n_0_2_164_wf : GatherDims.WF S100000x64 S4096x200x1 S4096x200x64 [2] [0] [] [0] [] 2 ![1, 64]

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf

class Facts : Prop extends Facts₀ where

variable [Facts]
-- ==== Proof.Spec.lean ====
/-
  What both programs compute, as one function of the two argument arrays.

  The lookup: entry (b, l, d) of the result is entry (row, d) of the table, where row is the word at (b, l) of the
  index array, read as a natural number (and kept inside the table's 100000 rows by a minimum that never acts on
  indices in range). The kernel works on a flattened copy of the index array (position b * 200 + l) and on a copy
  of the table padded to 128 columns, and produces 128 columns of which the first 64 are kept: `padded` is that
  wider function, over any flat index array and any 128-column table.
-/
import Idealize.ShloMosaic.PureOps
import Idealize.ShloMosaic.Lib.ValueIdx

noncomputable section

namespace Cert.Spec

open Idealize.ShloMosaic Idealize.ShloMosaic.ValueIdx

abbrev SX : Shape := ⟨2, ![4096, 200]⟩
abbrev SE : Shape := ⟨2, ![100000, 64]⟩
abbrev SO : Shape := ⟨3, ![4096, 200, 64]⟩
abbrev SXf : Shape := ⟨1, ![819200]⟩
abbrev SEp : Shape := ⟨2, ![100000, 128]⟩
abbrev SOp : Shape := ⟨3, ![4096, 200, 128]⟩

/-- Every index word names a row of the table. -/
def InRange (x : SX.Idx → BitVec 32) : Prop := ∀ j, (x j).toNat < 100000
/-- The same of the flattened index array. -/
def InRangeFlat (x : SXf.Idx → BitVec 32) : Prop := ∀ j, (x j).toNat < 100000

/-- The table row an index word names. -/
def rowOf (w : BitVec 32) : Fin 100000 := ⟨min w.toNat 99999, by omega⟩

theorem rowOf_val_of_lt {w : BitVec 32} (h : w.toNat < 100000) : (rowOf w).val = w.toNat := by
  show min w.toNat 99999 = w.toNat; omega

/-- The lookup: the result at (b, l, d) is the table at (row named by the index word at (b, l), d). -/
def lookup {α : Type} (x : SX.Idx → BitVec 32) (e : SE.Idx → α) : SO.Idx → α :=
  fun j => e (ix2 (rowOf (x (ix2 (j 0) (j 1)))) (j 2))

/-- The position of (b, l) in the flattened index array. -/
def flatPos (b : Fin 4096) (l : Fin 200) : Fin 819200 := ⟨b.val * 200 + l.val, by omega⟩

/-- The 128-column lookup over a flattened index array and a 128-column table. -/
def padded {α : Type} (x : SXf.Idx → BitVec 32) (e : SEp.Idx → α) : SOp.Idx → α :=
  fun j => e (ix2 (rowOf (x (ix1 (flatPos (j 0) (j 1))))) (j 2))

end Cert.Spec

end
-- ==== Proof.PreDecode.lean ====
/-
  The range of the index words, read back out of the printed precondition.

  The precondition is the conjunction of two "all" reductions, one over the table (every entry has a finite
  absolute value) and one over the index array (every word w satisfies 0 ≤ w and w ≤ 99999, both comparisons
  signed). Its value being 1 makes each reduction 1, and a reduction by "and" from 1 that comes out 1 met a 1 at
  every index. Only the integer half is read here: at every index j the two signed comparisons hold of the word
  x j, that is 0 ≤ toInt (x j) ≤ 99999; and a word whose signed reading is nonnegative has that reading as its
  unsigned one, so toNat (x j) < 100000.
-/
import proofs.«206599_g37160057045681_cont_8to1_b_383_13_alg».proof.Proof.Gen.Pre_input_domain
import proofs.«206599_g37160057045681_cont_8to1_b_383_13_alg».proof.Proof.Spec
import Idealize.ShloMosaic.Lib.ReduceAll
import Idealize.ShloMosaic.Lib.ValueIdx

noncomputable section

namespace Cert.Proof.PreDecode

open Idealize.ShloMosaic

/-- The rank-0 shape has one index. -/
instance subsingleton_scalarIdx : Subsingleton Cert.Pre_input_domain.S_.Idx := ⟨fun a b => funext fun d => d.elim0⟩

/-- The precondition's integer half at one index: both signed bounds of the word there. -/
theorem signed_of_pre {F : FTy → Type} [FloatOps F] (x : IVec Cert.Pre_input_domain.S4096x200 32)
    (e : FVec F Cert.Pre_input_domain.S100000x64 .f32)
    (h : Cert.Pre_input_domain.fn (F := F) x e = fun _ => 1#1) :
    ∀ j, 0 ≤ (x j).toInt ∧ (x j).toInt ≤ 99999 := by
  intro j
  have h0 := congrFun h ValueIdx.ix0
  dsimp only [Cert.Pre_input_domain.fn] at h0
  -- the outer "and" of the two reductions
  have h9 := (IntOp.andi_eq_one.1 h0).2
  -- the reduction over the index array met a 1 at j
  have hj := Host.reduce_andi_all _ _ _ _ _ h9 j
  -- the element there is the "and" of the two comparisons
  have hc := IntOp.andi_eq_one.1 hj
  have hge := IntOp.cmpi_sge.1 hc.1
  have hle := IntOp.cmpi_sle.1 hc.2
  have z0 : (0#32 : BitVec 32).toInt = 0 := by decide
  have z1 : (99999#32 : BitVec 32).toInt = 99999 := by decide
  simp only [broadcastInDim, constantI] at hge hle
  rw [z0] at hge
  rw [z1] at hle
  exact ⟨hge, hle⟩

/-- A word whose signed reading lies in [0, 99999] has an unsigned reading below 100000. -/
theorem toNat_lt_of_signed {w : BitVec 32} (h : 0 ≤ w.toInt ∧ w.toInt ≤ 99999) : w.toNat < 100000 := by
  have := BitVec.toInt_eq_toNat_cond w
  have hl := w.isLt
  split at this <;> omega

/-- Under the precondition every index word names a row of the table. -/
theorem inRange_of_pre {F : FTy → Type} [FloatOps F] (x : IVec Cert.Pre_input_domain.S4096x200 32)
    (e : FVec F Cert.Pre_input_domain.S100000x64 .f32)
    (h : Cert.Pre_input_domain.fn (F := F) x e = fun _ => 1#1) : Cert.Spec.InRange x :=
  fun j => toNat_lt_of_signed (signed_of_pre x e h j)

end Cert.Proof.PreDecode

end
-- ==== Proof.LibGatherRows3.lean ====
/-
  A gather of ROWS over a two-axis array of start indices, read at an index.

  `stablehlo.gather` of a rank-2 operand [H, W] at start indices [B, T, 1] with the row axis collapsed and named by
  the start index and the column axis kept whole (offset_dims [2], collapsed_slice_dims [0], start_index_map [0],
  index_vector_dim 2, slice sizes [1, W]) gives [B, T, W]: result element (b, t, q) is the operand at (row, q), the
  row being start index (b, t) read as a signed integer and clamped into the axis (the minimum with H - 1).

  Generic in the extents; the record's condition `wf` is decided on literal shapes.
-/
import Idealize.ShloMosaic.PureOps
import Idealize.ShloMosaic.Lib.ValueIdx

noncomputable section

namespace Cert.LibGatherRows3

open Idealize.ShloMosaic Idealize.ShloMosaic.ValueIdx

variable {α : Type}

/-- The dimension numbers of a row gather from `[H, W]` at start indices `[B, T, 1]` into `[B, T, W]`. -/
abbrev rowGatherDims3 (H W B T : Nat)
    (wf : GatherDims.WF ⟨2, ![H, W]⟩ ⟨3, ![B, T, 1]⟩ ⟨3, ![B, T, W]⟩ [2] [0] [] [0] [] 2 ![1, W]) :
    GatherDims ⟨2, ![H, W]⟩ ⟨3, ![B, T, 1]⟩ ⟨3, ![B, T, W]⟩ where
  offsetDims := [2]
  collapsedSliceDims := [0]
  operandBatchingDims := []
  startIndicesBatchingDims := []
  startIndexMap := [0]
  indexVectorDim := 2
  sliceSizes := ![1, W]
  wf := wf

section Gather
variable {H W B T w : Nat}
  (wf : GatherDims.WF ⟨2, ![H, W]⟩ ⟨3, ![B, T, 1]⟩ ⟨3, ![B, T, W]⟩ [2] [0] [] [0] [] 2 ![1, W])
  (idx : IVec ⟨3, ![B, T, 1]⟩ w) (b : Fin B) (t : Fin T) (q : Fin W)

/-- The operand row a result element reads: its start index, signed, clamped. -/
theorem gather_row : ((rowGatherDims3 H W B T wf).operandIdx (ix3 b t q) idx (0 : Fin 2)).val
    = min (idx (ix3 b t (0 : Fin 1))).toInt.toNat (H - 1) := by
  show (rowGatherDims3 H W B T wf).start (ix3 b t q) idx 0 + (rowGatherDims3 H W B T wf).batchCoord (ix3 b t q) 0
      + (rowGatherDims3 H W B T wf).offCoord (ix3 b t q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims3 H W B T wf).startIndexMap from List.mem_cons_self)]
  have hsi : (rowGatherDims3 H W B T wf).siIdx (ix3 b t q)
      ⟨List.idxOf (0 : Fin 2) (rowGatherDims3 H W B T wf).startIndexMap, List.idxOf_lt_length_iff.2 List.mem_cons_self⟩
      = ix3 b t (0 : Fin 1) := by
    funext a; refine Fin.ext ?_
    match a with
    | ⟨0, _⟩ => rfl
    | ⟨1, _⟩ => rfl
    | ⟨2, _⟩ => rfl
  rw [hsi]
  rfl

/-- On the kept column axis a result element reads its own column. -/
theorem gather_col : ((rowGatherDims3 H W B T wf).operandIdx (ix3 b t q) idx (1 : Fin 2)).val = q.val := by
  show (rowGatherDims3 H W B T wf).start (ix3 b t q) idx 1 + (rowGatherDims3 H W B T wf).batchCoord (ix3 b t q) 1
      + (rowGatherDims3 H W B T wf).offCoord (ix3 b t q) 1 = _
  rw [GatherDims.batchCoord_eq_zero _ _ _ List.not_mem_nil]
  have hnot : (1 : Fin 2) ∉ (rowGatherDims3 H W B T wf).startIndexMap :=
    (by decide : (1 : Fin 2) ∉ ([0] : List (Fin 2)))
  have hk : (1 : Fin 2) ∈ (rowGatherDims3 H W B T wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(b, t, q)`: the operand at (row, q), the row being start index `(b, t)` read signed and
    clamped into the axis. -/
theorem gather_rows3_apply (hH : 0 < H) (x : (⟨2, ![H, W]⟩ : Shape).Idx → α) :
    Host.gather (rowGatherDims3 H W B T wf) x idx (ix3 b t q)
      = x (ix2 ⟨min (idx (ix3 b t (0 : Fin 1))).toInt.toNat (H - 1), by omega⟩ q) := by
  unfold Host.gather
  refine congrArg x (funext fun a => Fin.ext ?_)
  match a with
  | ⟨0, _⟩ => exact gather_row wf idx b t q
  | ⟨1, _⟩ => exact gather_col wf idx b t q

end Gather

end Cert.LibGatherRows3

end
-- ==== Proof.RefRun.lean ====
/-
  The reference program's run, and its result as the lookup.

  The reference is one call of a function that itself calls one more: inlined, a straight line of 23 host
  operations. With x the index array and e the table: i' = select(x < 0, x + 100000, x); i3 = i' with a unit axis
  appended; the mask = the "and", over that unit axis, of (0 ≤ i3) and (i3 ≤ 99999), both signed; the result =
  select(mask broadcast along the columns, gather of e's rows at i3, a broadcast constant).
  Every weakly fair execution of the line terminates with each buffer at the fold of the operations over the
  launch contents; the fold at the result buffer is the term above of the two arguments, and the arguments'
  buffers are not written.

  When every index word w has 0 ≤ toInt w ≤ 99999: i' = x (the comparison x < 0 fails everywhere), the mask is 1
  everywhere (a left fold by "and" from 1 over ones), the gather reads row min (toNat (toInt w)) 99999 = toNat w of
  the table (the clamp never acts), and the select keeps the gathered value: the result is the lookup.
-/
import proofs.«206599_g37160057045681_cont_8to1_b_383_13_alg».proof.Proof.Gen.ReferenceIdeal
import proofs.«206599_g37160057045681_cont_8to1_b_383_13_alg».proof.Proof.Spec
import proofs.«206599_g37160057045681_cont_8to1_b_383_13_alg».proof.Proof.LibGatherRows3
import Idealize.ShloMosaic.Lib.StableHlo.Run
import Idealize.ShloMosaic.Lib.Pipeline.Value
import Idealize.ShloMosaic.Lib.Affine
import Idealize.ShloMosaic.PureOps.Reduce

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-! ## The result as a term of the arguments -/

/-- The index array with negative words moved up by the table's height. -/
def wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- The same with a unit axis appended: the gather's start indices. -/
def starts (x : IVec S4096x200 32) : IVec S4096x200x1 32 :=
  broadcastInDim S4096x200x1 ![0, 1] bcast_S4096x200_S4096x200x1_0_1 (wrapped x)

/-- Per start index, both signed bounds. -/
def inBounds (x : IVec S4096x200 32) : IVec S4096x200x1 1 :=
  andi (cmpi .sge (starts x) (broadcastInDim S4096x200x1 ![] bcast_S_S4096x200x1 (constantI S_ 32 0#32)))
    (cmpi .sle (starts x) (broadcastInDim S4096x200x1 ![0, 1, 2] bcast_S1x1x1_S4096x200x1_0_1_2
      (broadcastInDim S1x1x1 ![2] bcast_S1_S1x1x1_2 (constantI S1 32 99999#32))))

/-- The mask: the bounds folded by "and" over the unit axis. -/
def mask (x : IVec S4096x200 32) : IVec S4096x200 1 :=
  Host.reduce IntOp.andi (inBounds x) (constantI S_ 1 1#1) reducesTo_S4096x200x1_S4096x200_d2 h_S_

/-- What the reference computes from the two arguments' contents. -/
def refVal (x : IVec S4096x200 32) (e : FVec F S100000x64 .f32) : FVec F S4096x200x64 .f32 :=
  select (broadcastInDim S4096x200x64 ![0, 1] bcast_S4096x200_S4096x200x64_0_1 (mask x))
    (Host.gather gather_S100000x64_S4096x200x1_S4096x200x64_2_0_n_n_0_2_164 e (starts x))
    (broadcastInDim S4096x200x64 ![] bcast_S_S4096x200x64 (constant S_ .f32 0x7FC00000#32))

/-! ## The program as a line of operations -/

/-- @main's operations in order, the two calls unfolded: six of the outer function, the inner function's select,
    sixteen more of the outer. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

set_option maxRecDepth 1024 in
/-- @main is that line: the functions' definitions unfolded at their calls, both sides are one chain of steps once
    sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates with each buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### The fold at the three buffers

A typed reference moves contents between the value's type and the buffer's own type (the same type, once the
reference is a literal): writing then reading is the identity, and at a literal reference each move alone is. -/

/-- Contents written through a typed reference and read back through it are themselves. -/
theorem ofBuf_toBuf {T : BufTy} (r : TRef sig T) (v : T.Contents (Elt F)) : r.ofBuf (r.toBuf v) = v := by
  obtain ⟨r, rfl, _, _⟩ := r
  rfl

/-- At the result's buffer the move is the identity. -/
theorem toBuf_out (w : FVec F S4096x200x64 .f32) :
    ((main_call0.v16 : TRef sig ⟨S4096x200x64, .f32⟩).toBuf (Val := Elt F) w : FVec F S4096x200x64 .f32) = w := rfl
/-- At the index argument's buffer the move is the identity. -/
theorem ofBuf_arg0 (w : IVec S4096x200 32) :
    ((.of main_arg0 : TRef sig ⟨S4096x200, .i32⟩).ofBuf (Val := Elt F) w : IVec S4096x200 32) = w := rfl
/-- At the table argument's buffer the move is the identity. -/
theorem ofBuf_arg1 (w : FVec F S100000x64 .f32) :
    ((.of main_arg1 : TRef sig ⟨S100000x64, .f32⟩).ofBuf (Val := Elt F) w : FVec F S100000x64 .f32) = w := rfl

attribute [local irreducible] Host.reduce Host.gather in
set_option maxRecDepth 8192 in
/-- The fold at the result buffer, with the moves at the three literal buffers still written: each operation's
    result at its own buffer is its function's value, at any other buffer what was there. -/
theorem out_eq_moves (V : Valuation τ sig (Elt F)) :
    after ops V (main_v0 : DevRef τ sig)
      = (main_call0.v16 : TRef sig ⟨S4096x200x64, .f32⟩).toBuf
          (refVal ((.of main_arg0 : TRef sig ⟨S4096x200, .i32⟩).ofBuf (V (main_arg0 : DevRef τ sig)))
            ((.of main_arg1 : TRef sig ⟨S100000x64, .f32⟩).ofBuf (V (main_arg1 : DevRef τ sig)))) := by
  unfold refVal mask inBounds starts wrapped
  after_results
  simp only [ofBuf_toBuf]

/-- The fold at the result buffer is the term of the arguments. -/
theorem out_eq (V : Valuation τ sig (Elt F)) :
    after ops V (main_v0 : DevRef τ sig) = refVal (V (main_arg0 : DevRef τ sig)) (V (main_arg1 : DevRef τ sig)) := by
  rw [out_eq_moves]
  generalize V (main_arg0 : DevRef τ sig) = a0
  generalize V (main_arg1 : DevRef τ sig) = a1
  exact (toBuf_out _).trans (by rw [ofBuf_arg0, ofBuf_arg1])

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-! ## Under the range fact the result is the lookup -/

/-- A left fold by "and" from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

section Value
variable (x : IVec S4096x200 32) (hx : ∀ j, 0 ≤ (x j).toInt ∧ (x j).toInt ≤ 99999)
include hx

/-- No index word is negative: the wrapped index array is the index array. -/
theorem wrapped_eq : wrapped x = x := by
  funext j
  have hlt : ¬IntOp.cmpi .slt (x j) 0#32 = 1#1 := by
    rw [IntOp.cmpi_slt, show (0#32 : BitVec 32).toInt = 0 from by decide]
    have := (hx j).1; omega
  show Scalar.select (IntOp.cmpi .slt (x j) 0#32) (IntOp.addi (x j) 100000#32) (x j) = x j
  rw [eq_zero_of_ne_one hlt, select_zero]

/-- The start index at (b, t, ·) is the index word at (b, t). -/
theorem starts_eq (i : S4096x200x1.Idx) : starts x i = x (ix2 (i 0) (i 1)) := by
  unfold starts
  rw [wrapped_eq x hx]
  exact broadcastInDim_apply _ _ _ _ _ (fun a => by
    match a with
    | ⟨0, _⟩ => rfl
    | ⟨1, _⟩ => rfl)

/-- Every start index is within both bounds. -/
theorem inBounds_eq (i : S4096x200x1.Idx) : inBounds x i = 1#1 := by
  show IntOp.andi (IntOp.cmpi .sge (starts x i) 0#32) (IntOp.cmpi .sle (starts x i) 99999#32) = 1#1
  rw [starts_eq x hx i, IntOp.andi_eq_one, IntOp.cmpi_sge, IntOp.cmpi_sle,
    show (0#32 : BitVec 32).toInt = 0 from by decide, show (99999#32 : BitVec 32).toInt = 99999 from by decide]
  exact hx _

/-- The mask is 1 everywhere. -/
theorem mask_eq (j : S4096x200.Idx) : mask x j = 1#1 := by
  unfold mask
  rw [Host.reduce_eq_foldl]
  exact foldl_andi_ones _ _ (fun n _ => inBounds_eq x hx n)

/-- Under the range fact the reference's result is the lookup. -/
theorem refVal_eq_lookup (e : FVec F S100000x64 .f32) : refVal x e = Cert.Spec.lookup x e := by
  funext j
  obtain ⟨b, t, q, rfl⟩ : ∃ (b : Fin 4096) (t : Fin 200) (q : Fin 64), j = ix3 b t q := ⟨j 0, j 1, j 2, eq_ix3 j⟩
  have hm : broadcastInDim S4096x200x64 ![0, 1] bcast_S4096x200_S4096x200x64_0_1 (mask x) (ix3 b t q) = 1#1 := by
    rw [broadcastInDim_apply _ _ _ (ix3 b t q) (ix2 b t) (fun a => by
      match a with
      | ⟨0, _⟩ => rfl
      | ⟨1, _⟩ => rfl)]
    exact mask_eq x hx _
  have hg : Host.gather gather_S100000x64_S4096x200x1_S4096x200x64_2_0_n_n_0_2_164 e (starts x) (ix3 b t q)
      = e (ix2 ⟨min (starts x (ix3 b t (0 : Fin 1))).toInt.toNat (100000 - 1), by omega⟩ q) :=
    Cert.LibGatherRows3.gather_rows3_apply (H := 100000) (W := 64) (B := 4096) (T := 200)
      gather_S100000x64_S4096x200x1_S4096x200x64_2_0_n_n_0_2_164_wf (starts x) b t q (by decide) e
  unfold refVal
  rw [select_apply, hm, select_one, hg]
  refine congrArg e (congrArg (fun r => ix2 r q) (Fin.ext ?_))
  show min (starts x (ix3 b t (0 : Fin 1))).toInt.toNat (100000 - 1) = min (x (ix2 b t)).toNat 99999
  rw [starts_eq x hx]
  show min (x (ix2 b t)).toInt.toNat (100000 - 1) = min (x (ix2 b t)).toNat 99999
  have h1 := hx (ix2 b t)
  have h2 := BitVec.toInt_eq_toNat_cond (x (ix2 b t))
  have h3 := (x (ix2 b t)).isLt
  split at h2 <;> omega

end Value

/-! ## The run -/

/-- From any memory whose index words are in range, with zero counters: every weakly fair execution of @main
    terminates with the result buffer at the lookup of the two arguments' launch contents and the arguments
    unchanged. -/
theorem run (m : (ℓ : Loc nD τ sig) → Buf (Elt F) ℓ) (ρ : Dev nD → PrngReg)
    (hx : ∀ (c : Dev nD) (j : S4096x200.Idx), 0 ≤ ((m ((c.tc : Thread nD τ).loc main_arg0) : IVec S4096x200 32) j).toInt
      ∧ ((m ((c.tc : Thread nD τ).loc main_arg0) : IVec S4096x200 32) j).toInt ≤ 99999) :
    θ_run defs (onTc (τ := τ) (main (F := F))) ⟨m, fun _ => 0, ρ⟩ fun r => ∀ c : Dev nD,
      r.2.mem ((c.tc : Thread nD τ).loc main_v0)
          = Cert.Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v0).trans ((out_eq _).trans (refVal_eq_lookup _ (hx c) _)),
        (h c main_arg0).trans (arg0_eq _), (h c main_arg1).trans (arg1_eq _)⟩)
    (run_after m ρ)

end Cert.Proof.Ref

end
-- ==== Proof.KI.Common.lean ====
/-
  Names shared by the proofs about the SparseCore program: the program as the launch theorem sees it, the ghost
  state (the handshakes' rounds beside the transfers' counters), the three HBM arrays the kernel touches, and how
  they are cut among the 32 vector subcores.

  Subcore (c, i) — SparseCore c of 2, vector subcore i of 16 — is worker w = 2 i + c. It reads the w-th of the 32
  equal stretches of the flattened index array (25600 words: 128 batch rows of 200 indices), reads the whole padded
  table, and writes batch rows 128 w … 128 w + 127 of the 4096 × 200 × 128 result, one batch row (a 200 × 128 slab)
  per transfer. What a subcore is handed and hands back is stated through those pieces; the result's pieces come
  back holding the 128-column lookup `Cert.Spec.padded` of the flattened indices and the padded table.
-/
import proofs.«206599_g37160057045681_cont_8to1_b_383_13_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«206599_g37160057045681_cont_8to1_b_383_13_alg».proof.Proof.Gen.KernelIdeal
import proofs.«206599_g37160057045681_cont_8to1_b_383_13_alg».proof.Proof.Gen.KernelIdeal.Skeleton
import proofs.«206599_g37160057045681_cont_8to1_b_383_13_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
theorem nCore_eq (q : Fin 1) : (K (F := F)).nCore q = 2 := by obtain rfl : q = 0 := Subsingleton.elim _ _; rfl
theorem nSub_eq (q : Fin 1) : (K (F := F)).nSub q = 16 := by obtain rfl : q = 0 := Subsingleton.elim _ _; rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened index array, the padded table and the 128-column result, as locations of device `d`. -/
abbrev xLoc (d : Dev nD) : Loc nD τ sig := (SparseCore.T d).loc main_v0
abbrev eLoc (d : Dev nD) : Loc nD τ sig := (SparseCore.T d).loc main_v1
abbrev oLoc (d : Dev nD) : Loc nD τ sig := (SparseCore.T d).loc main_v2

theorem hdx : 32 ∣ S819200.size 0 := ⟨25600, rfl⟩
theorem hdo : 4096 ∣ S4096x200x128.size 0 := ⟨1, rfl⟩

/-- Worker number of subcore (c, i). -/
def wOf (c : Fin 2) (i : Fin 16) : Fin 32 := ⟨i.val * 2 + c.val, by omega⟩
/-- Batch row `g` of worker (c, i). -/
def bOf (c : Fin 2) (i : Fin 16) (g : Fin 128) : Fin 4096 := ⟨(i.val * 2 + c.val) * 128 + g.val, by omega⟩

/-- The `w`-th of the 32 stretches of the flattened index array. -/
abbrev xSet (w : Fin 32) : Finset S819200.Idx := (Rect.part (s := S819200) (a₀ := 0) hdx w).set
/-- Batch row `b` of the result: a 200 × 128 slab. -/
abbrev oPiece (b : Fin 4096) : Finset S4096x200x128.Idx := (Rect.part (s := S4096x200x128) (a₀ := 0) hdo b).set

/-- The share of the padded table worker `w` reads with: one of 32 pieces of the whole. -/
abbrev eShare (w : Fin 32) : PosShare TreeShare := pieceOf fullShare 32 (by decide) w

section Res

variable (fx : (d : Dev nD) → Buf (Elt F) (xLoc d)) (fe : (d : Dev nD) → Buf (Elt F) (eLoc d)) (fo : (d : Dev nD) → Buf (Elt F) (oLoc d))

/-- What subcore (c, i) is handed: its stretch of the flattened indices, its share of the padded table, its 128
    batch rows of the result at the contents `fo`. -/
def goRes (d : Dev nD) (c : Fin 2) (i : Fin 16) : sProp 𝕄 :=
  iprop((xLoc d ↦[xSet (wOf c i)]{fullShare} fx d) ∗ (eLoc d ↦{eShare (wOf c i)} fe d)
    ∗ bigSep Finset.univ fun g : Fin 128 => oLoc d ↦[oPiece (bOf c i g)]{fullShare} fo d)

/-- What it hands back: the same, its batch rows of the result holding the 128-column lookup. -/
def tdRes (d : Dev nD) (c : Fin 2) (i : Fin 16) : sProp 𝕄 :=
  iprop((xLoc d ↦[xSet (wOf c i)]{fullShare} fx d) ∗ (eLoc d ↦{eShare (wOf c i)} fe d)
    ∗ bigSep Finset.univ fun g : Fin 128 => oLoc d ↦[oPiece (bOf c i g)]{fullShare} (Cert.Spec.padded (fx d) (fe d) : Buf (Elt F) (oLoc d)))

instance goRes_storable (d : Dev nD) (c : Fin 2) (i : Fin 16) : BI.Storable (upEmb : UEmb _ 𝕄) (goRes fx fe fo d c i) := by
  unfold goRes; infer_instance
instance tdRes_storable (d : Dev nD) (c : Fin 2) (i : Fin 16) : BI.Storable (upEmb : UEmb _ 𝕄) (tdRes fx fe d c i) := by
  unfold tdRes; infer_instance

/-- The call hands SparseCore `c` what its sixteen subcores are handed, and takes back what they hand back; the
    kernel's proof consumes nothing of the launch's. -/
def P : (K (F := F)).Pay (nD := nD) (Val := Elt F) (Name := ℕ) (U := UU) where
  st := fun q d c => bigSep Finset.univ fun i : Fin 16 => goRes fx fe fo d (Fin.cast (nCore_eq q) c) i
  dn := fun q d c => bigSep Finset.univ fun i : Fin 16 => tdRes fx fe d (Fin.cast (nCore_eq q) c) i
  go := fun q d c i => goRes fx fe fo d (Fin.cast (nCore_eq q) c) (Fin.cast (nSub_eq q) i)
  td := fun q d c i => tdRes fx fe d (Fin.cast (nCore_eq q) c) (Fin.cast (nSub_eq q) i)
  x := fun _ _ => iprop(emp)

instance P_storable : (P (F := F) fx fe fo).IsStorable where
  st q d c := by unfold P; infer_instance
  dn q d c := by unfold P; infer_instance
  go q d c i := by unfold P; infer_instance
  td q d c i := by unfold P; infer_instance

end Res

/-! ## A subcore's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KI.LaunchSplit.lean ====
/-
  The launch of the SparseCore call, first part: how the three whole arrays the TensorCore holds are cut into what
  the 32 vector subcores are handed, and joined back.

  The flattened index array is cut into 32 stretches, the padded table's full share into 32 read shares, the result
  into its 4096 batch rows; worker w = 2 i + c takes stretch w, share w and batch rows 128 w … 128 w + 127. The maps
  (c, i) ↦ 2 i + c and (c, i, g) ↦ 128 (2 i + c) + g are bijections onto the 32 workers and the 4096 batch rows, so a
  product over workers (batch rows) is the iterated product over SparseCores, subcores (and rows of a worker). With
  that, what the call takes for the two SparseCores is the three arrays whole, and so is what it hands back. Also
  here: the launch element of the ghost state (the handshakes' rounds; the kernel consumes nothing of its own) and
  the split of a SparseCore's operands among its sixteen subcores, which is the identity.
-/
import proofs.«206599_g37160057045681_cont_8to1_b_383_13_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Workers and batch rows, regrouped by SparseCore and subcore -/

/-- (c, i) ↦ 2 i + c, onto the 32 workers. -/
def wEquiv : Fin 2 × Fin 16 ≃ Fin 32 where
  toFun p := wOf p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (i.val * 2 + c.val) % 2 = c.val
      omega
    · show (i.val * 2 + c.val) / 2 = i.val
      omega
  right_inv w := Fin.ext (by show w.val / 2 * 2 + w.val % 2 = w.val; omega)

/-- (c, i, g) ↦ 128 (2 i + c) + g, onto the 4096 batch rows. -/
def bEquiv : (Fin 2 × Fin 16) × Fin 128 ≃ Fin 4096 where
  toFun p := bOf p.1.1 p.1.2 p.2
  invFun b := ((⟨b.val / 128 % 2, Nat.mod_lt _ (by decide)⟩, ⟨b.val / 128 / 2, by omega⟩), ⟨b.val % 128, Nat.mod_lt _ (by decide)⟩)
  left_inv p := by
    obtain ⟨⟨c, i⟩, g⟩ := p
    refine Prod.ext (Prod.ext (Fin.ext ?_) (Fin.ext ?_)) (Fin.ext ?_)
    · show ((i.val * 2 + c.val) * 128 + g.val) / 128 % 2 = c.val
      omega
    · show ((i.val * 2 + c.val) * 128 + g.val) / 128 / 2 = i.val
      omega
    · show ((i.val * 2 + c.val) * 128 + g.val) % 128 = g.val
      omega
  right_inv b := Fin.ext (by show (b.val / 128 / 2 * 2 + b.val / 128 % 2) * 128 + b.val % 128 = b.val; omega)

section Regroup

variable {M : Type} [URA M]

theorem regroup_w (Φ : Fin 32 → sProp M) :
    bigSep Finset.univ Φ = bigSep Finset.univ fun c : Fin 2 => bigSep Finset.univ fun i : Fin 16 => Φ (wOf c i) := by
  rw [bigSep_univ_equiv wEquiv Φ, bigSep_univ_prod]; rfl

theorem regroup_b (Φ : Fin 4096 → sProp M) :
    bigSep Finset.univ Φ
      = bigSep Finset.univ fun c : Fin 2 => bigSep Finset.univ fun i : Fin 16 => bigSep Finset.univ fun g : Fin 128 => Φ (bOf c i g) := by
  rw [bigSep_univ_equiv bEquiv Φ, bigSep_univ_prod, bigSep_univ_prod]; rfl

end Regroup

/-! ## The three arrays, whole and in pieces -/

theorem xWhole_split (d : Dev nD) (f : Buf (Elt F) (xLoc d)) :
    (xLoc d ↦{fullShare} f : sProp 𝕄)
      = bigSep Finset.univ fun c : Fin 2 => bigSep Finset.univ fun i : Fin 16 => xLoc d ↦[xSet (wOf c i)]{fullShare} f := by
  rw [← regroup_w (fun w => (xLoc d ↦[xSet w]{fullShare} f : sProp 𝕄)),
    ← pointsTo_biUnion Finset.univ (ℓ := xLoc d) xSet (fun w _ w' _ h => Rect.part_disjoint hdx h), Rect.biUnion_part hdx]

theorem eWhole_split (d : Dev nD) (f : Buf (Elt F) (eLoc d)) :
    (eLoc d ↦{fullShare} f : sProp 𝕄)
      = bigSep Finset.univ fun c : Fin 2 => bigSep Finset.univ fun i : Fin 16 => eLoc d ↦{eShare (wOf c i)} f := by
  rw [← regroup_w (fun w => (eLoc d ↦{eShare w} f : sProp 𝕄))]
  exact pointsTo_piecesOf Finset.univ f (by decide) fullShare

theorem oWhole_split (d : Dev nD) (f : Buf (Elt F) (oLoc d)) :
    (oLoc d ↦{fullShare} f : sProp 𝕄)
      = bigSep Finset.univ fun c : Fin 2 => bigSep Finset.univ fun i : Fin 16 => bigSep Finset.univ fun g : Fin 128 =>
          oLoc d ↦[oPiece (bOf c i g)]{fullShare} f := by
  rw [← regroup_b (fun b => (oLoc d ↦[oPiece b]{fullShare} f : sProp 𝕄)),
    ← pointsTo_biUnion Finset.univ (ℓ := oLoc d) oPiece (fun b _ b' _ h => Rect.part_disjoint hdo h), Rect.biUnion_part hdo]

/-! ## What the call takes and hands back -/

section Res

variable (fx : (d : Dev nD) → Buf (Elt F) (xLoc d)) (fe : (d : Dev nD) → Buf (Elt F) (eLoc d)) (fo : (d : Dev nD) → Buf (Elt F) (oLoc d))

theorem P_st (d : Dev nD) (c : Fin ((K (F := F)).nCore 0)) :
    (P fx fe fo).st 0 d c = bigSep Finset.univ fun i : Fin 16 => goRes fx fe fo d (Fin.cast (nCore_eq 0) c) i := rfl
theorem P_dn (d : Dev nD) (c : Fin ((K (F := F)).nCore 0)) :
    (P fx fe fo).dn 0 d c = bigSep Finset.univ fun i : Fin 16 => tdRes fx fe d (Fin.cast (nCore_eq 0) c) i := rfl
theorem P_go (d : Dev nD) (c : Fin ((K (F := F)).nCore 0)) (i : Fin ((K (F := F)).nSub 0)) :
    (P fx fe fo).go 0 d c i = goRes fx fe fo d (Fin.cast (nCore_eq 0) c) (Fin.cast (nSub_eq 0) i) := rfl
theorem P_td (d : Dev nD) (c : Fin ((K (F := F)).nCore 0)) (i : Fin ((K (F := F)).nSub 0)) :
    (P fx fe fo).td 0 d c i = tdRes fx fe d (Fin.cast (nCore_eq 0) c) (Fin.cast (nSub_eq 0) i) := rfl

theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

/-- What the call takes for the two SparseCores: the flattened indices, the padded table and the result, whole. -/
theorem st0_eq (d : Dev nD) :
    (bigSep Finset.univ fun c : Fin ((K (F := F)).nCore 0) => (P fx fe fo).st 0 d c)
      = iprop((xLoc d ↦{fullShare} fx d) ∗ (eLoc d ↦{fullShare} fe d) ∗ (oLoc d ↦{fullShare} fo d)) := by
  rw [bigSep_congr fun c _ => P_st fx fe fo d c, bigSep_cores (F := F) (fun c => bigSep Finset.univ fun i : Fin 16 => goRes fx fe fo d c i)]
  simp only [goRes, bigSep_sep']
  rw [← xWhole_split, ← eWhole_split, ← oWhole_split]

/-- What it hands back: the same, the result holding the 128-column lookup. -/
theorem dn0_eq (d : Dev nD) :
    (bigSep Finset.univ fun c : Fin ((K (F := F)).nCore 0) => (P fx fe fo).dn 0 d c)
      = iprop((xLoc d ↦{fullShare} fx d) ∗ (eLoc d ↦{fullShare} fe d)
          ∗ (oLoc d ↦{fullShare} (Cert.Spec.padded (fx d) (fe d) : Buf (Elt F) (oLoc d)))) := by
  rw [bigSep_congr fun c _ => P_dn fx fe fo d c, bigSep_cores (F := F) (fun c => bigSep Finset.univ fun i : Fin 16 => tdRes fx fe d c i)]
  simp only [tdRes, bigSep_sep']
  rw [← xWhole_split, ← eWhole_split, ← oWhole_split]

/-! ## A SparseCore's operands among its subcores: the identity -/

theorem vecSplit : (K (F := F)).VecSplit' (P fx fe fo) 0 := by
  intro d c
  rw [P_st, P_dn, bigSep_congr fun i _ => P_go fx fe fo d c i, bigSep_congr fun i _ => P_td fx fe fo d c i,
    bigSep_tasks (F := F) (fun i => goRes fx fe fo d (Fin.cast (nCore_eq 0) c) i),
    bigSep_tasks (F := F) (fun i => tdRes fx fe d (Fin.cast (nCore_eq 0) c) i)]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fx fe fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Res

end Cert.Proof.KI

end
-- ==== Proof.KI.TileValue.lean ====
/-
  What one vector subcore's transfers carry, as functions of the flattened index array and the padded table.

  Subcore (c, i) is worker w = 2 i + c. Its index words are the w-th stretch of 25600 of the flattened index array;
  batch row g of its 128 uses words 200 g … 200 g + 199 of that stretch, that is positions
  25600 w + 200 g + l = (128 w + g) * 200 + l of the flattened array: the positions of batch row 128 w + g. The
  indexed copy for batch row g puts, at (l, q) of a 200 × 128 row buffer, the padded table's entry (row, q), the row
  being the word at position l of that window read as a natural number; in range, that is the row the lookup names.
  The copy out then writes the buffer over batch row 128 w + g of the result through a view whose element (l, q) is
  the result's (128 w + g, l, q); so that batch row holds the 128-column lookup.
-/
import proofs.«206599_g37160057045681_cont_8to1_b_383_13_alg».proof.Proof.KI.Common
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

-- the four arrays, as whole memrefs
local notation "xW" => (Memref.whole main_v0_scv : Memref sig Kind.scVector Space.hbm S819200 EltTy.i32)
local notation "eW" => (Memref.whole main_v1_scv : Memref sig Kind.scVector Space.hbm S100000x128 EltTy.f32)
local notation "oW" => (Memref.whole main_v2_scv : Memref sig Kind.scVector Space.hbm S4096x200x128 EltTy.f32)
local notation "sI" => (Memref.whole cc0_scratch0 : Memref sig Kind.scVector Space.vmem S25600 EltTy.i32)

/-- Batch row `g` of subcore (c, i) as the indexed copy delivers it: at (l, q) the padded table's entry (row, q), the
    row named by the index word at (128 w + g, l). -/
def rowsOf (fxd : S819200.Idx → BitVec 32) (fed : S100000x128.Idx → Elt F .f32) (c : Fin 2) (i : Fin 16) (g : Fin 128) :
    S200x128.Idx → Elt F .f32 :=
  fun y => fed (ValueIdx.ix2 (Cert.Spec.rowOf (fxd (ValueIdx.ix1 (Cert.Spec.flatPos (bOf c i g) (y 0))))) (y 1))

/-! ## Reads through the slices -/

/-- The whole-table slice reads the table. -/
theorem read_table (fed : S100000x128.Idx → Elt F .f32) (x : S100000x128.Idx) :
    ((eW).slice (Rect.unit (s := S100000x128) ![0, 0] S100000x128.size inb_S100000x128_S100000x128_0_0) (fun _ => rfl)).view.read (Elt F) fed x
      = fed x := by
  have he : ((eW).slice (Rect.unit (s := S100000x128) ![0, 0] S100000x128.size inb_S100000x128_S100000x128_0_0) (fun _ => rfl)).view.emb x = x := by
    funext a; apply Fin.ext
    match a with
    | ⟨0, _⟩ => show 0 + 1 * (x 0).val = (x 0).val; omega
    | ⟨1, _⟩ => show 0 + 1 * (x 1).val = (x 1).val; omega
  rw [View.read_apply, he]
  rfl

/-- Word `p` of a subcore's stretch of index words is word 25600 w + p of the flattened index array. -/
theorem read_stretch (L : grid0.Coords) (fxd : S819200.Idx → BitVec 32) (p : Fin 25600) :
    ((xW).slice (Rect.unit (s := S819200) (k0_off1 L) S25600.size (k0_off1_inb L)) (fun _ => rfl)).view.read (Elt F) fxd (ValueIdx.ix1 p)
      = fxd (ValueIdx.ix1 ⟨25600 * (wOf (cL L) (jL L)).val + p.val, by have := (wOf (cL L) (jL L)).isLt; have := p.isLt; omega⟩) := by
  have he : ((xW).slice (Rect.unit (s := S819200) (k0_off1 L) S25600.size (k0_off1_inb L)) (fun _ => rfl)).view.emb (ValueIdx.ix1 p)
      = ValueIdx.ix1 ⟨25600 * (wOf (cL L) (jL L)).val + p.val, by have := (wOf (cL L) (jL L)).isLt; have := p.isLt; omega⟩ := by
    funext a; apply Fin.ext
    match a with
    | ⟨0, _⟩ =>
      show k0_off1 L 0 + 1 * p.val = 25600 * ((L 1).val * 2 + (L 0).val) + p.val
      rw [k0_off1_eq]
      show 51200 * (L 1).val + 25600 * (L 0).val + 1 * p.val = 25600 * ((L 1).val * 2 + (L 0).val) + p.val
      omega
  rw [View.read_apply, he]
  rfl

/-- Word `l` of the list window for batch row `g` is word 200 g + l of the index scratch. -/
theorem read_window (idx : S25600.Idx → BitVec 32) (g : Fin 128)
    (inb : ∀ a, (![200 * g.val] : Fin 1 → Nat) a + S200.size a ≤ S25600.size a) (l : Fin 200) :
    ((sI).slice (Rect.unit (s := S25600) ![200 * g.val] S200.size inb) (fun _ => rfl)).view.read (Elt F) idx (ValueIdx.ix1 l)
      = idx (ValueIdx.ix1 ⟨200 * g.val + l.val, by have := g.isLt; have := l.isLt; omega⟩) := by
  have he : ((sI).slice (Rect.unit (s := S25600) ![200 * g.val] S200.size inb) (fun _ => rfl)).view.emb (ValueIdx.ix1 l)
      = ValueIdx.ix1 ⟨200 * g.val + l.val, by have := g.isLt; have := l.isLt; omega⟩ := by
    funext a; apply Fin.ext
    match a with
    | ⟨0, _⟩ => show 200 * g.val + 1 * l.val = 200 * g.val + l.val; omega
  rw [View.read_apply, he]
  rfl

/-- Entry `k` of a 200-word list, as a row: the word at position `k`, read as a natural number. -/
theorem rows_val {o z : Nat} (idx : S200.Idx → Elt F .i32) (hn : S200.numel = o) (h : ∀ x, (idx x).toNat < z) (k : Fin o)
    (k' : Fin 200) (hk : k.val = k'.val) : (SparseCore.rows idx hn h k).val = (idx (ValueIdx.ix1 k')).toNat := by
  have e : S200.rowMajor.symm (k.cast hn.symm) = ValueIdx.ix1 k' :=
    (Equiv.symm_apply_eq _).2 (Fin.ext (by rw [Shape.rowMajor_val_one]; exact hk))
  show (idx (S200.rowMajor.symm (k.cast hn.symm))).toNat = _
  rw [e]

/-! ## What the indexed copy delivers -/

/-- THE GATHER'S PAYLOAD for batch row `g` of the subcore at grid point `L`: the rows of the padded table that the
    index words of batch row 128 w + g name. -/
theorem gather_rows (L : grid0.Coords) (fxd : S819200.Idx → BitVec 32) (fed : S100000x128.Idx → Elt F .f32) (g : Fin 128)
    (off : Fin 1 → Nat) (inb : ∀ a, off a + S200.size a ≤ S25600.size a) (hoff : off = ![200 * g.val])
    (hn : S200.numel = S200x128.size gathers_S100000x128_S200x128.axis')
    (hin : ∀ x, (((sI).slice (Rect.unit (s := S25600) off S200.size inb) (fun _ => rfl)).view.read (Elt F)
        (((xW).slice (Rect.unit (s := S819200) (k0_off1 L) S25600.size (k0_off1_inb L)) (fun _ => rfl)).view.read (Elt F) fxd) x).toNat
      < S100000x128.size gathers_S100000x128_S200x128.axis) :
    SparseCore.gatherPayload gathers_S100000x128_S200x128
        (((eW).slice (Rect.unit (s := S100000x128) ![0, 0] S100000x128.size inb_S100000x128_S100000x128_0_0) (fun _ => rfl)).view.read (Elt F) fed)
        (SparseCore.rows (((sI).slice (Rect.unit (s := S25600) off S200.size inb) (fun _ => rfl)).view.read (Elt F)
          (((xW).slice (Rect.unit (s := S819200) (k0_off1 L) S25600.size (k0_off1_inb L)) (fun _ => rfl)).view.read (Elt F) fxd)) hn hin)
      = rowsOf fxd fed (cL L) (jL L) g := by
  subst hoff
  funext y
  obtain ⟨l, q, rfl⟩ : ∃ (l : Fin 200) (q : Fin 128), y = ValueIdx.ix2 l q := ⟨y 0, y 1, ValueIdx.eq_ix2 y⟩
  -- the source index: the named row, the same column
  have hidx : gathers_S100000x128_S200x128.idx
      (SparseCore.rows (((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)) hn hin)
      (ValueIdx.ix2 l q)
      = ValueIdx.ix2 (SparseCore.rows (((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)) hn hin l) q := by
    funext b
    match b with
    | ⟨0, _⟩ => exact Shape.Gathers.idx_axis gathers_S100000x128_S200x128 _ (ValueIdx.ix2 l q)
    | ⟨1, _⟩ => exact Fin.ext (Shape.Gathers.idx_of_ne gathers_S100000x128_S200x128 _ (ValueIdx.ix2 l q) ⟨1, by decide⟩ (by decide))
  unfold SparseCore.gatherPayload
  rw [hidx]
  refine (read_table (F := F) fed _).trans ?_
  refine congrArg fed (congrArg (fun r => ValueIdx.ix2 r q) (Fin.ext ?_))
  -- word l' of the window is the index word at (128 w + g, l')
  have hw : ∀ l' : Fin 200,
      ((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)
        (ValueIdx.ix1 l')
      = fxd (ValueIdx.ix1 (Cert.Spec.flatPos (bOf (cL L) (jL L) g) l')) := fun l' =>
    (read_window (F := F) _ g inb l').trans ((read_stretch (F := F) L fxd _).trans
      (congrArg fxd (congrArg ValueIdx.ix1 (Fin.ext (by
        show 25600 * ((jL L).val * 2 + (cL L).val) + (200 * g.val + l'.val)
          = (((jL L).val * 2 + (cL L).val) * 128 + g.val) * 200 + l'.val
        omega)))))
  have hl : (fxd (ValueIdx.ix1 (Cert.Spec.flatPos (bOf (cL L) (jL L) g) l))).toNat < 100000 :=
    lt_of_eq_of_lt (congrArg BitVec.toNat (hw l)).symm (hin (ValueIdx.ix1 l))
  refine (rows_val (F := F) _ hn hin l l rfl).trans ((congrArg BitVec.toNat (hw l)).trans ?_)
  show (fxd (ValueIdx.ix1 (Cert.Spec.flatPos (bOf (cL L) (jL L) g) l))).toNat
    = min (fxd (ValueIdx.ix1 (Cert.Spec.flatPos (bOf (cL L) (jL L) g) l))).toNat 99999
  omega

/-! ## What the copy out leaves -/

/-- THE COPY OUT of batch row `g`: written whole through the squeezed slab view of batch row 128 w + g, the rows leave
    that batch row of the result at the 128-column lookup. -/
theorem out_row (L : grid0.Coords) (g : Fin 128) (off : Fin 3 → Nat)
    (inb : ∀ a, off a + S1x200x128.size a ≤ S4096x200x128.size a) (hoff : off = ![(bOf (cL L) (jL L) g).val, 0, 0])
    (fo : S4096x200x128.Idx → Elt F .f32) (fxd : S819200.Idx → BitVec 32) (fed : S100000x128.Idx → Elt F .f32) :
    ∀ j ∈ oPiece (bOf (cL L) (jL L) g),
      (((oW).slice (Rect.unit (s := S4096x200x128) off S1x200x128.size inb) (fun _ => rfl)).squeeze S200x128
          squeezes_S1x200x128_S200x128).view.writes (Elt F) fo
        [⟨Rect.whole S200x128, (ReadAs.same : ReadAs (Elt F) S200x128 .f32 S200x128 .f32).apply (rowsOf fxd fed (cL L) (jL L) g)⟩] j
        = Cert.Spec.padded fxd fed j := by
  subst hoff
  intro j hj
  have hm : (bOf (cL L) (jL L) g).val * 1 ≤ (j 0).val ∧ (j 0).val < (bOf (cL L) (jL L) g).val * 1 + 1 :=
    (Rect.mem_set_unit.mp hj) 0
  obtain ⟨b', l, q, rfl⟩ : ∃ (b' : Fin 4096) (l : Fin 200) (q : Fin 128), j = ValueIdx.ix3 b' l q :=
    ⟨j 0, j 1, j 2, ValueIdx.eq_ix3 j⟩
  have hb : b' = bOf (cL L) (jL L) g := Fin.ext (by
    have h0 : ((ValueIdx.ix3 b' l q : S4096x200x128.Idx) 0).val = b'.val := rfl
    omega)
  subst hb
  have hemb : ((((oW).slice (Rect.unit (s := S4096x200x128) ![(bOf (cL L) (jL L) g).val, 0, 0] S1x200x128.size inb) (fun _ => rfl)).squeeze S200x128
        squeezes_S1x200x128_S200x128).view.slice (Rect.whole S200x128)).emb (ValueIdx.ix2 l q)
      = ValueIdx.ix3 (bOf (cL L) (jL L) g) l q := by
    show (Rect.unit (s := S4096x200x128) ![(bOf (cL L) (jL L) g).val, 0, 0] S1x200x128.size inb).emb
        (Shape.reshapeEquiv _ ((Rect.whole S200x128).emb (ValueIdx.ix2 l q))) = _
    rw [Rect.emb_whole_apply, ValueIdx.reshapeEquiv_ix2_1ab]
    funext a; apply Fin.ext
    match a with
    | ⟨0, _⟩ => show (bOf (cL L) (jL L) g).val + 1 * 0 = (bOf (cL L) (jL L) g).val; omega
    | ⟨1, _⟩ => show 0 + 1 * l.val = l.val; omega
    | ⟨2, _⟩ => show 0 + 1 * q.val = q.val; omega
  rw [View.writes_singleton]
  refine (congrArg _ hemb.symm).trans ((View.write_emb_of_mem _ _ (Finset.mem_univ _)).trans ?_)
  rfl

end Cert.Proof.KI

end
-- ==== Proof.KI.Body.lean ====
/-
  One vector subcore's task, run once at a symbolic subcore (c, i).

  The task copies its 25600 index words into its index scratch, then moves its 128 batch rows through a ring of
  four 200 × 128 row buffers: batch row g is gathered from the padded table into buffer g mod 4 (an indexed copy,
  row r of the buffer taking the table row that index word 200 g + r names) and then copied from the buffer to
  batch row 128 w + g of the result. Each buffer has a semaphore for its gathers and one for its copies out, so
  on every semaphore at most one transfer is outstanding, and a buffer is touched by nothing between the start of
  a transfer on it and the wait for that transfer. Two gathers and two copies out are in the air at every loop
  boundary; the loop's invariant holds them as transfers in flight, each with what it will deliver.
-/
import proofs.«206599_g37160057045681_cont_8to1_b_383_13_alg».proof.Proof.KI.Common
import proofs.«206599_g37160057045681_cont_8to1_b_383_13_alg».proof.Proof.KI.TileValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S819200 EltTy.i32)
local notation "eW" => (Memref.whole Cert.KernelIdeal.main_v1_scv : Memref Cert.KernelIdeal.sig Kind.scVector Space.hbm Cert.KernelIdeal.S100000x128 EltTy.f32)
local notation "oW" => (Memref.whole Cert.KernelIdeal.main_v2_scv : Memref Cert.KernelIdeal.sig Kind.scVector Space.hbm Cert.KernelIdeal.S4096x200x128 EltTy.f32)
local notation "sI" => (Memref.whole Cert.KernelIdeal.cc0_scratch0 : Memref Cert.KernelIdeal.sig Kind.scVector Space.vmem Cert.KernelIdeal.S25600 EltTy.i32)
local notation "sR" => (Memref.whole Cert.KernelIdeal.cc0_scratch1 : Memref Cert.KernelIdeal.sig Kind.scVector Space.vmem Cert.KernelIdeal.S4x200x128 EltTy.f32)

/-! ## Taking listed members out of a separating family -/

section Pack
variable {M : Type} [URA M] {α : Type} [DecidableEq α]

/-- The listed members one by one, then the family over what is left. -/
def pack (Φ : α → sProp M) : List α → Finset α → sProp M
  | [], S => bigSep S Φ
  | a :: l, S => iprop(Φ a ∗ pack Φ l (S.erase a))

theorem bigSep_pack (Φ : α → sProp M) : ∀ (l : List α) (S : Finset α), l.Nodup → (∀ a ∈ l, a ∈ S) → bigSep S Φ = pack Φ l S
  | [], _, _, _ => rfl
  | a :: l, S, hn, hm => by
    rw [SparseCore.bigSep_erase' (hm a List.mem_cons_self)]
    show _ = iprop(Φ a ∗ pack Φ l (S.erase a))
    rw [bigSep_pack Φ l (S.erase a) (List.nodup_cons.mp hn).2 fun b hb =>
      Finset.mem_erase.mpr ⟨fun e => (List.nodup_cons.mp hn).1 (e ▸ hb), hm b (List.mem_cons_of_mem _ hb)⟩]

end Pack

variable [FloatOps F]

section Tile
variable (d : Dev nD) (L : grid0.Coords)

/-- The task's nine DMA semaphores: four for the gathers, four for the copies out, one for the index fetch. -/
def semList : List (DmaSem sig) :=
  [cc0_scratch2.sem, cc0_scratch3.sem, cc0_scratch4.sem, cc0_scratch5.sem, cc0_scratch6.sem, cc0_scratch7.sem, cc0_scratch8.sem, cc0_scratch9.sem, cc0_scoped0.sem]

theorem semList_nodup : (semList).Nodup := by decide
theorem semList_scoped : ∀ s ∈ semList, (SemLoc.dma s : SemLoc sig).isScoped .scVector = true := by decide

def cellList : List (GSem nD τ sig) := semList.map fun s => (V d (cV L) (jV L), SemLoc.dma s)

theorem ownSems0_V :
    (ownSems0 (V d (cV L) (jV L)) : sProp 𝕄) = pack (fun g => semVal g 0) (cellList d L) (ownCells (V d (cV L) (jV L))) := by
  unfold SparseCore.Cfg.ownSems0
  refine bigSep_pack _ _ _ ?_ ?_
  · exact (List.Nodup.map (fun a b e => by injection (Prod.mk.inj e).2) semList_nodup)
  · intro g hg
    obtain ⟨s, hs, rfl⟩ := List.mem_map.mp hg
    exact mem_ownCells.mpr ⟨rfl, semList_scoped s hs⟩

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The subcore's stretch of the flattened index array, as the task slices it. -/
abbrev xSl (L : grid0.Coords) : Memref sig .scVector .hbm S25600 .i32 :=
  (xW).slice (Rect.unit (s := S819200) (k0_off1 L) S25600.size (k0_off1_inb L)) (fun _ => rfl)

theorem xRect_eq : Rect.unit (s := S819200) (k0_off1 L) S25600.size (k0_off1_inb L) = Rect.part (s := S819200) (a₀ := 0) hdx (wOf (cL L) (jL L)) := by
  unfold Rect.part Rect.block
  congr 1 <;> funext a
  · rw [k0_off1_eq]
    match a with
    | 0 => simp [Shape.partIx, Shape.partSize, wOf]; omega
  · match a with
    | 0 => simp [Shape.partSize]

theorem set_xSl : (xSl L).view.set = xSet (wOf (cL L) (jL L)) := by
  show ((xW).view.slice (Rect.unit (s := S819200) (k0_off1 L) S25600.size (k0_off1_inb L))).set = _
  rw [xRect_eq]
  show ((View.whole (main_v0_scv : Ref sig .scVector)).slice _).set = _
  rw [View.set_slice]; exact Finset.map_refl

theorem pts_xSl (f : Buf (Elt F) (xLoc d)) :
    ((xSl L).view.loc (V d (cV L) (jV L)) ↦[(xSl L).view.set]{fullShare} f : sProp 𝕄) = xLoc d ↦[xSet (wOf (cL L) (jL L))]{fullShare} f := by
  rw [set_xSl]

theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl

/-- The index words the subcore fetched: its stretch of the flattened index array, read through the slice. -/
def idxOf (fxd : Buf (Elt F) (xLoc d)) : Buf (Elt F) ((V d (cV L) (jV L)).loc cc0_scratch0) :=
  (xSl L).view.read (Elt F) fxd

section Fin4
variable {M : Type} [URA M]
theorem bigSep_fin4 (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
end Fin4

theorem hd4 : 4 ∣ S4x200x128.size 0 := ⟨1, rfl⟩
/-- Row buffer `b` of the ring: one of the four 200 × 128 slabs of the rows scratch. -/
abbrev slotSet (b : Fin 4) : Finset S4x200x128.Idx := (Rect.part (s := S4x200x128) (a₀ := 0) hd4 b).set

abbrev slot0 : Memref sig .scVector .vmem S200x128 .f32 := ((sR).slice (Rect.unit (s := S4x200x128) ![0, 0, 0] S1x200x128.size inb_S4x200x128_S1x200x128_0_0_0) (fun _ => rfl)).squeeze S200x128 squeezes_S1x200x128_S200x128
abbrev slot1 : Memref sig .scVector .vmem S200x128 .f32 := ((sR).slice (Rect.unit (s := S4x200x128) ![1, 0, 0] S1x200x128.size inb_S4x200x128_S1x200x128_1_0_0) (fun _ => rfl)).squeeze S200x128 squeezes_S1x200x128_S200x128
abbrev slot2 : Memref sig .scVector .vmem S200x128 .f32 := ((sR).slice (Rect.unit (s := S4x200x128) ![2, 0, 0] S1x200x128.size inb_S4x200x128_S1x200x128_2_0_0) (fun _ => rfl)).squeeze S200x128 squeezes_S1x200x128_S200x128
abbrev slot3 : Memref sig .scVector .vmem S200x128 .f32 := ((sR).slice (Rect.unit (s := S4x200x128) ![3, 0, 0] S1x200x128.size inb_S4x200x128_S1x200x128_3_0_0) (fun _ => rfl)).squeeze S200x128 squeezes_S1x200x128_S200x128

theorem slotRect_eq (b : Fin 4) (inb : ∀ a, (![b.val, 0, 0] : Fin 3 → Nat) a + S1x200x128.size a ≤ S4x200x128.size a) :
    Rect.unit (s := S4x200x128) ![b.val, 0, 0] S1x200x128.size inb = Rect.part (s := S4x200x128) (a₀ := 0) hd4 b := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_slice_part (b : Fin 4) : ((sR).view.slice (Rect.part (s := S4x200x128) (a₀ := 0) hd4 b)).set = slotSet b := by
  show ((View.whole (cc0_scratch1 : Ref sig .scVector)).slice _).set = _
  rw [View.set_slice]; exact Finset.map_refl

theorem set_slot0 : (slot0).view.set = slotSet 0 := by
  rw [← set_slice_part]
  show (((sR).view.slice (Rect.unit (s := S4x200x128) ![0, 0, 0] S1x200x128.size inb_S4x200x128_S1x200x128_0_0_0)).reshape S200x128 squeezes_S1x200x128_S200x128.numel_eq).set
    = ((sR).view.slice (Rect.part (s := S4x200x128) (a₀ := 0) hd4 0)).set
  rw [View.set_reshape]
  exact slotRect_eq 0 _ ▸ rfl
theorem set_slot1 : (slot1).view.set = slotSet 1 := by
  rw [← set_slice_part]
  show (((sR).view.slice (Rect.unit (s := S4x200x128) ![1, 0, 0] S1x200x128.size inb_S4x200x128_S1x200x128_1_0_0)).reshape S200x128 squeezes_S1x200x128_S200x128.numel_eq).set
    = ((sR).view.slice (Rect.part (s := S4x200x128) (a₀ := 0) hd4 1)).set
  rw [View.set_reshape]
  exact slotRect_eq 1 _ ▸ rfl
theorem set_slot2 : (slot2).view.set = slotSet 2 := by
  rw [← set_slice_part]
  show (((sR).view.slice (Rect.unit (s := S4x200x128) ![2, 0, 0] S1x200x128.size inb_S4x200x128_S1x200x128_2_0_0)).reshape S200x128 squeezes_S1x200x128_S200x128.numel_eq).set
    = ((sR).view.slice (Rect.part (s := S4x200x128) (a₀ := 0) hd4 2)).set
  rw [View.set_reshape]
  exact slotRect_eq 2 _ ▸ rfl
theorem set_slot3 : (slot3).view.set = slotSet 3 := by
  rw [← set_slice_part]
  show (((sR).view.slice (Rect.unit (s := S4x200x128) ![3, 0, 0] S1x200x128.size inb_S4x200x128_S1x200x128_3_0_0)).reshape S200x128 squeezes_S1x200x128_S200x128.numel_eq).set
    = ((sR).view.slice (Rect.part (s := S4x200x128) (a₀ := 0) hd4 3)).set
  rw [View.set_reshape]
  exact slotRect_eq 3 _ ▸ rfl

/-- The rows scratch whole is its four row buffers. -/
theorem sR_slots (f : Buf (Elt F) ((V d (cV L) (jV L)).loc cc0_scratch1)) :
    ((V d (cV L) (jV L)).loc cc0_scratch1 ↦{fullShare} f : sProp 𝕄)
      = iprop(((slot0).view.loc (V d (cV L) (jV L)) ↦[(slot0).view.set]{fullShare} f) ∗ ((slot1).view.loc (V d (cV L) (jV L)) ↦[(slot1).view.set]{fullShare} f)
          ∗ ((slot2).view.loc (V d (cV L) (jV L)) ↦[(slot2).view.set]{fullShare} f) ∗ ((slot3).view.loc (V d (cV L) (jV L)) ↦[(slot3).view.set]{fullShare} f)) := by
  rw [set_slot0, set_slot1, set_slot2, set_slot3]
  rw [← bigSep_fin4 (fun b : Fin 4 => ((V d (cV L) (jV L)).loc cc0_scratch1 ↦[slotSet b]{fullShare} f : sProp 𝕄))]
  rw [← pointsTo_biUnion Finset.univ (ℓ := (V d (cV L) (jV L)).loc cc0_scratch1) slotSet (fun i _ j _ h => Rect.part_disjoint hd4 h), Rect.biUnion_part hd4]

theorem idxOf_lt (fxd : Buf (Elt F) (xLoc d)) (h : Cert.Spec.InRangeFlat fxd) (j : Idx ((V d (cV L) (jV L)).loc cc0_scratch0)) :
    (idxOf (F := F) d L fxd j).toNat < 100000 := by
  unfold idxOf; rw [View.read_apply, cast_eq]; exact h _

theorem pts_eW (q : PosShare TreeShare) (f : Buf (Elt F) (eLoc d)) :
    ((eW).view.loc (V d (cV L) (jV L)) ↦{q} f : sProp 𝕄) = eLoc d ↦{q} f := rfl

/-! ### The result's batch rows, as the task addresses them -/

theorem oRect_eq (off : Fin 3 → Nat) (inb : ∀ a, off a + S1x200x128.size a ≤ S4096x200x128.size a) (b : Fin 4096) (h : off = ![b.val, 0, 0]) :
    Rect.unit (s := S4096x200x128) off S1x200x128.size inb = Rect.part (s := S4096x200x128) (a₀ := 0) hdo b := by
  subst h
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_slice_opart (b : Fin 4096) : ((oW).view.slice (Rect.part (s := S4096x200x128) (a₀ := 0) hdo b)).set = oPiece b := by
  show ((View.whole (main_v2_scv : Ref sig .scVector)).slice _).set = _
  rw [View.set_slice]; exact Finset.map_refl

/-- A batch row of the result sliced at offsets `off` and squeezed, as the task's copies out name it. -/
abbrev oRow (off : Fin 3 → Nat) (inb : ∀ a, off a + S1x200x128.size a ≤ S4096x200x128.size a) : Memref sig .scVector .hbm S200x128 .f32 :=
  ((oW).slice (Rect.unit (s := S4096x200x128) off S1x200x128.size inb) (fun _ => rfl)).squeeze S200x128 squeezes_S1x200x128_S200x128

theorem set_oRow (off : Fin 3 → Nat) (inb : ∀ a, off a + S1x200x128.size a ≤ S4096x200x128.size a) (b : Fin 4096) (h : off = ![b.val, 0, 0]) :
    (oRow off inb).view.set = oPiece b := by
  rw [← set_slice_opart]
  show (((oW).view.slice (Rect.unit (s := S4096x200x128) off S1x200x128.size inb)).reshape S200x128 squeezes_S1x200x128_S200x128.numel_eq).set
    = ((oW).view.slice (Rect.part (s := S4096x200x128) (a₀ := 0) hdo b)).set
  rw [View.set_reshape]
  exact oRect_eq off inb b h ▸ rfl

theorem pts_oRow (off : Fin 3 → Nat) (inb : ∀ a, off a + S1x200x128.size a ≤ S4096x200x128.size a) (b : Fin 4096) (h : off = ![b.val, 0, 0])
    (f : Buf (Elt F) (oLoc d)) :
    ((oRow off inb).view.loc (V d (cV L) (jV L)) ↦[(oRow off inb).view.set]{fullShare} f : sProp 𝕄) = oLoc d ↦[oPiece b]{fullShare} f := by
  rw [set_oRow off inb b h]

theorem k0_off2_closed : ∀ (i : grid0.Coords) (r : Fin 4), k0_off2 i (k0_off2_at r) = ![256 * (i 1).val + 128 * (i 0).val + (k0_off2_at r).toNat, 0, 0] := by
  decide +kernel

/-- Batch row `g` of this subcore, as a row of the whole result. -/
abbrev bL (g : Fin 128) : Fin 4096 := bOf (cL L) (jL L) g

theorem off2_eq (r : Fin 4) (g : Fin 128) (hg : (k0_off2_at r).toNat = g.val) : k0_off2 L (k0_off2_at r) = ![(bL L g).val, 0, 0] := by
  rw [k0_off2_closed, hg]
  show _ = ![((L 1).val * 2 + (L 0).val) * 128 + g.val, 0, 0]
  congr 1; omega

theorem off4_eq (k : Fin k0_t1_loop.trips) (r : Fin 4) (g : Fin 128) (hg : 4 * k.val + r.val + 2 = g.val) :
    k0_off4 L k (BitVec.ofNat 32 r.val) = ![(bL L g).val, 0, 0] := by
  rw [k0_off4_eq]
  show _ = ![((L 1).val * 2 + (L 0).val) * 128 + g.val, 0, 0]
  congr 1; omega

section Families
variable {M : Type} [URA M]

/-- The batch rows from `lo` on, as a family: its first member and the rest. -/
theorem from_take (lo : ℕ) (h : lo < 128) (Φ : Fin 128 → sProp M) :
    bigSep (Finset.univ.filter fun g : Fin 128 => lo ≤ g.val) Φ = iprop(Φ ⟨lo, h⟩ ∗ bigSep (Finset.univ.filter fun g : Fin 128 => lo + 1 ≤ g.val) Φ) := by
  rw [← SparseCore.bigSep_insert' (by simp)]
  congr 1
  ext g
  simp only [Finset.mem_filter, Finset.mem_univ, true_and, Finset.mem_insert]
  constructor
  · intro hg
    by_cases e : g.val = lo
    · exact .inl (Fin.ext e)
    · exact .inr (by omega)
  · rintro (rfl | hg)
    · exact le_refl _
    · omega

/-- The batch rows below `hi + 1`: the one at `hi` and those below it. -/
theorem below_put (hi : ℕ) (h : hi < 128) (Φ : Fin 128 → sProp M) :
    bigSep (Finset.univ.filter fun g : Fin 128 => g.val < hi + 1) Φ = iprop(Φ ⟨hi, h⟩ ∗ bigSep (Finset.univ.filter fun g : Fin 128 => g.val < hi) Φ) := by
  rw [← SparseCore.bigSep_insert' (by simp)]
  congr 1
  ext g
  simp only [Finset.mem_filter, Finset.mem_univ, true_and, Finset.mem_insert]
  constructor
  · intro hg
    by_cases e : g.val = hi
    · exact .inl (Fin.ext e)
    · exact .inr (by omega)
  · rintro (rfl | hg)
    · exact Nat.lt_succ_self _
    · omega

theorem from_zero (Φ : Fin 128 → sProp M) : bigSep (Finset.univ.filter fun g : Fin 128 => 0 ≤ g.val) Φ = bigSep Finset.univ Φ := by
  rw [Finset.filter_true_of_mem (fun g _ => Nat.zero_le g.val)]
theorem below_all (Φ : Fin 128 → sProp M) : bigSep (Finset.univ.filter fun g : Fin 128 => g.val < 128) Φ = bigSep Finset.univ Φ := by
  rw [Finset.filter_true_of_mem (fun g _ => g.isLt)]
theorem below_zero (Φ : Fin 128 → sProp M) : bigSep (Finset.univ.filter fun g : Fin 128 => g.val < 0) Φ = iprop(emp) := by
  rw [show (Finset.univ.filter fun g : Fin 128 => g.val < 0) = ∅ from by ext g; simp]; exact bigSep_empty
theorem from_end (Φ : Fin 128 → sProp M) : bigSep (Finset.univ.filter fun g : Fin 128 => 128 ≤ g.val) Φ = iprop(emp) := by
  rw [show (Finset.univ.filter fun g : Fin 128 => 128 ≤ g.val) = ∅ from by ext g; simp]; exact bigSep_empty

end Families

/-! ### The index scratch's 128 list windows, the padded table as every gather names it -/

theorem hdl : 128 ∣ S25600.size 0 := ⟨200, rfl⟩
/-- The 200 index words of batch row `g`. -/
abbrev lwSet (g : Fin 128) : Finset S25600.Idx := (Rect.part (s := S25600) (a₀ := 0) hdl g).set

/-- A list window sliced at offset `off`, as a gather names it. -/
abbrev lwM (off : Fin 1 → Nat) (inb : ∀ a, off a + S200.size a ≤ S25600.size a) : Memref sig .scVector .vmem S200 .i32 :=
  (sI).slice (Rect.unit (s := S25600) off S200.size inb) (fun _ => rfl)

theorem lwRect_eq (off : Fin 1 → Nat) (inb : ∀ a, off a + S200.size a ≤ S25600.size a) (g : Fin 128) (h : off = ![200 * g.val]) :
    Rect.unit (s := S25600) off S200.size inb = Rect.part (s := S25600) (a₀ := 0) hdl g := by
  subst h
  unfold Rect.part Rect.block
  congr 1 <;> funext a
  · match a with
    | 0 => simp [Shape.partIx, Shape.partSize]; omega
  · match a with
    | 0 => simp [Shape.partSize]

theorem set_lwM (off : Fin 1 → Nat) (inb : ∀ a, off a + S200.size a ≤ S25600.size a) (g : Fin 128) (h : off = ![200 * g.val]) :
    (lwM off inb).view.set = lwSet g := by
  show ((sI).view.slice (Rect.unit (s := S25600) off S200.size inb)).set = _
  rw [lwRect_eq off inb g h]
  show ((View.whole (cc0_scratch0 : Ref sig .scVector)).slice _).set = _
  rw [View.set_slice]; exact Finset.map_refl

theorem pts_lwM (off : Fin 1 → Nat) (inb : ∀ a, off a + S200.size a ≤ S25600.size a) (g : Fin 128) (h : off = ![200 * g.val])
    (f : Buf (Elt F) ((V d (cV L) (jV L)).loc cc0_scratch0)) :
    ((lwM off inb).view.loc (V d (cV L) (jV L)) ↦[(lwM off inb).view.set]{fullShare} f : sProp 𝕄)
      = (V d (cV L) (jV L)).loc cc0_scratch0 ↦[lwSet g]{fullShare} f := by
  rw [set_lwM off inb g h]

/-- The index scratch whole is its 128 list windows. -/
theorem sI_windows (f : Buf (Elt F) ((V d (cV L) (jV L)).loc cc0_scratch0)) :
    ((sI).view.loc (V d (cV L) (jV L)) ↦{fullShare} f : sProp 𝕄)
      = bigSep Finset.univ fun g : Fin 128 => (V d (cV L) (jV L)).loc cc0_scratch0 ↦[lwSet g]{fullShare} f := by
  rw [← pointsTo_biUnion Finset.univ (ℓ := (V d (cV L) (jV L)).loc cc0_scratch0) lwSet (fun i _ j _ h => Rect.part_disjoint hdl h), Rect.biUnion_part hdl]

theorem off3_eq (k : Fin k0_t1_loop.trips) (r : Fin 4) (g : Fin 128) (hg : 4 * k.val + r.val + 4 = g.val) :
    k0_off3 k (BitVec.ofNat 32 r.val) = ![200 * g.val] := by
  rw [k0_off3_eq]; congr 1; omega

/-- The padded table, sliced whole, as every gather names its source. -/
abbrev eSl : Memref sig .scVector .hbm S100000x128 .f32 :=
  (eW).slice (Rect.unit (s := S100000x128) ![0, 0] S100000x128.size inb_S100000x128_S100000x128_0_0) (fun _ => rfl)

theorem trips_eq : k0_t1_loop.trips = 31 := by decide

/-- Batch row number `n` (kept below 128). -/
def gOf (n : ℕ) : Fin 128 := ⟨min n 127, by omega⟩
theorem gOf_of_lt {n : ℕ} (h : n < 128) : gOf n = ⟨n, h⟩ := Fin.ext (by show min n 127 = n; omega)

/-! ### The loop's invariant -/

theorem set_eSl : (eSl).view.set = Finset.univ := by
  have h : (eSl).view.set = (Rect.unit (s := S100000x128) ![0, 0] S100000x128.size inb_S100000x128_S100000x128_0_0).set := by
    show ((View.whole (main_v1_scv : Ref sig .scVector)).slice _).set = _
    rw [View.set_slice]; exact Finset.map_refl
  rw [h]
  refine Finset.eq_univ_iff_forall.mpr fun i => Rect.mem_set_unit.mpr fun a => ?_
  match a with
  | 0 => exact ⟨Nat.zero_le _, by simpa using (i 0).isLt⟩
  | 1 => exact ⟨Nat.zero_le _, by simpa using (i 1).isLt⟩

theorem pts_eSl (q : PosShare TreeShare) (f : Buf (Elt F) (eLoc d)) :
    ((eSl).view.loc (V d (cV L) (jV L)) ↦[(eSl).view.set]{q} f : sProp 𝕄) = (eW).view.loc (V d (cV L) (jV L)) ↦{q} f := by
  rw [set_eSl]

/-- A batch row of the result after the copy out of a row buffer holding batch row `g`: the 128-column lookup there. -/
theorem out_conv (g : Fin 128) (off : Fin 3 → Nat) (inb : ∀ a, off a + S1x200x128.size a ≤ S4096x200x128.size a) (hoff : off = ![(bL L g).val, 0, 0])
    (fod : Buf (Elt F) (oLoc d)) (fxd : Buf (Elt F) (xLoc d)) (fed : Buf (Elt F) (eLoc d)) (w : S200x128.Idx → Elt F .f32) (hw : w = rowsOf fxd fed (cL L) (jL L) g) :
    ((oRow off inb).view.loc (V d (cV L) (jV L)) ↦[(oRow off inb).view.set]{fullShare}
        (oRow off inb).view.writes (Elt F) fod [⟨Rect.whole S200x128, ReadAs.same.apply w⟩] : sProp 𝕄)
      = oLoc d ↦[oPiece (bL L g)]{fullShare} (Cert.Spec.padded fxd fed : Buf (Elt F) (oLoc d)) := by
  subst hw
  rw [pts_oRow d L off inb (bL L g) hoff]
  exact pointsTo_congr (out_row L g off inb hoff fod fxd fed)

/-- The gather of batch row `g` fills a row buffer with the batch row's table rows. -/
theorem slot_conv {sl : Memref sig .scVector .vmem S200x128 .f32} (f : Buf (Elt F) (sl.view.loc (V d (cV L) (jV L)))) (fxd : Buf (Elt F) (xLoc d)) (fed : Buf (Elt F) (eLoc d))
    (g : Fin 128) (off : Fin 1 → Nat) (inb : ∀ a, off a + S200.size a ≤ S25600.size a) (hoff : off = ![200 * g.val])
    (hn : S200.numel = S200x128.size gathers_S100000x128_S200x128.axis')
    (hin : ∀ x, ((lwM off inb).view.read (Elt F) (idxOf d L fxd) x).toNat < S100000x128.size gathers_S100000x128_S200x128.axis) :
    sl.view.read (Elt F) (sl.view.writes (Elt F) f [⟨Rect.whole S200x128,
      SparseCore.gatherPayload gathers_S100000x128_S200x128 ((eSl).view.read (Elt F) fed) (SparseCore.rows ((lwM off inb).view.read (Elt F) (idxOf d L fxd)) hn hin)⟩])
      = rowsOf fxd fed (cL L) (jL L) g :=
  (View.read_writes_whole _ _ _).trans (gather_rows L fxd fed g off inb hoff hn hin)

/-- What a copy out of a row buffer holding batch row `g` delivers, as the invariant states it. -/
theorem write_deliv (sl : Memref sig .scVector .vmem S200x128 .f32) (fs : Buf (Elt F) (sl.view.loc (V d (cV L) (jV L)))) (wpay : S200x128.Idx → Elt F .f32)
    (S' : Finset (Idx (sl.view.loc (V d (cV L) (jV L)))))
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) (hoff : off = ![(bL L g).val, 0, 0])
    (hw : wpay = ReadAs.same.apply (sl.view.read (Elt F) fs)) (hS : S' = sl.view.set)
    (hpay : sl.view.read (Elt F) fs = rowsOf fxd fed (cL L) (jL L) g) :
    (iprop(((oRow off inb).view.loc (V d (cV L) (jV L)) ↦[(oRow off inb).view.set]{fullShare}
          (oRow off inb).view.writes (Elt F) fod [⟨Rect.whole S200x128, wpay⟩])
        ∗ (sl.view.loc (V d (cV L) (jV L)) ↦[S']{fullShare} fs)) : sProp 𝕄)
      = iprop((oLoc d ↦[oPiece (bL L g)]{fullShare} (Cert.Spec.padded fxd fed : Buf (Elt F) (oLoc d)))
        ∗ (sl.view.loc (V d (cV L) (jV L)) ↦[sl.view.set]{fullShare} fs)) := by
  subst hw hS
  rw [out_conv d L g off inb hoff fod fxd fed _ hpay]

/-- The same of a batch row held (not in flight). -/
theorem row_deliv (sl : Memref sig .scVector .vmem S200x128 .f32) (fs : Buf (Elt F) (sl.view.loc (V d (cV L) (jV L)))) (wpay : S200x128.Idx → Elt F .f32)
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) (hoff : off = ![(bL L g).val, 0, 0])
    (hw : wpay = ReadAs.same.apply (sl.view.read (Elt F) fs))
    (hpay : sl.view.read (Elt F) fs = rowsOf fxd fed (cL L) (jL L) g) :
    ((oRow off inb).view.loc (V d (cV L) (jV L)) ↦[(oRow off inb).view.set]{fullShare}
          (oRow off inb).view.writes (Elt F) fod [⟨Rect.whole S200x128, wpay⟩] : sProp 𝕄)
      = oLoc d ↦[oPiece (bL L g)]{fullShare} (Cert.Spec.padded fxd fed : Buf (Elt F) (oLoc d)) := by
  subst hw
  rw [out_conv d L g off inb hoff fod fxd fed _ hpay]

/-- What a gather delivers, as the invariant states it: the list window under its batch row's number. -/
theorem gather_deliv (sl : Memref sig .scVector .vmem S200x128 .f32) (f : Buf (Elt F) (sl.view.loc (V d (cV L) (jV L))))
    (S' : Finset (Idx (sl.view.loc (V d (cV L) (jV L))))) (S'' : Finset (Idx ((eSl).view.loc (V d (cV L) (jV L)))))
    (fxd : Buf (Elt F) (xLoc d)) (fed : Buf (Elt F) (eLoc d)) (q : PosShare TreeShare)
    (g : Fin 128) (off : Fin 1 → Nat) (inb : ∀ a, off a + S200.size a ≤ S25600.size a) (hoff : off = ![200 * g.val])
    (hS : S' = sl.view.set) (hS'' : S'' = (eSl).view.set) :
    (iprop(((sl.view.loc (V d (cV L) (jV L)) ↦[S']{fullShare} f)
          ∗ ((lwM off inb).view.loc (V d (cV L) (jV L)) ↦[(lwM off inb).view.set]{fullShare} idxOf d L fxd))
        ∗ ((eSl).view.loc (V d (cV L) (jV L)) ↦[S'']{q} fed)) : sProp 𝕄)
      = iprop(((sl.view.loc (V d (cV L) (jV L)) ↦[sl.view.set]{fullShare} f)
          ∗ ((V d (cV L) (jV L)).loc cc0_scratch0 ↦[lwSet g]{fullShare} idxOf d L fxd))
        ∗ ((eSl).view.loc (V d (cV L) (jV L)) ↦[(eSl).view.set]{q} fed)) := by
  subst hS hS''
  rw [pts_lwM d L off inb g hoff]

theorem gOf_eq (n m : ℕ) (h : m < 128) (e : n = m) : gOf n = ⟨m, h⟩ := by subst e; exact gOf_of_lt h

section FilterCongr
variable {M : Type} [URA M]
theorem filter_congr' (p q : Fin 128 → Prop) [DecidablePred p] [DecidablePred q] (h : ∀ g, p g ↔ q g) (Φ : Fin 128 → sProp M) :
    bigSep (Finset.univ.filter p) Φ = bigSep (Finset.univ.filter q) Φ := by
  rw [Finset.filter_congr (fun g _ => h g)]
end FilterCongr

/-- A batch row of the result the copy out has landed in holds the lookup. -/
theorem row_done (sl : Memref sig .scVector .vmem S200x128 .f32) (fs : Buf (Elt F) (sl.view.loc (V d (cV L) (jV L)))) (wpay : S200x128.Idx → Elt F .f32)
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) :
    iprop(((oRow off inb).view.loc (V d (cV L) (jV L)) ↦[(oRow off inb).view.set]{fullShare} (oRow off inb).view.writes (Elt F) fod [⟨Rect.whole S200x128, wpay⟩])
        ∗ ⌜off = ![(bL L g).val, 0, 0] ∧ wpay = ReadAs.same.apply (sl.view.read (Elt F) fs) ∧ sl.view.read (Elt F) fs = rowsOf fxd fed (cL L) (jL L) g⌝)
      ⊢ (oLoc d ↦[oPiece (bL L g)]{fullShare} (Cert.Spec.padded fxd fed : Buf (Elt F) (oLoc d)) : sProp 𝕄) := by
  iintro ⟨H, %h⟩
  obtain ⟨h1, h2, h3⟩ := h
  iapply (Entails.of_eq (row_deliv (F := F) d L sl fs wpay fxd fed fod g off inb h1 h2 h3))
  iexact H

/-- A list window back from its gather, under its batch row's number. -/
theorem win_back (f : Buf (Elt F) ((V d (cV L) (jV L)).loc cc0_scratch0)) (g : Fin 128) (off : Fin 1 → Nat) (inb : ∀ a, off a + S200.size a ≤ S25600.size a) :
    iprop(((lwM off inb).view.loc (V d (cV L) (jV L)) ↦[(lwM off inb).view.set]{fullShare} f) ∗ ⌜off = ![200 * g.val]⌝)
      ⊢ ((V d (cV L) (jV L)).loc cc0_scratch0 ↦[lwSet g]{fullShare} f : sProp 𝕄) := by
  iintro ⟨H, %h⟩
  iapply (Entails.of_eq (pts_lwM (F := F) d L off inb g h f))
  iexact H

/-- The four row buffers, whatever they hold, are the rows scratch whole at some contents. -/
theorem slots_join :
    (bigSep Finset.univ fun b : Fin 4 => iprop(∃ f, (V d (cV L) (jV L)).loc cc0_scratch1 ↦[slotSet b]{fullShare} f))
      ⊢ (iprop(∃ f, (V d (cV L) (jV L)).loc cc0_scratch1 ↦{fullShare} f) : sProp 𝕄) := by
  refine (bigSep_exists_pi Finset.univ (fun b (f : Buf (Elt F) ((V d (cV L) (jV L)).loc cc0_scratch1)) => ((V d (cV L) (jV L)).loc cc0_scratch1 ↦[slotSet b]{fullShare} f : sProp 𝕄))).trans ?_
  iintro ⟨%fs, H⟩
  ihave H' := (pointsTo_biUnion_join Finset.univ slotSet fs (fs 0) (fun i _ j _ h => Rect.part_disjoint hd4 h)) $$ H
  icases H' with ⟨%g, -, Hg⟩
  rw [Rect.biUnion_part hd4]
  iexists g; iexact Hg

theorem pts_slot0 (f : Buf (Elt F) ((slot0).view.loc (V d (cV L) (jV L)))) :
    ((slot0).view.loc (V d (cV L) (jV L)) ↦[(slot0).view.set]{fullShare} f : sProp 𝕄) = (V d (cV L) (jV L)).loc cc0_scratch1 ↦[slotSet 0]{fullShare} f := by rw [set_slot0]
theorem pts_slot1 (f : Buf (Elt F) ((slot1).view.loc (V d (cV L) (jV L)))) :
    ((slot1).view.loc (V d (cV L) (jV L)) ↦[(slot1).view.set]{fullShare} f : sProp 𝕄) = (V d (cV L) (jV L)).loc cc0_scratch1 ↦[slotSet 1]{fullShare} f := by rw [set_slot1]
theorem pts_slot2 (f : Buf (Elt F) ((slot2).view.loc (V d (cV L) (jV L)))) :
    ((slot2).view.loc (V d (cV L) (jV L)) ↦[(slot2).view.set]{fullShare} f : sProp 𝕄) = (V d (cV L) (jV L)).loc cc0_scratch1 ↦[slotSet 2]{fullShare} f := by rw [set_slot2]
theorem pts_slot3 (f : Buf (Elt F) ((slot3).view.loc (V d (cV L) (jV L)))) :
    ((slot3).view.loc (V d (cV L) (jV L)) ↦[(slot3).view.set]{fullShare} f : sProp 𝕄) = (V d (cV L) (jV L)).loc cc0_scratch1 ↦[slotSet 3]{fullShare} f := by rw [set_slot3]

theorem vec1_eq (a b : ℕ) (h : a = b) : (![a] : Fin 1 → ℕ) = ![b] := by rw [h]

/-- The waits a run recorded, packed for the task's exit. -/
theorem owes_pack (O : CellTallies nD τ sig (HIx 1)) (W W1 : Waits sig (HIx 1)) :
    iprop(owes (V d (cV L) (jV L)) O W1 ∗ ⌜∀ p ∈ W1, p ∈ W ∨ p.2 = none⌝)
      ⊢ (iprop(∃ W', ⌜∀ p ∈ W', p ∈ W ∨ p.2 = none⌝ ∗ owes (V d (cV L) (jV L)) O W') : sProp 𝕄) := by
  iintro ⟨HO, %h⟩
  iexists W1; isplitr
  · ipureintro; exact h
  · iexact HO

section Inv
variable (fxd : Buf (Elt F) (xLoc d)) (fed : Buf (Elt F) (eLoc d)) (fod : Buf (Elt F) (oLoc d))

/-- A copy out of row buffer `sl`, holding batch row `g`, to batch row `g` of the result, in flight on semaphore `s`. -/
def writeFlight (s : DmaSem sig) (sl : Memref sig .scVector .vmem S200x128 .f32) (g : Fin 128) : sProp 𝕄 :=
  iprop(∃ (off : Fin 3 → Nat) (inb : ∀ a, off a + S1x200x128.size a ≤ S4096x200x128.size a) (wpay : S200x128.Idx → Elt F .f32)
      (fs : Buf (Elt F) (sl.view.loc (V d (cV L) (jV L)))),
    Transfers.Flight countersEmb (V d (cV L) (jV L)) (SemLoc.dma s) (default : HIx 1) 819200
      iprop(((oRow off inb).view.loc (V d (cV L) (jV L)) ↦[(oRow off inb).view.set]{fullShare} (oRow off inb).view.writes (Elt F) fod [⟨Rect.whole S200x128, wpay⟩])
        ∗ (sl.view.loc (V d (cV L) (jV L)) ↦[sl.view.set]{fullShare} fs))
    ∗ ⌜off = ![(bL L g).val, 0, 0] ∧ wpay = ReadAs.same.apply (sl.view.read (Elt F) fs) ∧ sl.view.read (Elt F) fs = rowsOf fxd fed (cL L) (jL L) g⌝)

/-- A gather of batch row `g` into row buffer `sl` in flight on semaphore `s`, reading the table at share `q`. -/
def gatherFlight (s : DmaSem sig) (sl : Memref sig .scVector .vmem S200x128 .f32) (q : PosShare TreeShare) (g : Fin 128) : sProp 𝕄 :=
  iprop(∃ (off : Fin 1 → Nat) (inb : ∀ a, off a + S200.size a ≤ S25600.size a) (fs : Buf (Elt F) (sl.view.loc (V d (cV L) (jV L)))),
    Transfers.Flight countersEmb (V d (cV L) (jV L)) (SemLoc.dma s) (default : HIx 1) 819200
      iprop(((sl.view.loc (V d (cV L) (jV L)) ↦[sl.view.set]{fullShare} fs)
          ∗ ((lwM off inb).view.loc (V d (cV L) (jV L)) ↦[(lwM off inb).view.set]{fullShare} idxOf d L fxd))
        ∗ ((eSl).view.loc (V d (cV L) (jV L)) ↦[(eSl).view.set]{q} fed))
    ∗ ⌜off = ![200 * g.val] ∧ sl.view.read (Elt F) fs = rowsOf fxd fed (cL L) (jL L) g⌝)

local notation "tokE" b => Transfers.shareTok (eShare (wOf (cL L) (jL L))) 4 b

/-- Before trip `k`: the copies out of batch rows 4k, 4k+1 and the gathers of batch rows 4k+2, 4k+3 are in flight; the other four semaphores
    rest at zero; the list windows from 4k+4 on are unused and those below 4k+2 are back; the batch rows of the result from 4k+2 on are untouched
    and those below 4k hold the lookup. -/
def inv (O : CellTallies nD τ sig (HIx 1)) (W : Waits sig (HIx 1)) (k : ℕ) (_ : PUnit) : sProp 𝕄 :=
  iprop(Transfers.MayWaits (V d (cV L) (jV L)) (none : HIx 1) O
    ∗ writeFlight d L fxd fed fod cc0_scratch6.sem slot0 (gOf (4 * k)) ∗ writeFlight d L fxd fed fod cc0_scratch7.sem slot1 (gOf (4 * k + 1))
    ∗ gatherFlight d L fxd fed cc0_scratch4.sem slot2 (tokE 2) (gOf (4 * k + 2)) ∗ gatherFlight d L fxd fed cc0_scratch5.sem slot3 (tokE 3) (gOf (4 * k + 3))
    ∗ semVal (V d (cV L) (jV L), SemLoc.dma cc0_scratch2.sem) 0 ∗ semVal (V d (cV L) (jV L), SemLoc.dma cc0_scratch3.sem) 0
    ∗ semVal (V d (cV L) (jV L), SemLoc.dma cc0_scratch8.sem) 0 ∗ semVal (V d (cV L) (jV L), SemLoc.dma cc0_scratch9.sem) 0
    ∗ ((eSl).view.loc (V d (cV L) (jV L)) ↦[(eSl).view.set]{tokE 0} fed) ∗ ((eSl).view.loc (V d (cV L) (jV L)) ↦[(eSl).view.set]{tokE 1} fed)
    ∗ bigSep (Finset.univ.filter fun g : Fin 128 => 4 * k + 4 ≤ g.val) (fun g => (V d (cV L) (jV L)).loc cc0_scratch0 ↦[lwSet g]{fullShare} idxOf d L fxd)
    ∗ bigSep (Finset.univ.filter fun g : Fin 128 => g.val < 4 * k + 2) (fun g => (V d (cV L) (jV L)).loc cc0_scratch0 ↦[lwSet g]{fullShare} idxOf d L fxd)
    ∗ bigSep (Finset.univ.filter fun g : Fin 128 => 4 * k + 2 ≤ g.val) (fun g => oLoc d ↦[oPiece (bL L g)]{fullShare} fod)
    ∗ bigSep (Finset.univ.filter fun g : Fin 128 => g.val < 4 * k) (fun g => oLoc d ↦[oPiece (bL L g)]{fullShare} (Cert.Spec.padded fxd fed : Buf (Elt F) (oLoc d)))
    ∗ ∃ W', ⌜∀ p ∈ W', p ∈ W ∨ p.2 = none⌝ ∗ owes (V d (cV L) (jV L)) O W')

end Inv

variable (fx : (d : Dev nD) → Buf (Elt F) (xLoc d)) (fe : (d : Dev nD) → Buf (Elt F) (eLoc d)) (fo : (d : Dev nD) → Buf (Elt F) (oLoc d))

set_option maxHeartbeats 4000000 in
theorem tile_body (hF : (K (F := F)).Facts) (hin : ∀ d, Cert.Spec.InRangeFlat (fx d)) (O : CellTallies nD τ sig (HIx 1)) (W : Waits sig (HIx 1)) (hO : ∀ g, O g none = 0) :
    iprop(levAts (K (F := F)).L (K (F := F)).lev ∗ emp ∗ goRes fx fe fo d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xW (Memref.isWhole_whole _) eW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => iprop(tdRes fx fe d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes cellList semList
  simp only [List.map, pack]
  iintro ⟨#Hlv, -, ⟨Hx, He, Ho⟩, ⟨⟨%fI, HsI⟩, ⟨%fR, HsR⟩, Hbufs⟩, ⟨Hg0, Hg1, Hg2, Hg3, Hw0, Hw1, Hw2, Hw3, Hf, Hsems⟩, HO⟩
  ihave Hmw := ((K (F := F)).mayWaits_none (thr := V d (cV L) (jV L)) hO) $$ Hlv
  ihave Hx' := (Entails.of_eq (pts_xSl (F := F) d L _).symm) $$ Hx
  ihave HsI' := (Entails.of_eq (pts_sI (F := F) d L _).symm) $$ HsI
  sl_exec
  have e0 : View.write (Elt F) (sI).view fI (tile_body.sl.dma0 d L fx) Finset.univ = idxOf d L (fx d) := by
    rw [View.write_whole_univ]; rfl
  ihave HsI2 := (Entails.of_eq (congrArg (fun f => ((sI).view.loc (V d (cV L) (jV L)) ↦{fullShare} f : sProp 𝕄)) e0)) $$ HsI'
  ihave HsR' := (Entails.of_eq (sR_slots (F := F) d L fR)) $$ HsR
  icases HsR' with ⟨Hs0, Hs1, Hs2, Hs3⟩
  -- the index scratch as its 128 list windows; the first four as the first four gathers name them
  ihave HsIw := (Entails.of_eq ((sI_windows (F := F) d L _).trans ((from_zero _).symm.trans ((from_take 0 (by decide) _).trans (congrArg _ ((from_take 1 (by decide) _).trans
    (congrArg _ ((from_take 2 (by decide) _).trans (congrArg _ (from_take 3 (by decide) _)))))))))) $$ HsI2
  icases HsIw with ⟨Hi0, Hi1, Hi2, Hi3, Hiw⟩
  ihave Hi0' := (Entails.of_eq (pts_lwM (F := F) d L ![0] inb_S25600_S200_0 ⟨0, _⟩ rfl _).symm) $$ Hi0
  ihave Hi1' := (Entails.of_eq (pts_lwM (F := F) d L ![200] inb_S25600_S200_200 ⟨1, _⟩ rfl _).symm) $$ Hi1
  ihave Hi2' := (Entails.of_eq (pts_lwM (F := F) d L ![400] inb_S25600_S200_400 ⟨2, _⟩ rfl _).symm) $$ Hi2
  ihave Hi3' := (Entails.of_eq (pts_lwM (F := F) d L ![600] inb_S25600_S200_600 ⟨3, _⟩ rfl _).symm) $$ Hi3
  ihave He' := (Entails.of_eq (pts_eW (F := F) d L _ _).symm) $$ He
  ihave Het := (Transfers.pointsTo_toks_split (eShare (wOf (cL L) (jL L))) 4) $$ He'
  icases Het with ⟨Her', Het⟩
  ihave Her := (Entails.of_eq (pts_eW (F := F) d L _ _)) $$ Her'
  ihave Het' := (Entails.of_eq (bigSep_fin4 _)) $$ Het
  icases Het' with ⟨He0w, He1w, He2w, He3w⟩
  ihave He0 := (Entails.of_eq (pts_eSl (F := F) d L _ _).symm) $$ He0w
  ihave He1 := (Entails.of_eq (pts_eSl (F := F) d L _ _).symm) $$ He1w
  ihave He2 := (Entails.of_eq (pts_eSl (F := F) d L _ _).symm) $$ He2w
  ihave He3 := (Entails.of_eq (pts_eSl (F := F) d L _ _).symm) $$ He3w
  have hinI : ∀ (r : Rect S25600) (hr : ∀ a, r.stride a = 1) (x : r.shape.Idx),
      ((((sI).slice r hr).view.read (Elt F) (idxOf d L (fx d)) x)).toNat < 100000 := by
    intro r hr x
    rw [View.read_apply, cast_eq]; exact idxOf_lt d L (fx d) (hin d) _
  sl_exec
  -- batch rows 0 and 1 of the result, as the first two copies out name them
  ihave Ho' := (Entails.of_eq ((from_zero _).symm.trans ((from_take 0 (by decide) _).trans (congrArg _ (from_take 1 (by decide) _))))) $$ Ho
  icases Ho' with ⟨Ho0, Ho1, Ho⟩
  ihave Ho0' := (Entails.of_eq (pts_oRow (F := F) d L (k0_off2 L 0#32) (k0_off2_inb L 0) (bL L ⟨0, _⟩) (off2_eq L 0 _ rfl) _).symm) $$ Ho0
  ihave Ho1' := (Entails.of_eq (pts_oRow (F := F) d L (k0_off2 L 1#32) (k0_off2_inb L 1) (bL L ⟨1, _⟩) (off2_eq L 1 _ rfl) _).symm) $$ Ho1
  sl_exec
  sl_for (inv d L (fx d) (fe d) (fo d) O W) $$ [Hmw Hw0 Hw1 Hg2 Hg3 Hg0 Hg1 Hw2 Hw3 He0 He1 Hiw Hi0' Hi1' Ho HO]
  case region =>
    intro k _
    have hk : k.val < 31 := trips_eq ▸ k.isLt
    have o3_0 : k0_off3 k 0#32 = ![200 * (4 * k.val + 4)] := (k0_off3_eq k 0).trans (by congr 1; simp; omega)
    have o3_1 : k0_off3 k 1#32 = ![200 * (4 * k.val + 4 + 1)] := (k0_off3_eq k 1).trans (by congr 1; simp; omega)
    have o3_2 : k0_off3 k 2#32 = ![200 * (4 * k.val + 4 + 1 + 1)] := (k0_off3_eq k 2).trans (by congr 1; simp; omega)
    have o3_3 : k0_off3 k 3#32 = ![200 * (4 * k.val + 4 + 1 + 1 + 1)] := (k0_off3_eq k 3).trans (by congr 1; simp; omega)
    have o3_0b : k0_off3 k 0#32 = ![200 * (4 * k.val + 2 + 1 + 1)] := (k0_off3_eq k 0).trans (by congr 1; simp; omega)
    have o3_1b : k0_off3 k 1#32 = ![200 * (4 * k.val + 2 + 1 + 1 + 1)] := (k0_off3_eq k 1).trans (by congr 1; simp; omega)
    have o4_0b : k0_off4 L k 0#32 = ![(bL L ⟨4 * k.val + 1 + 1, by omega⟩).val, 0, 0] := off4_eq L k 0 _ (by simp)
    have o4_1b : k0_off4 L k 1#32 = ![(bL L ⟨4 * k.val + 1 + 1 + 1, by omega⟩).val, 0, 0] := off4_eq L k 1 _ (by simp)
    have g0 : gOf (4 * k.val) = ⟨4 * k.val, by omega⟩ := gOf_eq _ _ _ rfl
    have g1 : gOf (4 * k.val + 1) = ⟨4 * k.val + 1, by omega⟩ := gOf_eq _ _ _ rfl
    have g2 : gOf (4 * k.val + 2) = ⟨4 * k.val + 2, by omega⟩ := gOf_eq _ _ _ rfl
    have g2b : gOf (4 * k.val + 2) = ⟨4 * k.val + 1 + 1, by omega⟩ := gOf_eq _ _ _ rfl
    have g3 : gOf (4 * k.val + 3) = ⟨4 * k.val + 2 + 1, by omega⟩ := gOf_eq _ _ _ rfl
    have g3b : gOf (4 * k.val + 3) = ⟨4 * k.val + 1 + 1 + 1, by omega⟩ := gOf_eq _ _ _ rfl
    have g4 : gOf (4 * (k.val + 1)) = ⟨4 * k.val + 2 + 1 + 1, by omega⟩ := gOf_eq _ _ _ (by omega)
    have g5 : gOf (4 * (k.val + 1) + 1) = ⟨4 * k.val + 2 + 1 + 1 + 1, by omega⟩ := gOf_eq _ _ _ (by omega)
    have g6 : gOf (4 * (k.val + 1) + 2) = ⟨4 * k.val + 4 + 1 + 1, by omega⟩ := gOf_eq _ _ _ (by omega)
    have g7 : gOf (4 * (k.val + 1) + 3) = ⟨4 * k.val + 4 + 1 + 1 + 1, by omega⟩ := gOf_eq _ _ _ (by omega)
    have o4_0 : k0_off4 L k 0#32 = ![(bL L ⟨4 * k.val + 2, by omega⟩).val, 0, 0] := off4_eq L k 0 _ (by simp)
    have o4_1 : k0_off4 L k 1#32 = ![(bL L ⟨4 * k.val + 2 + 1, by omega⟩).val, 0, 0] := off4_eq L k 1 _ (by simp)
    have o4_2 : k0_off4 L k 2#32 = ![(bL L ⟨4 * k.val + 2 + 1 + 1, by omega⟩).val, 0, 0] := off4_eq L k 2 _ (by simp)
    have o4_3 : k0_off4 L k 3#32 = ![(bL L ⟨4 * k.val + 2 + 1 + 1 + 1, by omega⟩).val, 0, 0] := off4_eq L k 3 _ (by simp)
    unfold inv writeFlight gatherFlight
    iintro ⟨Hmw, ⟨%wo0, %wi0, %wp0, %f0, Hw0, %hw0⟩, ⟨%wo1, %wi1, %wp1, %f1, Hw1, %hw1⟩, ⟨%lo2, %li2, %f2, Hg2, %hg2⟩, ⟨%lo3, %li3, %f3, Hg3, %hg3⟩, Hg0, Hg1, Hw2, Hw3, He0, He1, Hiw, Hiu, Ho, Hod, %W', %hW', HO⟩
    -- the four list windows and the four batch rows of the result this trip names
    ihave Hiw' := (Entails.of_eq ((from_take (4 * k.val + 4) (by omega) _).trans (congrArg _ ((from_take (4 * k.val + 4 + 1) (by omega) _).trans
      (congrArg _ ((from_take (4 * k.val + 4 + 1 + 1) (by omega) _).trans (congrArg _ (from_take (4 * k.val + 4 + 1 + 1 + 1) (by omega) _)))))))) $$ Hiw
    icases Hiw' with ⟨Hl0, Hl1, Hl2, Hl3, Hiw⟩
    ihave Hl0' := (Entails.of_eq (pts_lwM (F := F) d L (k0_off3 k 0#32) (k0_off3_inb k 0) ⟨4 * k.val + 4, _⟩ o3_0 _).symm) $$ Hl0
    ihave Hl1' := (Entails.of_eq (pts_lwM (F := F) d L (k0_off3 k 1#32) (k0_off3_inb k 1) ⟨4 * k.val + 4 + 1, _⟩ o3_1 _).symm) $$ Hl1
    ihave Hl2' := (Entails.of_eq (pts_lwM (F := F) d L (k0_off3 k 2#32) (k0_off3_inb k 2) ⟨4 * k.val + 4 + 1 + 1, _⟩ o3_2 _).symm) $$ Hl2
    ihave Hl3' := (Entails.of_eq (pts_lwM (F := F) d L (k0_off3 k 3#32) (k0_off3_inb k 3) ⟨4 * k.val + 4 + 1 + 1 + 1, _⟩ o3_3 _).symm) $$ Hl3
    ihave Ho' := (Entails.of_eq ((from_take (4 * k.val + 2) (by omega) _).trans (congrArg _ ((from_take (4 * k.val + 2 + 1) (by omega) _).trans
      (congrArg _ ((from_take (4 * k.val + 2 + 1 + 1) (by omega) _).trans (congrArg _ (from_take (4 * k.val + 2 + 1 + 1 + 1) (by omega) _)))))))) $$ Ho
    icases Ho' with ⟨Hr0, Hr1, Hr2, Hr3, Ho⟩
    ihave Hr0' := (Entails.of_eq (pts_oRow (F := F) d L (k0_off4 L k 0#32) (k0_off4_inb L k 0) (bL L ⟨4 * k.val + 2, _⟩) o4_0 _).symm) $$ Hr0
    ihave Hr1' := (Entails.of_eq (pts_oRow (F := F) d L (k0_off4 L k 1#32) (k0_off4_inb L k 1) (bL L ⟨4 * k.val + 2 + 1, _⟩) o4_1 _).symm) $$ Hr1
    ihave Hr2' := (Entails.of_eq (pts_oRow (F := F) d L (k0_off4 L k 2#32) (k0_off4_inb L k 2) (bL L ⟨4 * k.val + 2 + 1 + 1, _⟩) o4_2 _).symm) $$ Hr2
    ihave Hr3' := (Entails.of_eq (pts_oRow (F := F) d L (k0_off4 L k 3#32) (k0_off4_inb L k 3) (bL L ⟨4 * k.val + 2 + 1 + 1 + 1, _⟩) o4_3 _).symm) $$ Hr3
    sl_exec
    icases Hg2_dst with ⟨Hs2, Hlu2⟩
    sl_exec
    icases Hg3_dst with ⟨Hs3, Hlu3⟩
    sl_exec
    sl_step
    rw [g4, g5, g6, g7]
    isplitl [Hmw]; · iexact Hmw
    -- the copies out of batch rows 4k+4, 4k+5 now in flight
    isplitl [Hw0]
    · iexists _; iexists _; iexists _; iexists _
      isplitl [Hw0]; · iexact Hw0
      ipureintro
      exact ⟨o4_2, rfl, slot_conv d L f0 (fx d) (fe d) _ _ _ o3_0b _ _⟩
    isplitl [Hw1]
    · iexists _; iexists _; iexists _; iexists _
      isplitl [Hw1]; · iexact Hw1
      ipureintro
      exact ⟨o4_3, rfl, slot_conv d L f1 (fx d) (fe d) _ _ _ o3_1b _ _⟩
    -- the gathers of batch rows 4k+6, 4k+7 now in flight
    isplitl [Hg2]
    · iexists _; iexists _; iexists _
      isplitl [Hg2]; · iexact Hg2
      ipureintro
      exact ⟨o3_2, slot_conv d L f2 (fx d) (fe d) _ _ _ o3_2 _ _⟩
    isplitl [Hg3]
    · iexists _; iexists _; iexists _
      isplitl [Hg3]; · iexact Hg3
      ipureintro
      exact ⟨o3_3, slot_conv d L f3 (fx d) (fe d) _ _ _ o3_3 _ _⟩
    isplitl [Hg0]; · iexact Hg0
    isplitl [Hg1]; · iexact Hg1
    isplitl [Hw2]; · iexact Hw2
    isplitl [Hw3]; · iexact Hw3
    isplitl [He0]; · iexact He0
    isplitl [He1]; · iexact He1
    -- the list windows still unused
    isplitl [Hiw]
    · iapply (Entails.of_eq (filter_congr' (fun g : Fin 128 => 4 * k.val + 4 + 1 + 1 + 1 + 1 ≤ g.val) (fun g : Fin 128 => 4 * (k.val + 1) + 4 ≤ g.val) (fun g => by omega) _))
      iexact Hiw
    -- the list windows back from their gathers
    isplitl [Hiu Hlu2 Hlu3 Hl0' Hl1']
    · iapply (Entails.of_eq ((filter_congr' (fun g : Fin 128 => g.val < 4 * (k.val + 1) + 2) (fun g : Fin 128 => g.val < 4 * k.val + 2 + 1 + 1 + 1 + 1) (fun g => by omega) _).trans
        ((below_put (4 * k.val + 2 + 1 + 1 + 1) (by omega) _).trans (congrArg _ ((below_put (4 * k.val + 2 + 1 + 1) (by omega) _).trans
          (congrArg _ ((below_put (4 * k.val + 2 + 1) (by omega) _).trans (congrArg _ (below_put (4 * k.val + 2) (by omega) _)))))))).symm)
      isplitl [Hl1']
      · iapply (win_back (F := F) d L _ ⟨4 * k.val + 2 + 1 + 1 + 1, _⟩ _ _)
        isplitl [Hl1']; · iexact Hl1'
        ipureintro; exact o3_1b
      isplitl [Hl0']
      · iapply (win_back (F := F) d L _ ⟨4 * k.val + 2 + 1 + 1, _⟩ _ _)
        isplitl [Hl0']; · iexact Hl0'
        ipureintro; exact o3_0b
      isplitl [Hlu3]
      · iapply (win_back (F := F) d L _ ⟨4 * k.val + 2 + 1, _⟩ _ _)
        isplitl [Hlu3]; · iexact Hlu3
        ipureintro; exact g3 ▸ hg3.1
      isplitl [Hlu2]
      · iapply (win_back (F := F) d L _ ⟨4 * k.val + 2, _⟩ _ _)
        isplitl [Hlu2]; · iexact Hlu2
        ipureintro; exact g2 ▸ hg2.1
      iexact Hiu
    -- the batch rows of the result still untouched
    isplitl [Ho]
    · iapply (Entails.of_eq (filter_congr' (fun g : Fin 128 => 4 * k.val + 2 + 1 + 1 + 1 + 1 ≤ g.val) (fun g : Fin 128 => 4 * (k.val + 1) + 2 ≤ g.val) (fun g => by omega) _))
      iexact Ho
    -- the batch rows of the result that hold the lookup
    isplitl [Hod Hw0_dst Hw1_dst Hr0' Hr1']
    · iapply (Entails.of_eq ((filter_congr' (fun g : Fin 128 => g.val < 4 * (k.val + 1)) (fun g : Fin 128 => g.val < 4 * k.val + 1 + 1 + 1 + 1) (fun g => by omega) _).trans
        ((below_put (4 * k.val + 1 + 1 + 1) (by omega) _).trans (congrArg _ ((below_put (4 * k.val + 1 + 1) (by omega) _).trans
          (congrArg _ ((below_put (4 * k.val + 1) (by omega) _).trans (congrArg _ (below_put (4 * k.val) (by omega) _)))))))).symm)
      isplitl [Hr1']
      · iapply (row_done (F := F) d L slot3 f3 _ (fx d) (fe d) (fo d) ⟨4 * k.val + 1 + 1 + 1, _⟩ _ _)
        isplitl [Hr1']; · iexact Hr1'
        ipureintro; exact ⟨o4_1b, rfl, g3b ▸ hg3.2⟩
      isplitl [Hr0']
      · iapply (row_done (F := F) d L slot2 f2 _ (fx d) (fe d) (fo d) ⟨4 * k.val + 1 + 1, _⟩ _ _)
        isplitl [Hr0']; · iexact Hr0'
        ipureintro; exact ⟨o4_0b, rfl, g2b ▸ hg2.2⟩
      isplitl [Hw1_dst]
      · iapply (row_done (F := F) d L slot1 f1 wp1 (fx d) (fe d) (fo d) ⟨4 * k.val + 1, _⟩ wo1 wi1)
        isplitl [Hw1_dst]; · iexact Hw1_dst
        ipureintro; exact g1 ▸ hw1
      isplitl [Hw0_dst]
      · iapply (row_done (F := F) d L slot0 f0 wp0 (fx d) (fe d) (fo d) ⟨4 * k.val, _⟩ wo0 wi0)
        isplitl [Hw0_dst]; · iexact Hw0_dst
        ipureintro; exact g0 ▸ hw0
      iexact Hod
    iclear Hg2_src Hg3_src
    iapply (owes_pack (F := F) d L O W _)
    isplitl [HO]; · iexact HO
    ipureintro
    intro p hp
    repeat (rcases Finset.mem_insert.mp hp with rfl | hp; · exact .inr rfl)
    exact hW' p hp
  · -- the state after the opening moves is the invariant before trip 0
    unfold inv writeFlight gatherFlight
    have z0 : gOf (4 * 0) = ⟨0, by decide⟩ := gOf_eq _ _ _ rfl
    have z1 : gOf (4 * 0 + 1) = ⟨1, by decide⟩ := gOf_eq _ _ _ rfl
    have z2 : gOf (4 * 0 + 2) = ⟨2, by decide⟩ := gOf_eq _ _ _ rfl
    have z3 : gOf (4 * 0 + 3) = ⟨3, by decide⟩ := gOf_eq _ _ _ rfl
    rw [z0, z1, z2, z3]
    isplitl [Hmw]; · iexact Hmw
    isplitl [Hw0]
    · iexists _; iexists _; iexists _; iexists _
      isplitl [Hw0]; · iexact Hw0
      ipureintro
      exact ⟨off2_eq L 0 ⟨0, _⟩ rfl, rfl, slot_conv (sl := slot0) d L fR (fx d) (fe d) ⟨0, _⟩ ![0] inb_S25600_S200_0 (vec1_eq _ _ (by decide)) _ _⟩
    isplitl [Hw1]
    · iexists _; iexists _; iexists _; iexists _
      isplitl [Hw1]; · iexact Hw1
      ipureintro
      exact ⟨off2_eq L 1 ⟨1, _⟩ rfl, rfl, slot_conv (sl := slot1) d L fR (fx d) (fe d) ⟨1, _⟩ ![200] inb_S25600_S200_200 (vec1_eq _ _ (by decide)) _ _⟩
    isplitl [Hg2]
    · iexists _; iexists _; iexists _
      isplitl [Hg2]; · iexact Hg2
      ipureintro
      exact ⟨vec1_eq _ _ (by decide), slot_conv (sl := slot2) d L fR (fx d) (fe d) ⟨2, _⟩ ![400] inb_S25600_S200_400 (vec1_eq _ _ (by decide)) _ _⟩
    isplitl [Hg3]
    · iexists _; iexists _; iexists _
      isplitl [Hg3]; · iexact Hg3
      ipureintro
      exact ⟨vec1_eq _ _ (by decide), slot_conv (sl := slot3) d L fR (fx d) (fe d) ⟨3, _⟩ ![600] inb_S25600_S200_600 (vec1_eq _ _ (by decide)) _ _⟩
    isplitl [Hg0]; · iexact Hg0
    isplitl [Hg1]; · iexact Hg1
    isplitl [Hw2]; · iexact Hw2
    isplitl [Hw3]; · iexact Hw3
    isplitl [He0]; · iexact He0
    isplitl [He1]; · iexact He1
    isplitl [Hiw]
    · iapply (Entails.of_eq (filter_congr' (fun g : Fin 128 => 3 + 1 ≤ g.val) (fun g : Fin 128 => 4 * 0 + 4 ≤ g.val) (fun g => by omega) _))
      iexact Hiw
    isplitl [Hi0' Hi1']
    · iapply (Entails.of_eq ((filter_congr' (fun g : Fin 128 => g.val < 4 * 0 + 2) (fun g : Fin 128 => g.val < 0 + 1 + 1) (fun g => by omega) _).trans
        ((below_put (0 + 1) (by omega) _).trans (congrArg _ ((below_put 0 (by omega) _).trans (congrArg _ (below_zero _)))))).symm)
      isplitl [Hi1']
      · iapply (win_back (F := F) d L _ ⟨0 + 1, _⟩ _ _)
        isplitl [Hi1']; · iexact Hi1'
        ipureintro; exact vec1_eq _ _ (by decide)
      isplitl [Hi0']
      · iapply (win_back (F := F) d L _ ⟨0, _⟩ _ _)
        isplitl [Hi0']; · iexact Hi0'
        ipureintro; exact vec1_eq _ _ (by decide)
      iempintro
    isplitl [Ho]
    · iapply (Entails.of_eq (filter_congr' (fun g : Fin 128 => 1 + 1 ≤ g.val) (fun g : Fin 128 => 4 * 0 + 2 ≤ g.val) (fun g => by omega) _))
      iexact Ho
    isplitr [HO]
    · iapply (Entails.of_eq ((filter_congr' (fun g : Fin 128 => g.val < 4 * 0) (fun g : Fin 128 => g.val < 0) (fun g => by omega) _).trans (below_zero _)).symm)
      iempintro
    iapply (owes_pack (F := F) d L O W _)
    isplitl [HO]; · iexact HO
    ipureintro
    intro p hp
    repeat (rcases Finset.mem_insert.mp hp with rfl | hp; · exact .inr rfl)
    exact .inl hp
  -- after the loop: the last two gathers drained and copied out, the four copies out waited for
  iintro %_ HI
  have t31 : Scf.trips k0_t1_loop.lb k0_t1_loop.ub k0_t1_loop.st = 31 := trips_eq
  rw [t31]
  unfold inv writeFlight gatherFlight
  icases HI with ⟨-, ⟨%wo0, %wi0, %wp0, %f0, Hw0, %hw0⟩, ⟨%wo1, %wi1, %wp1, %f1, Hw1, %hw1⟩, ⟨%lo2, %li2, %f2, Hg2, %hg2⟩, ⟨%lo3, %li3, %f3, Hg3, %hg3⟩, Hg0, Hg1, Hw2, Hw3, He0, He1, Hiw, Hiu, Ho, Hod, %W', %hW', HO⟩
  have g124 : gOf (4 * 31) = ⟨4 * 31, by decide⟩ := gOf_eq _ _ _ rfl
  have g125 : gOf (4 * 31 + 1) = ⟨4 * 31 + 1, by decide⟩ := gOf_eq _ _ _ rfl
  have g126 : gOf (4 * 31 + 2) = ⟨4 * 31 + 1 + 1, by decide⟩ := gOf_eq _ _ _ rfl
  have g127 : gOf (4 * 31 + 3) = ⟨4 * 31 + 1 + 1 + 1, by decide⟩ := gOf_eq _ _ _ rfl
  ihave Ho' := (Entails.of_eq ((from_take (4 * 31 + 2) (by decide) _).trans (congrArg _ (from_take (4 * 31 + 2 + 1) (by decide) _)))) $$ Ho
  icases Ho' with ⟨Hr2, Hr3, -⟩
  ihave Hr2' := (Entails.of_eq (pts_oRow (F := F) d L (k0_off2 L 126#32) (k0_off2_inb L 2) (bL L ⟨4 * 31 + 2, _⟩) (off2_eq L 2 _ rfl) _).symm) $$ Hr2
  ihave Hr3' := (Entails.of_eq (pts_oRow (F := F) d L (k0_off2 L 127#32) (k0_off2_inb L 3) (bL L ⟨4 * 31 + 2 + 1, _⟩) (off2_eq L 3 _ rfl) _).symm) $$ Hr3
  sl_exec
  sl_step
  iclear Hiw
  have g126' : gOf (4 * 31 + 2) = ⟨4 * 31 + 2, by decide⟩ := gOf_eq _ _ _ rfl
  have g127' : gOf (4 * 31 + 3) = ⟨4 * 31 + 2 + 1, by decide⟩ := gOf_eq _ _ _ rfl
  unfold tdRes
  -- what the subcore hands back
  isplitl [Hx' Her He0 He1 He2 He3 Hod Hw0_dst Hw1_dst Hr2' Hr3']
  · isplitl [Hx']
    · iapply (Entails.of_eq (pts_xSl (F := F) d L _))
      iexact Hx'
    isplitl [Her He0 He1 He2 He3]
    · iapply (Entails.of_eq (pts_eW (F := F) d L _ _))
      iapply (Transfers.pointsTo_toks_join (eShare (wOf (cL L) (jL L))) 4)
      isplitl [Her]
      · iapply (Entails.of_eq (pts_eW (F := F) d L _ _).symm)
        iexact Her
      iapply (Entails.of_eq (bigSep_fin4 _).symm)
      isplitl [He0]
      · iapply (Entails.of_eq (pts_eSl (F := F) d L _ _))
        iexact He0
      isplitl [He1]
      · iapply (Entails.of_eq (pts_eSl (F := F) d L _ _))
        iexact He1
      isplitl [He2]
      · iapply (Entails.of_eq (pts_eSl (F := F) d L _ _))
        iexact He2
      iapply (Entails.of_eq (pts_eSl (F := F) d L _ _))
      iexact He3
    · iapply (Entails.of_eq ((below_all _).symm.trans ((filter_congr' (fun g : Fin 128 => g.val < 128) (fun g : Fin 128 => g.val < 4 * 31 + 1 + 1 + 1 + 1) (fun g => by omega) _).trans
        ((below_put (4 * 31 + 1 + 1 + 1) (by decide) _).trans (congrArg _ ((below_put (4 * 31 + 1 + 1) (by decide) _).trans
          (congrArg _ ((below_put (4 * 31 + 1) (by decide) _).trans (congrArg _ (below_put (4 * 31) (by decide) _))))))))).symm)
      isplitl [Hr3']
      · iapply (row_done (F := F) d L slot3 f3 _ (fx d) (fe d) (fo d) ⟨4 * 31 + 1 + 1 + 1, _⟩ _ _)
        isplitl [Hr3']; · iexact Hr3'
        ipureintro; exact ⟨off2_eq L 3 _ rfl, rfl, g127 ▸ hg3.2⟩
      isplitl [Hr2']
      · iapply (row_done (F := F) d L slot2 f2 _ (fx d) (fe d) (fo d) ⟨4 * 31 + 1 + 1, _⟩ _ _)
        isplitl [Hr2']; · iexact Hr2'
        ipureintro; exact ⟨off2_eq L 2 _ rfl, rfl, g126 ▸ hg2.2⟩
      isplitl [Hw1_dst]
      · iapply (row_done (F := F) d L slot1 f1 wp1 (fx d) (fe d) (fo d) ⟨4 * 31 + 1, _⟩ wo1 wi1)
        isplitl [Hw1_dst]; · iexact Hw1_dst
        ipureintro; exact g125 ▸ hw1
      isplitl [Hw0_dst]
      · iapply (row_done (F := F) d L slot0 f0 wp0 (fx d) (fe d) (fo d) ⟨4 * 31, _⟩ wo0 wi0)
        isplitl [Hw0_dst]; · iexact Hw0_dst
        ipureintro; exact g124 ▸ hw0
      iexact Hod
  -- its scratch buffers, whole again
  isplitl [Hiu Hg2_dst_and Hg3_dst_and Hw0_src Hw1_src Hg2_dst Hg3_dst Hbufs]
  · isplitl [Hiu Hg2_dst_and Hg3_dst_and]
    · iexists (idxOf d L (fx d))
      iapply (Entails.of_eq (pts_sI (F := F) d L _))
      iapply (Entails.of_eq ((sI_windows (F := F) d L _).trans ((below_all _).symm.trans ((filter_congr' (fun g : Fin 128 => g.val < 128) (fun g : Fin 128 => g.val < 4 * 31 + 2 + 1 + 1) (fun g => by omega) _).trans
        ((below_put (4 * 31 + 2 + 1) (by decide) _).trans (congrArg _ (below_put (4 * 31 + 2) (by decide) _)))))).symm)
      isplitl [Hg3_dst_and]
      · iapply (win_back (F := F) d L _ ⟨4 * 31 + 2 + 1, _⟩ _ _)
        isplitl [Hg3_dst_and]; · iexact Hg3_dst_and
        ipureintro; exact g127' ▸ hg3.1
      isplitl [Hg2_dst_and]
      · iapply (win_back (F := F) d L _ ⟨4 * 31 + 2, _⟩ _ _)
        isplitl [Hg2_dst_and]; · iexact Hg2_dst_and
        ipureintro; exact g126' ▸ hg2.1
      iexact Hiu
    isplitl [Hw0_src Hw1_src Hg2_dst Hg3_dst]
    · iapply (slots_join (F := F) d L)
      iapply (Entails.of_eq (bigSep_fin4 _).symm)
      isplitl [Hw0_src]
      · iexists _
        iapply (Entails.of_eq (pts_slot0 (F := F) d L _))
        iexact Hw0_src
      isplitl [Hw1_src]
      · iexists _
        iapply (Entails.of_eq (pts_slot1 (F := F) d L _))
        iexact Hw1_src
      isplitl [Hg2_dst]
      · iexists _
        iapply (Entails.of_eq (pts_slot2 (F := F) d L _))
        iexact Hg2_dst
      iexists _
      iapply (Entails.of_eq (pts_slot3 (F := F) d L _))
      iexact Hg3_dst
    iexact Hbufs
  -- its semaphores, at zero
  isplitl [Hg0 Hg1 Hg2 Hg3 Hw0 Hw1 Hw2 Hw3 Hf Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hf]; · iexact Hf
    iexact Hsems
  iapply (owes_pack (F := F) d L O W _)
  isplitl [HO]; · iexact HO
  ipureintro
  intro p hp
  repeat (rcases Finset.mem_insert.mp hp with rfl | hp; · exact .inr rfl)
  exact hW' p hp

end Tile

end Cert.Proof.KI

end
-- ==== Proof.KI.Tile.lean ====
/-
  The subcore's task as the launch theorem asks for it: the task's run at the subcore the launch names, its waits
  recorded at the kernel's own index.
-/
import proofs.«206599_g37160057045681_cont_8to1_b_383_13_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem defs₀_vector (c : Fin τ.nSC) (s : Fin τ.nSub) :
    defs₀ (F := F) (.scVector c s) 0 ()
      = SparseCore.onTile hcore0 hsub0 (fun c s => cc0__gather_body (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (fx : (d : Dev nD) → Buf (Elt F) (xLoc d)) (fe : (d : Dev nD) → Buf (Elt F) (eLoc d)) (fo : (d : Dev nD) → Buf (Elt F) (oLoc d))
    (hin : ∀ d, Cert.Spec.InRangeFlat (fx d)) :
    (K (F := F)).TileObl (D (F := F)) 𝒱 (P fx fe fo) v₀ 0 := by
  intro d c i O W hO _ _
  simp only [show (P fx fe fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) fx fe fo facts hin O W hO).trans (wp_mono frame _ _ fun _ => obl_post)

end Cert.Proof.KI

end
-- ==== Proof.HostValue.lean ====
/-
  The host operations around the row-gathering call, read at an index.

  Before the call the index array [4096, 200] is reshaped to [819200] (same elements in row-major order: position
  b * 200 + l holds the word at (b, l)) and the table [100000, 64] is padded on the right of its column axis to
  [100000, 128] (column q < 64 of row r holds the table's (r, q); the other columns hold the padding value). After
  it the first 64 of the 128 columns are kept. So if the call produces the 128-column lookup over the flattened
  index array and the padded table, the kept block is the lookup over the index array and the table.

  Stated for any element type and over arbitrary proofs of the operations' shape conditions, at the
  specification's shapes.
-/
import proofs.«206599_g37160057045681_cont_8to1_b_383_13_alg».proof.Proof.Spec
import Idealize.ShloMosaic.Lib.Pipeline.Value

noncomputable section

namespace Cert.Proof.HostValue

open Idealize.ShloMosaic Idealize.ShloMosaic.ValueIdx Cert.Spec

variable {α : Type}

/-! ## The reshape of the index array -/

/-- The flattened index array at position b * 200 + l is the index array at (b, l). -/
theorem flat_apply (h : SX.ShapeCasts SXf) (x : SX.Idx → α) (b : Fin 4096) (l : Fin 200) :
    shapeCast SXf x h (ix1 (flatPos b l)) = x (ix2 b l) := by
  refine shapeCast_apply x h _ _ ?_
  rw [Shape.rowMajor_val_two, Shape.rowMajor_val_one]
  rfl

/-- Every element of the flattened index array is an element of the index array. -/
theorem flat_mem (h : SX.ShapeCasts SXf) (x : SX.Idx → α) (j : SXf.Idx) : ∃ i, shapeCast SXf x h j = x i :=
  ⟨Shape.reshapeEquiv h j, rfl⟩

/-- If every index word names a row, so does every word of the flattened index array. -/
theorem inRangeFlat_reshape (h : SX.ShapeCasts SXf) (x : SX.Idx → BitVec 32) (hx : InRange x) :
    InRangeFlat (shapeCast SXf x h) := fun j => hx (Shape.reshapeEquiv h j)

/-! ## The padding of the table -/

/-- The padded table at (r, q), q below 64, is the table at (r, q). -/
theorem pad_apply {u : Shape} (hp : SE.Pads ![0, 0] ![0, 64] ![0, 0] SEp) (hu : 0 < u.numel) (e : SE.Idx → α)
    (v : u.Idx → α) (r : Fin 100000) (q : Fin 128) (hq : q.val < 64) :
    pad SEp ![0, 0] ![0, 64] ![0, 0] e v hp hu (ix2 r q) = e (ix2 r ⟨q.val, hq⟩) := by
  unfold pad
  split
  · refine congrArg e (funext fun a => Fin.ext ?_)
    match a with
    | ⟨0, _⟩ => show (r.val - 0) / (0 + 1) = r.val; omega
    | ⟨1, _⟩ => show (q.val - 0) / (0 + 1) = q.val; omega
  · rename_i hn
    refine absurd (fun a => ?_) hn
    match a with
    | ⟨0, _⟩ =>
      show 0 ≤ r.val ∧ (r.val - 0) % (0 + 1) = 0 ∧ (r.val - 0) / (0 + 1) < 100000
      have := r.isLt; omega
    | ⟨1, _⟩ =>
      show 0 ≤ q.val ∧ (q.val - 0) % (0 + 1) = 0 ∧ (q.val - 0) / (0 + 1) < 64
      omega

/-! ## The kept block of the 128-column result -/

/-- The 128-column lookup at (b, l, q). -/
theorem padded_apply (xf : SXf.Idx → BitVec 32) (ep : SEp.Idx → α) (b : Fin 4096) (l : Fin 200) (q : Fin 128) :
    padded xf ep (ix3 b l q) = ep (ix2 (rowOf (xf (ix1 (flatPos b l)))) q) := rfl

/-- The first 64 columns of the 128-column lookup over the flattened index array and the padded table are the
    lookup over the index array and the table. -/
theorem sliced_padded {u : Shape} (h : SX.ShapeCasts SXf) (hp : SE.Pads ![0, 0] ![0, 64] ![0, 0] SEp) (hu : 0 < u.numel)
    (hs : SOp.Slices ![0, 0, 0] SO) (x : SX.Idx → BitVec 32) (e : SE.Idx → α) (v : u.Idx → α) :
    extractStridedSlice SO ![0, 0, 0] (padded (shapeCast SXf x h) (pad SEp ![0, 0] ![0, 64] ![0, 0] e v hp hu)) hs
      = lookup x e := by
  funext j
  obtain ⟨b, l, q, rfl⟩ : ∃ (b : Fin 4096) (l : Fin 200) (q : Fin 64), j = ix3 b l q := ⟨j 0, j 1, j 2, eq_ix3 j⟩
  have hq' : q.val < 128 := by have := q.isLt; omega
  refine (extractStridedSlice_apply (s := SOp) (t := SO) ![0, 0, 0] _ hs (ix3 b l q) (ix3 b l ⟨q.val, hq'⟩)
    (fun a => ?_)).trans ?_
  · match a with
    | ⟨0, _⟩ => show b.val = 0 + b.val; omega
    | ⟨1, _⟩ => show l.val = 0 + l.val; omega
    | ⟨2, _⟩ => show q.val = 0 + q.val; omega
  · rw [padded_apply, flat_apply, pad_apply hp hu e v _ _ q.isLt]
    rfl

end Cert.Proof.HostValue

end
-- ==== Proof.KI.Launch.lean ====
/-
  The launch of the SparseCore call, second part: @main on the TensorCore.

  @main flattens the index array, makes the padding value, pads the table to 128 columns, runs the SparseCore call
  and keeps the first 64 columns of what the call wrote. The four host operations before the call and the one
  after it run over the TensorCore's eight arrays held whole; before the call the flattened indices, the padded
  table and the 128-column result are cut into what the 32 subcores are handed, after it they are joined back, the
  result holding the 128-column lookup of the flattened indices in the padded table. The two argument arrays are
  only read, and end as they started.
-/
import proofs.«206599_g37160057045681_cont_8to1_b_383_13_alg».proof.Proof.KI.LaunchSplit
import proofs.«206599_g37160057045681_cont_8to1_b_383_13_alg».proof.Proof.KI.Tile
import proofs.«206599_g37160057045681_cont_8to1_b_383_13_alg».proof.Proof.HostValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The TensorCore's arrays -/

variable (m : (ℓ : Loc nD τ sig) → Buf (Elt F) ℓ) (ρ : Dev nD → PrngReg)

/-- The index array and the table (the arguments), the padding value as an integer and as a float, the result. -/
abbrev aLoc (d : Dev nD) : Loc nD τ sig := (SparseCore.T d).loc main_arg0
abbrev tLoc (d : Dev nD) : Loc nD τ sig := (SparseCore.T d).loc main_arg1
abbrev cLoc (d : Dev nD) : Loc nD τ sig := (SparseCore.T d).loc main_c
abbrev sLoc (d : Dev nD) : Loc nD τ sig := (SparseCore.T d).loc main_call0_v0
abbrev rLoc (d : Dev nD) : Loc nD τ sig := (SparseCore.T d).loc main_v3

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev c' : DevRef τ sig := Proc.devRef .tc (main_c : Ref sig .tc)
abbrev s' : DevRef τ sig := Proc.devRef .tc (main_call0_v0 : Ref sig .tc)
abbrev e' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The TensorCore's arrays, all unscoped. -/
abbrev S8 : Finset (DevRef τ sig) := {a', t', x', c', s', e', o', r'}

theorem held_S8 (d : Dev nD) (W : Valuation τ sig (Elt F)) :
    (held (T d) S8 W : sProp 𝕄)
      = iprop((aLoc d ↦{fullShare} W a') ∗ (tLoc d ↦{fullShare} W t') ∗ (xLoc d ↦{fullShare} W x') ∗ (cLoc d ↦{fullShare} W c')
          ∗ (sLoc d ↦{fullShare} W s') ∗ (eLoc d ↦{fullShare} W e') ∗ (oLoc d ↦{fullShare} W o') ∗ (rLoc d ↦{fullShare} W r')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (xLoc d ↦{fullShare} W main_v0) ∗ (cLoc d ↦{fullShare} W main_c)
          ∗ (sLoc d ↦{fullShare} W main_call0_v0) ∗ (eLoc d ↦{fullShare} W main_v1) ∗ (oLoc d ↦{fullShare} W main_v2) ∗ (rLoc d ↦{fullShare} W main_v3)) := by
  unfold unscopedBufs
  rw [show (Finset.univ.filter fun b : Ref sig .tc => ¬ b.isScoped)
      = {main_arg0, main_arg1, main_v0, main_c, main_call0_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

variable [FloatOps F]

/-! ## The host operations and what they leave -/

abbrev op1 : HloOp τ sig (Elt F) := StableHlo.reshape main_arg0 main_v0 rfl Facts₀.shapeCasts_S4096x200_S819200
abbrev op2 : HloOp τ sig (Elt F) := StableHlo.nullary main_c (constantI S_ 32 0#32)
abbrev op3 : HloOp τ sig (Elt F) :=
  StableHlo.TRef.unary (.of main_c : StableHlo.TRef sig ⟨S_, .i32⟩) (.of main_call0_v0 : StableHlo.TRef sig ⟨S_, .f32⟩) (sitofp .f32)
abbrev op4 : HloOp τ sig (Elt F) :=
  StableHlo.TRef.binary (.of main_arg1 : StableHlo.TRef sig ⟨S100000x64, .f32⟩) (.of main_call0_v0 : StableHlo.TRef sig ⟨S_, .f32⟩)
    (.of main_v1 : StableHlo.TRef sig ⟨S100000x128, .f32⟩)
    (fun x v => pad S100000x128 ![0, 0] ![0, 64] ![0, 0] x v Facts₀.pads_S100000x64_S100000x128_000_0640 Facts₀.h_S_)
abbrev op5 : HloOp τ sig (Elt F) :=
  StableHlo.unary main_v2 main_v3 ((extractStridedSlice S4096x200x64 ![0, 0, 0] · Facts₀.slices_S4096x200x128_S4096x200x64_0_0_0) :
    (⟨S4096x200x128, .f32⟩ : BufTy).Contents (Elt F) → (⟨S4096x200x64, .f32⟩ : BufTy).Contents (Elt F))

theorem hop1 : (op1 (F := F)).bufs ⊆ S8 := show ({a', x'} : Finset (DevRef τ sig)) ⊆ S8 by decide
theorem hop2 : (op2 (F := F)).bufs ⊆ S8 := show ({c'} : Finset (DevRef τ sig)) ⊆ S8 by decide
theorem hop3 : (op3 (F := F)).bufs ⊆ S8 := show ({c', s'} : Finset (DevRef τ sig)) ⊆ S8 by decide
theorem hop4 : (op4 (F := F)).bufs ⊆ S8 := show ({t', s', e'} : Finset (DevRef τ sig)) ⊆ S8 by decide
theorem hop5 : (op5 (F := F)).bufs ⊆ S8 := show ({o', r'} : Finset (DevRef τ sig)) ⊆ S8 by decide

/-- The arrays after the reshape, the constant, the conversion, the padding; after the call, the result at `f`; after the
    slice. -/
def V1 (d : Dev nD) : Valuation τ sig (Elt F) := (op1 (F := F)).result (V0 m d)
def V2 (d : Dev nD) : Valuation τ sig (Elt F) := (op2 (F := F)).result (V1 m d)
def V3 (d : Dev nD) : Valuation τ sig (Elt F) := (op3 (F := F)).result (V2 m d)
def V4 (d : Dev nD) : Valuation τ sig (Elt F) := (op4 (F := F)).result (V3 m d)
def V5 (d : Dev nD) (f : Buf (Elt F) (oLoc d)) : Valuation τ sig (Elt F) := Function.update (V4 m d) o' f
def V6 (d : Dev nD) (f : Buf (Elt F) (oLoc d)) : Valuation τ sig (Elt F) := (op5 (F := F)).result (V5 m d f)

/-- The flattened index array and the padded table, as functions of the launch memory. -/
def fxOf (d : Dev nD) : Buf (Elt F) (xLoc d) := fun i => shapeCast S819200 (m (aLoc d)) Facts₀.shapeCasts_S4096x200_S819200 i
def feOf (d : Dev nD) : Buf (Elt F) (eLoc d) :=
  pad S100000x128 ![0, 0] ![0, 64] ![0, 0] (m (tLoc d)) (sitofp (F := F) .f32 (constantI S_ 32 0#32)) Facts₀.pads_S100000x64_S100000x128_000_0640 Facts₀.h_S_

theorem V4_a (d : Dev nD) : V4 m d a' = m (aLoc d) := by
  unfold V4 V3 V2 V1
  rw [(op4 (F := F)).result_of_not_mem _ (b := a') (show a' ∉ ({e'} : Finset (DevRef τ sig)) by decide),
    (op3 (F := F)).result_of_not_mem _ (b := a') (show a' ∉ ({s'} : Finset (DevRef τ sig)) by decide),
    (op2 (F := F)).result_of_not_mem _ (b := a') (show a' ∉ ({c'} : Finset (DevRef τ sig)) by decide),
    (op1 (F := F)).result_of_not_mem _ (b := a') (show a' ∉ ({x'} : Finset (DevRef τ sig)) by decide)]
  rfl
theorem V4_t (d : Dev nD) : V4 m d t' = m (tLoc d) := by
  unfold V4 V3 V2 V1
  rw [(op4 (F := F)).result_of_not_mem _ (b := t') (show t' ∉ ({e'} : Finset (DevRef τ sig)) by decide),
    (op3 (F := F)).result_of_not_mem _ (b := t') (show t' ∉ ({s'} : Finset (DevRef τ sig)) by decide),
    (op2 (F := F)).result_of_not_mem _ (b := t') (show t' ∉ ({c'} : Finset (DevRef τ sig)) by decide),
    (op1 (F := F)).result_of_not_mem _ (b := t') (show t' ∉ ({x'} : Finset (DevRef τ sig)) by decide)]
  rfl
theorem V4_o (d : Dev nD) : V4 m d o' = m (oLoc d) := by
  unfold V4 V3 V2 V1
  rw [(op4 (F := F)).result_of_not_mem _ (b := o') (show o' ∉ ({e'} : Finset (DevRef τ sig)) by decide),
    (op3 (F := F)).result_of_not_mem _ (b := o') (show o' ∉ ({s'} : Finset (DevRef τ sig)) by decide),
    (op2 (F := F)).result_of_not_mem _ (b := o') (show o' ∉ ({c'} : Finset (DevRef τ sig)) by decide),
    (op1 (F := F)).result_of_not_mem _ (b := o') (show o' ∉ ({x'} : Finset (DevRef τ sig)) by decide)]
  rfl
theorem V4_x (d : Dev nD) : V4 m d x' = fxOf m d := by
  unfold V4 V3 V2 V1
  rw [(op4 (F := F)).result_of_not_mem _ (b := x') (show x' ∉ ({e'} : Finset (DevRef τ sig)) by decide),
    (op3 (F := F)).result_of_not_mem _ (b := x') (show x' ∉ ({s'} : Finset (DevRef τ sig)) by decide),
    (op2 (F := F)).result_of_not_mem _ (b := x') (show x' ∉ ({c'} : Finset (DevRef τ sig)) by decide)]
  exact (StableHlo.reshape_result main_arg0 main_v0 rfl Facts₀.shapeCasts_S4096x200_S819200 _ _ (V0 m d)).trans rfl
theorem V2_c (d : Dev nD) : V2 m d c' = constantI S_ 32 0#32 := by
  unfold V2
  exact StableHlo.nullary_result main_c (constantI S_ 32 0#32) _ (V1 m d)
theorem V3_s (d : Dev nD) : V3 m d s' = sitofp (F := F) .f32 (constantI S_ 32 0#32) := by
  unfold V3
  refine (StableHlo.unary_result main_c main_call0_v0 _ _ _ (V2 m d)).trans ?_
  rw [V2_c]; rfl
theorem V3_t (d : Dev nD) : V3 m d t' = m (tLoc d) := by
  unfold V3 V2 V1
  rw [(op3 (F := F)).result_of_not_mem _ (b := t') (show t' ∉ ({s'} : Finset (DevRef τ sig)) by decide),
    (op2 (F := F)).result_of_not_mem _ (b := t') (show t' ∉ ({c'} : Finset (DevRef τ sig)) by decide),
    (op1 (F := F)).result_of_not_mem _ (b := t') (show t' ∉ ({x'} : Finset (DevRef τ sig)) by decide)]
  rfl
theorem V4_e (d : Dev nD) : V4 m d e' = feOf m d := by
  unfold V4
  refine (StableHlo.binary_result main_arg1 main_call0_v0 main_v1 _ _ _ _ (V3 m d)).trans ?_
  rw [V3_t, V3_s]; rfl

/-! ## The arrays at each stage, read off the valuations -/

theorem held_V4 (d : Dev nD) :
    (held (T d) S8 ((op4 (F := F)).result (V3 m d)) : sProp 𝕄)
      = iprop((aLoc d ↦{fullShare} m (aLoc d)) ∗ (tLoc d ↦{fullShare} m (tLoc d)) ∗ (xLoc d ↦{fullShare} fxOf m d) ∗ (cLoc d ↦{fullShare} V4 m d c')
          ∗ (sLoc d ↦{fullShare} V4 m d s') ∗ (eLoc d ↦{fullShare} feOf m d) ∗ (oLoc d ↦{fullShare} m (oLoc d)) ∗ (rLoc d ↦{fullShare} V4 m d r')) := by
  show (held (T d) S8 (V4 m d) : sProp 𝕄) = _
  rw [held_S8, V4_a, V4_t, V4_x, V4_e, V4_o]

theorem held_V5 (d : Dev nD) (f : Buf (Elt F) (oLoc d)) :
    (held (T d) S8 (V5 m d f) : sProp 𝕄)
      = iprop((aLoc d ↦{fullShare} m (aLoc d)) ∗ (tLoc d ↦{fullShare} m (tLoc d)) ∗ (xLoc d ↦{fullShare} fxOf m d) ∗ (cLoc d ↦{fullShare} V4 m d c')
          ∗ (sLoc d ↦{fullShare} V4 m d s') ∗ (eLoc d ↦{fullShare} feOf m d) ∗ (oLoc d ↦{fullShare} f) ∗ (rLoc d ↦{fullShare} V4 m d r')) := by
  rw [held_S8]
  unfold V5
  rw [Function.update_of_ne (show a' ≠ o' by decide), Function.update_of_ne (show t' ≠ o' by decide), Function.update_of_ne (show x' ≠ o' by decide),
    Function.update_of_ne (show c' ≠ o' by decide), Function.update_of_ne (show s' ≠ o' by decide), Function.update_of_ne (show e' ≠ o' by decide),
    Function.update_of_ne (show r' ≠ o' by decide), Function.update_self, V4_a, V4_t, V4_x, V4_e]

theorem V6_ne (d : Dev nD) (f : Buf (Elt F) (oLoc d)) {b : DevRef τ sig} (hb : b ∉ ({r'} : Finset (DevRef τ sig))) (hb' : b ≠ o') :
    V6 m d f b = V4 m d b := by
  unfold V6 V5
  rw [(op5 (F := F)).result_of_not_mem _ (b := b) hb, Function.update_of_ne hb']

theorem V6_r (d : Dev nD) (f : Buf (Elt F) (oLoc d)) :
    V6 m d f r' = extractStridedSlice S4096x200x64 ![0, 0, 0] f Facts₀.slices_S4096x200x128_S4096x200x64_0_0_0 := by
  unfold V6 V5
  refine (StableHlo.unary_result main_v2 main_v3 _ _ _ _).trans ?_
  rw [Function.update_self]

/-- After the slice: the arguments as they started, the result the first 64 columns of what the call left. -/
theorem held_V6 (d : Dev nD) (f : Buf (Elt F) (oLoc d)) :
    (held (T d) S8 (V6 m d f) : sProp 𝕄)
      ⊢ iprop((aLoc d ↦{fullShare} m (aLoc d)) ∗ (tLoc d ↦{fullShare} m (tLoc d))
          ∗ (rLoc d ↦{fullShare} (extractStridedSlice S4096x200x64 ![0, 0, 0] f Facts₀.slices_S4096x200x128_S4096x200x64_0_0_0 : Buf (Elt F) (rLoc d)))) := by
  rw [held_S8, V6_ne m d f (b := a') (by decide) (by decide), V6_ne m d f (b := t') (by decide) (by decide), V6_r, V4_a, V4_t]
  iintro ⟨Ha, Ht, -, -, -, -, -, Hr⟩
  isplitl [Ha]; · iexact Ha
  isplitl [Ht]; · iexact Ht
  iexact Hr

/-! ## @main on the TensorCore -/

/-- The call's payloads at this launch: the flattened indices, the padded table, the result's launch contents. -/
abbrev PP : (K (F := F)).Pay (nD := nD) (Val := Elt F) (Name := ℕ) (U := UU) := P (fxOf m) (feOf m) (fun d => m (oLoc d))

/-- The result of the program, as a function of the launch memory. -/
def resOf (d : Dev nD) : Buf (Elt F) (rLoc d) := Cert.Spec.lookup (m (aLoc d)) (m (tLoc d))

theorem resOf_eq (d : Dev nD) :
    (extractStridedSlice S4096x200x64 ![0, 0, 0] (Cert.Spec.padded (fxOf m d) (feOf m d) : Buf (Elt F) (oLoc d))
      Facts₀.slices_S4096x200x128_S4096x200x64_0_0_0 : Buf (Elt F) (rLoc d)) = resOf m d :=
  Cert.Proof.HostValue.sliced_padded Facts₀.shapeCasts_S4096x200_S819200 Facts₀.pads_S100000x64_S100000x128_000_0640 Facts₀.h_S_
    Facts₀.slices_S4096x200x128_S4096x200x64_0_0_0 (m (aLoc d)) (m (tLoc d)) (sitofp (F := F) .f32 (constantI S_ 32 0#32))

/-- What @main leaves the claim: the arguments at their launch contents, the result at the lookup. -/
abbrev FIN (d : Dev nD) : sProp 𝕄 :=
  iprop((aLoc d ↦{fullShare} m (aLoc d)) ∗ (tLoc d ↦{fullShare} m (tLoc d)) ∗ (rLoc d ↦{fullShare} resOf m d))

theorem held_fin (d : Dev nD) :
    (held (T d) S8 ((op5 (F := F)).result (V5 m d (Cert.Spec.padded (fxOf m d) (feOf m d)))) : sProp 𝕄) ⊢ FIN m d := by
  refine (held_V6 m d _).trans ?_
  rw [resOf_eq]

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the reshape, the constant, the conversion, the padding
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) hop2 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S8) hop4 (V := V3 m d)) $$ [Hb Hheld]
  · isplitl [Hb]; · iexact Hb
    iexact Hheld
  iintro ⟨Hb, Hheld⟩
  rw [wp_ret]; imodintro; imodintro
  ihave Hh := (Entails.of_eq (held_V4 (F := F) m d)) $$ Hheld
  icases Hh with ⟨Ha, Ht, Hx, Hc, Hs, He, Ho, Hr⟩
  -- the call: the flattened indices, the padded table and the result, cut among the subcores and joined back
  iapply ((K (F := F)).wp_run (D (F := F)) 𝒱 (EH := EH) (P := PP m) κ d 0) $$ [Hst Hb Ha Ht Hx Hc Hs He Ho Hr]
  isplitr; · iexact Hctx
  isplitl [Hst]; · iexact Hst
  isplitl [Hx He Ho]
  · rw [st0_eq]
    isplitl [Hx]; · iexact Hx
    isplitl [He]; · iexact He
    iexact Ho
  iintro ⟨Hst, Hdn⟩
  ihave Hdn' := (Entails.of_eq (dn0_eq (F := F) (fxOf m) (feOf m) (fun d => m (oLoc d)) d)) $$ Hdn
  icases Hdn' with ⟨Hx, He, Ho⟩
  -- the slice
  iapply (wp_hlo_within 𝒱 (SparseCore.T d) none Set.univ (op := op5) (S := S8) hop5
      (V := V5 m d (Cert.Spec.padded (fxOf m d) (feOf m d)))) $$ [Hb Ha Ht Hx Hc Hs He Ho Hr]
  · isplitl [Hb]; · iexact Hb
    rw [held_V5]
    isplitl [Ha]; · iexact Ha
    isplitl [Ht]; · iexact Ht
    isplitl [Hx]; · iexact Hx
    isplitl [Hc]; · iexact Hc
    isplitl [Hs]; · iexact Hs
    isplitl [He]; · iexact He
    isplitl [Ho]; · iexact Ho
    iexact Hr
  iintro ⟨Hb, Hheld⟩
  ihave Hh := (held_fin (F := F) m d) $$ Hheld
  rw [wp_ret]; imodintro; imodintro
  isplitl [Hst]; · iexact Hst
  iexact Hh

/-! ## The final memory, the program's run -/

def fq (d : Dev nD) (s' : Phys nD τ sig (Elt F)) : Prop :=
  s'.mem.mem (rLoc d) = resOf m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The program runs from any launch memory whose index words all name rows of the table, and ends with the result
    holding the lookup and the two arguments unchanged. -/
theorem run_main [∀ e, Nonempty (Elt F e)] (hx : ∀ d : Dev nD, Cert.Spec.InRange (m ((SparseCore.T d).loc main_arg0))) :
    θ_run (defs (F := F)) (threads (F := F)) ⟨m, fun _ => 0, ρ⟩ (fun r => ∀ c : Dev nD,
      r.2.mem ((c.tc : Thread nD τ).loc main_v3) = Cert.Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := PP m) facts v₀
    (fun q hq => match q with | 0 => nomatch hq)
    (fun q _ => match q with
      | 0 => tileObl (fxOf m) (feOf m) (fun d => m (oLoc d)) fun d => Cert.Proof.HostValue.inRangeFlat_reshape Facts₀.shapeCasts_S4096x200_S819200 _ (hx d))
    (fun q _ => match q with | 0 => SparseCore.Cfg.VecSplit.of_plain (vecSplit (fxOf m) (feOf m) (fun d => m (oLoc d))))
    m ρ main (fun _ => iprop(emp)) (FIN m) (u₀ (F := F)) (sep_elim_left.trans (hu₀ (fxOf m) (feOf m) (fun d => m (oLoc d)))) (hmain m ρ) (fq m) (hfin m)
    _ (fun _ h => h)

end Cert.Proof.KI

end
-- ==== Proof.K.Common.lean ====
/-
  Names shared by the proofs about the SparseCore program: the program as the launch theorem sees it, the ghost
  state (the handshakes' rounds beside the transfers' counters), the three HBM arrays the kernel touches, and how
  they are cut among the 32 vector subcores.

  Subcore (c, i) — SparseCore c of 2, vector subcore i of 16 — is worker w = 2 i + c. It reads the w-th of the 32
  equal stretches of the flattened index array (25600 words: 128 batch rows of 200 indices), reads the whole padded
  table, and writes batch rows 128 w … 128 w + 127 of the 4096 × 200 × 128 result, one batch row (a 200 × 128 slab)
  per transfer. What a subcore is handed and hands back is stated through those pieces; the result's pieces come
  back holding the 128-column lookup `Cert.Spec.padded` of the flattened indices and the padded table.
-/
import proofs.«206599_g37160057045681_cont_8to1_b_383_13_alg».proof.Kernel
import Idealize.ShloMosaic.Lib.SparseCore.Launch
import Idealize.ShloMosaic.Lib.StableHlo.Run
import Idealize.ShloMosaic.Lib.Pipeline.Kit
import Idealize.ShloMosaic.Lib.Tactic
import proofs.«206599_g37160057045681_cont_8to1_b_383_13_alg».proof.Proof.Gen.Kernel
import proofs.«206599_g37160057045681_cont_8to1_b_383_13_alg».proof.Proof.Gen.Kernel.Skeleton
import proofs.«206599_g37160057045681_cont_8to1_b_383_13_alg».proof.Proof.Spec

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
theorem nCore_eq (q : Fin 1) : (K (F := F)).nCore q = 2 := by obtain rfl : q = 0 := Subsingleton.elim _ _; rfl
theorem nSub_eq (q : Fin 1) : (K (F := F)).nSub q = 16 := by obtain rfl : q = 0 := Subsingleton.elim _ _; rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened index array, the padded table and the 128-column result, as locations of device `d`. -/
abbrev xLoc (d : Dev nD) : Loc nD τ sig := (SparseCore.T d).loc main_v0
abbrev eLoc (d : Dev nD) : Loc nD τ sig := (SparseCore.T d).loc main_v1
abbrev oLoc (d : Dev nD) : Loc nD τ sig := (SparseCore.T d).loc main_v2

theorem hdx : 32 ∣ S819200.size 0 := ⟨25600, rfl⟩
theorem hdo : 4096 ∣ S4096x200x128.size 0 := ⟨1, rfl⟩

/-- Worker number of subcore (c, i). -/
def wOf (c : Fin 2) (i : Fin 16) : Fin 32 := ⟨i.val * 2 + c.val, by omega⟩
/-- Batch row `g` of worker (c, i). -/
def bOf (c : Fin 2) (i : Fin 16) (g : Fin 128) : Fin 4096 := ⟨(i.val * 2 + c.val) * 128 + g.val, by omega⟩

/-- The `w`-th of the 32 stretches of the flattened index array. -/
abbrev xSet (w : Fin 32) : Finset S819200.Idx := (Rect.part (s := S819200) (a₀ := 0) hdx w).set
/-- Batch row `b` of the result: a 200 × 128 slab. -/
abbrev oPiece (b : Fin 4096) : Finset S4096x200x128.Idx := (Rect.part (s := S4096x200x128) (a₀ := 0) hdo b).set

/-- The share of the padded table worker `w` reads with: one of 32 pieces of the whole. -/
abbrev eShare (w : Fin 32) : PosShare TreeShare := pieceOf fullShare 32 (by decide) w

section Res

variable (fx : (d : Dev nD) → Buf (Elt F) (xLoc d)) (fe : (d : Dev nD) → Buf (Elt F) (eLoc d)) (fo : (d : Dev nD) → Buf (Elt F) (oLoc d))

/-- What subcore (c, i) is handed: its stretch of the flattened indices, its share of the padded table, its 128
    batch rows of the result at the contents `fo`. -/
def goRes (d : Dev nD) (c : Fin 2) (i : Fin 16) : sProp 𝕄 :=
  iprop((xLoc d ↦[xSet (wOf c i)]{fullShare} fx d) ∗ (eLoc d ↦{eShare (wOf c i)} fe d)
    ∗ bigSep Finset.univ fun g : Fin 128 => oLoc d ↦[oPiece (bOf c i g)]{fullShare} fo d)

/-- What it hands back: the same, its batch rows of the result holding the 128-column lookup. -/
def tdRes (d : Dev nD) (c : Fin 2) (i : Fin 16) : sProp 𝕄 :=
  iprop((xLoc d ↦[xSet (wOf c i)]{fullShare} fx d) ∗ (eLoc d ↦{eShare (wOf c i)} fe d)
    ∗ bigSep Finset.univ fun g : Fin 128 => oLoc d ↦[oPiece (bOf c i g)]{fullShare} (Cert.Spec.padded (fx d) (fe d) : Buf (Elt F) (oLoc d)))

instance goRes_storable (d : Dev nD) (c : Fin 2) (i : Fin 16) : BI.Storable (upEmb : UEmb _ 𝕄) (goRes fx fe fo d c i) := by
  unfold goRes; infer_instance
instance tdRes_storable (d : Dev nD) (c : Fin 2) (i : Fin 16) : BI.Storable (upEmb : UEmb _ 𝕄) (tdRes fx fe d c i) := by
  unfold tdRes; infer_instance

/-- The call hands SparseCore `c` what its sixteen subcores are handed, and takes back what they hand back; the
    kernel's proof consumes nothing of the launch's. -/
def P : (K (F := F)).Pay (nD := nD) (Val := Elt F) (Name := ℕ) (U := UU) where
  st := fun q d c => bigSep Finset.univ fun i : Fin 16 => goRes fx fe fo d (Fin.cast (nCore_eq q) c) i
  dn := fun q d c => bigSep Finset.univ fun i : Fin 16 => tdRes fx fe d (Fin.cast (nCore_eq q) c) i
  go := fun q d c i => goRes fx fe fo d (Fin.cast (nCore_eq q) c) (Fin.cast (nSub_eq q) i)
  td := fun q d c i => tdRes fx fe d (Fin.cast (nCore_eq q) c) (Fin.cast (nSub_eq q) i)
  x := fun _ _ => iprop(emp)

instance P_storable : (P (F := F) fx fe fo).IsStorable where
  st q d c := by unfold P; infer_instance
  dn q d c := by unfold P; infer_instance
  go q d c i := by unfold P; infer_instance
  td q d c i := by unfold P; infer_instance

end Res

/-! ## A subcore's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

def coordsV (c : Fin (grid0.bound 0)) (s : Fin (grid0.bound 1)) : grid0.Coords :=
  fun | 0 => c | 1 => s | ⟨_ + 2, h⟩ => absurd h (Nat.not_lt.2 (Nat.le_add_left _ _))

end Cert.Proof.K

end
-- ==== Proof.K.LaunchSplit.lean ====
/-
  The launch of the SparseCore call, first part: how the three whole arrays the TensorCore holds are cut into what
  the 32 vector subcores are handed, and joined back.

  The flattened index array is cut into 32 stretches, the padded table's full share into 32 read shares, the result
  into its 4096 batch rows; worker w = 2 i + c takes stretch w, share w and batch rows 128 w … 128 w + 127. The maps
  (c, i) ↦ 2 i + c and (c, i, g) ↦ 128 (2 i + c) + g are bijections onto the 32 workers and the 4096 batch rows, so a
  product over workers (batch rows) is the iterated product over SparseCores, subcores (and rows of a worker). With
  that, what the call takes for the two SparseCores is the three arrays whole, and so is what it hands back. Also
  here: the launch element of the ghost state (the handshakes' rounds; the kernel consumes nothing of its own) and
  the split of a SparseCore's operands among its sixteen subcores, which is the identity.
-/
import proofs.«206599_g37160057045681_cont_8to1_b_383_13_alg».proof.Proof.K.Common

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Workers and batch rows, regrouped by SparseCore and subcore -/

/-- (c, i) ↦ 2 i + c, onto the 32 workers. -/
def wEquiv : Fin 2 × Fin 16 ≃ Fin 32 where
  toFun p := wOf p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (i.val * 2 + c.val) % 2 = c.val
      omega
    · show (i.val * 2 + c.val) / 2 = i.val
      omega
  right_inv w := Fin.ext (by show w.val / 2 * 2 + w.val % 2 = w.val; omega)

/-- (c, i, g) ↦ 128 (2 i + c) + g, onto the 4096 batch rows. -/
def bEquiv : (Fin 2 × Fin 16) × Fin 128 ≃ Fin 4096 where
  toFun p := bOf p.1.1 p.1.2 p.2
  invFun b := ((⟨b.val / 128 % 2, Nat.mod_lt _ (by decide)⟩, ⟨b.val / 128 / 2, by omega⟩), ⟨b.val % 128, Nat.mod_lt _ (by decide)⟩)
  left_inv p := by
    obtain ⟨⟨c, i⟩, g⟩ := p
    refine Prod.ext (Prod.ext (Fin.ext ?_) (Fin.ext ?_)) (Fin.ext ?_)
    · show ((i.val * 2 + c.val) * 128 + g.val) / 128 % 2 = c.val
      omega
    · show ((i.val * 2 + c.val) * 128 + g.val) / 128 / 2 = i.val
      omega
    · show ((i.val * 2 + c.val) * 128 + g.val) % 128 = g.val
      omega
  right_inv b := Fin.ext (by show (b.val / 128 / 2 * 2 + b.val / 128 % 2) * 128 + b.val % 128 = b.val; omega)

section Regroup

variable {M : Type} [URA M]

theorem regroup_w (Φ : Fin 32 → sProp M) :
    bigSep Finset.univ Φ = bigSep Finset.univ fun c : Fin 2 => bigSep Finset.univ fun i : Fin 16 => Φ (wOf c i) := by
  rw [bigSep_univ_equiv wEquiv Φ, bigSep_univ_prod]; rfl

theorem regroup_b (Φ : Fin 4096 → sProp M) :
    bigSep Finset.univ Φ
      = bigSep Finset.univ fun c : Fin 2 => bigSep Finset.univ fun i : Fin 16 => bigSep Finset.univ fun g : Fin 128 => Φ (bOf c i g) := by
  rw [bigSep_univ_equiv bEquiv Φ, bigSep_univ_prod, bigSep_univ_prod]; rfl

end Regroup

/-! ## The three arrays, whole and in pieces -/

theorem xWhole_split (d : Dev nD) (f : Buf (Elt F) (xLoc d)) :
    (xLoc d ↦{fullShare} f : sProp 𝕄)
      = bigSep Finset.univ fun c : Fin 2 => bigSep Finset.univ fun i : Fin 16 => xLoc d ↦[xSet (wOf c i)]{fullShare} f := by
  rw [← regroup_w (fun w => (xLoc d ↦[xSet w]{fullShare} f : sProp 𝕄)),
    ← pointsTo_biUnion Finset.univ (ℓ := xLoc d) xSet (fun w _ w' _ h => Rect.part_disjoint hdx h), Rect.biUnion_part hdx]

theorem eWhole_split (d : Dev nD) (f : Buf (Elt F) (eLoc d)) :
    (eLoc d ↦{fullShare} f : sProp 𝕄)
      = bigSep Finset.univ fun c : Fin 2 => bigSep Finset.univ fun i : Fin 16 => eLoc d ↦{eShare (wOf c i)} f := by
  rw [← regroup_w (fun w => (eLoc d ↦{eShare w} f : sProp 𝕄))]
  exact pointsTo_piecesOf Finset.univ f (by decide) fullShare

theorem oWhole_split (d : Dev nD) (f : Buf (Elt F) (oLoc d)) :
    (oLoc d ↦{fullShare} f : sProp 𝕄)
      = bigSep Finset.univ fun c : Fin 2 => bigSep Finset.univ fun i : Fin 16 => bigSep Finset.univ fun g : Fin 128 =>
          oLoc d ↦[oPiece (bOf c i g)]{fullShare} f := by
  rw [← regroup_b (fun b => (oLoc d ↦[oPiece b]{fullShare} f : sProp 𝕄)),
    ← pointsTo_biUnion Finset.univ (ℓ := oLoc d) oPiece (fun b _ b' _ h => Rect.part_disjoint hdo h), Rect.biUnion_part hdo]

/-! ## What the call takes and hands back -/

section Res

variable (fx : (d : Dev nD) → Buf (Elt F) (xLoc d)) (fe : (d : Dev nD) → Buf (Elt F) (eLoc d)) (fo : (d : Dev nD) → Buf (Elt F) (oLoc d))

theorem P_st (d : Dev nD) (c : Fin ((K (F := F)).nCore 0)) :
    (P fx fe fo).st 0 d c = bigSep Finset.univ fun i : Fin 16 => goRes fx fe fo d (Fin.cast (nCore_eq 0) c) i := rfl
theorem P_dn (d : Dev nD) (c : Fin ((K (F := F)).nCore 0)) :
    (P fx fe fo).dn 0 d c = bigSep Finset.univ fun i : Fin 16 => tdRes fx fe d (Fin.cast (nCore_eq 0) c) i := rfl
theorem P_go (d : Dev nD) (c : Fin ((K (F := F)).nCore 0)) (i : Fin ((K (F := F)).nSub 0)) :
    (P fx fe fo).go 0 d c i = goRes fx fe fo d (Fin.cast (nCore_eq 0) c) (Fin.cast (nSub_eq 0) i) := rfl
theorem P_td (d : Dev nD) (c : Fin ((K (F := F)).nCore 0)) (i : Fin ((K (F := F)).nSub 0)) :
    (P fx fe fo).td 0 d c i = tdRes fx fe d (Fin.cast (nCore_eq 0) c) (Fin.cast (nSub_eq 0) i) := rfl

theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

/-- What the call takes for the two SparseCores: the flattened indices, the padded table and the result, whole. -/
theorem st0_eq (d : Dev nD) :
    (bigSep Finset.univ fun c : Fin ((K (F := F)).nCore 0) => (P fx fe fo).st 0 d c)
      = iprop((xLoc d ↦{fullShare} fx d) ∗ (eLoc d ↦{fullShare} fe d) ∗ (oLoc d ↦{fullShare} fo d)) := by
  rw [bigSep_congr fun c _ => P_st fx fe fo d c, bigSep_cores (F := F) (fun c => bigSep Finset.univ fun i : Fin 16 => goRes fx fe fo d c i)]
  simp only [goRes, bigSep_sep']
  rw [← xWhole_split, ← eWhole_split, ← oWhole_split]

/-- What it hands back: the same, the result holding the 128-column lookup. -/
theorem dn0_eq (d : Dev nD) :
    (bigSep Finset.univ fun c : Fin ((K (F := F)).nCore 0) => (P fx fe fo).dn 0 d c)
      = iprop((xLoc d ↦{fullShare} fx d) ∗ (eLoc d ↦{fullShare} fe d)
          ∗ (oLoc d ↦{fullShare} (Cert.Spec.padded (fx d) (fe d) : Buf (Elt F) (oLoc d)))) := by
  rw [bigSep_congr fun c _ => P_dn fx fe fo d c, bigSep_cores (F := F) (fun c => bigSep Finset.univ fun i : Fin 16 => tdRes fx fe d c i)]
  simp only [tdRes, bigSep_sep']
  rw [← xWhole_split, ← eWhole_split, ← oWhole_split]

/-! ## A SparseCore's operands among its subcores: the identity -/

theorem vecSplit : (K (F := F)).VecSplit' (P fx fe fo) 0 := by
  intro d c
  rw [P_st, P_dn, bigSep_congr fun i _ => P_go fx fe fo d c i, bigSep_congr fun i _ => P_td fx fe fo d c i,
    bigSep_tasks (F := F) (fun i => goRes fx fe fo d (Fin.cast (nCore_eq 0) c) i),
    bigSep_tasks (F := F) (fun i => tdRes fx fe d (Fin.cast (nCore_eq 0) c) i)]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fx fe fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Res

end Cert.Proof.K

end
-- ==== Proof.K.TileValue.lean ====
/-
  What one vector subcore's transfers carry, as functions of the flattened index array and the padded table.

  Subcore (c, i) is worker w = 2 i + c. Its index words are the w-th stretch of 25600 of the flattened index array;
  batch row g of its 128 uses words 200 g … 200 g + 199 of that stretch, that is positions
  25600 w + 200 g + l = (128 w + g) * 200 + l of the flattened array: the positions of batch row 128 w + g. The
  indexed copy for batch row g puts, at (l, q) of a 200 × 128 row buffer, the padded table's entry (row, q), the row
  being the word at position l of that window read as a natural number; in range, that is the row the lookup names.
  The copy out then writes the buffer over batch row 128 w + g of the result through a view whose element (l, q) is
  the result's (128 w + g, l, q); so that batch row holds the 128-column lookup.
-/
import proofs.«206599_g37160057045681_cont_8to1_b_383_13_alg».proof.Proof.K.Common
import Idealize.ShloMosaic.Lib.ValueLayout

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

-- the four arrays, as whole memrefs
local notation "xW" => (Memref.whole main_v0_scv : Memref sig Kind.scVector Space.hbm S819200 EltTy.i32)
local notation "eW" => (Memref.whole main_v1_scv : Memref sig Kind.scVector Space.hbm S100000x128 EltTy.f32)
local notation "oW" => (Memref.whole main_v2_scv : Memref sig Kind.scVector Space.hbm S4096x200x128 EltTy.f32)
local notation "sI" => (Memref.whole cc0_scratch0 : Memref sig Kind.scVector Space.vmem S25600 EltTy.i32)

/-- Batch row `g` of subcore (c, i) as the indexed copy delivers it: at (l, q) the padded table's entry (row, q), the
    row named by the index word at (128 w + g, l). -/
def rowsOf (fxd : S819200.Idx → BitVec 32) (fed : S100000x128.Idx → Elt F .f32) (c : Fin 2) (i : Fin 16) (g : Fin 128) :
    S200x128.Idx → Elt F .f32 :=
  fun y => fed (ValueIdx.ix2 (Cert.Spec.rowOf (fxd (ValueIdx.ix1 (Cert.Spec.flatPos (bOf c i g) (y 0))))) (y 1))

/-! ## Reads through the slices -/

/-- The whole-table slice reads the table. -/
theorem read_table (fed : S100000x128.Idx → Elt F .f32) (x : S100000x128.Idx) :
    ((eW).slice (Rect.unit (s := S100000x128) ![0, 0] S100000x128.size inb_S100000x128_S100000x128_0_0) (fun _ => rfl)).view.read (Elt F) fed x
      = fed x := by
  have he : ((eW).slice (Rect.unit (s := S100000x128) ![0, 0] S100000x128.size inb_S100000x128_S100000x128_0_0) (fun _ => rfl)).view.emb x = x := by
    funext a; apply Fin.ext
    match a with
    | ⟨0, _⟩ => show 0 + 1 * (x 0).val = (x 0).val; omega
    | ⟨1, _⟩ => show 0 + 1 * (x 1).val = (x 1).val; omega
  rw [View.read_apply, he]
  rfl

/-- Word `p` of a subcore's stretch of index words is word 25600 w + p of the flattened index array. -/
theorem read_stretch (L : grid0.Coords) (fxd : S819200.Idx → BitVec 32) (p : Fin 25600) :
    ((xW).slice (Rect.unit (s := S819200) (k0_off1 L) S25600.size (k0_off1_inb L)) (fun _ => rfl)).view.read (Elt F) fxd (ValueIdx.ix1 p)
      = fxd (ValueIdx.ix1 ⟨25600 * (wOf (cL L) (jL L)).val + p.val, by have := (wOf (cL L) (jL L)).isLt; have := p.isLt; omega⟩) := by
  have he : ((xW).slice (Rect.unit (s := S819200) (k0_off1 L) S25600.size (k0_off1_inb L)) (fun _ => rfl)).view.emb (ValueIdx.ix1 p)
      = ValueIdx.ix1 ⟨25600 * (wOf (cL L) (jL L)).val + p.val, by have := (wOf (cL L) (jL L)).isLt; have := p.isLt; omega⟩ := by
    funext a; apply Fin.ext
    match a with
    | ⟨0, _⟩ =>
      show k0_off1 L 0 + 1 * p.val = 25600 * ((L 1).val * 2 + (L 0).val) + p.val
      rw [k0_off1_eq]
      show 51200 * (L 1).val + 25600 * (L 0).val + 1 * p.val = 25600 * ((L 1).val * 2 + (L 0).val) + p.val
      omega
  rw [View.read_apply, he]
  rfl

/-- Word `l` of the list window for batch row `g` is word 200 g + l of the index scratch. -/
theorem read_window (idx : S25600.Idx → BitVec 32) (g : Fin 128)
    (inb : ∀ a, (![200 * g.val] : Fin 1 → Nat) a + S200.size a ≤ S25600.size a) (l : Fin 200) :
    ((sI).slice (Rect.unit (s := S25600) ![200 * g.val] S200.size inb) (fun _ => rfl)).view.read (Elt F) idx (ValueIdx.ix1 l)
      = idx (ValueIdx.ix1 ⟨200 * g.val + l.val, by have := g.isLt; have := l.isLt; omega⟩) := by
  have he : ((sI).slice (Rect.unit (s := S25600) ![200 * g.val] S200.size inb) (fun _ => rfl)).view.emb (ValueIdx.ix1 l)
      = ValueIdx.ix1 ⟨200 * g.val + l.val, by have := g.isLt; have := l.isLt; omega⟩ := by
    funext a; apply Fin.ext
    match a with
    | ⟨0, _⟩ => show 200 * g.val + 1 * l.val = 200 * g.val + l.val; omega
  rw [View.read_apply, he]
  rfl

/-- Entry `k` of a 200-word list, as a row: the word at position `k`, read as a natural number. -/
theorem rows_val {o z : Nat} (idx : S200.Idx → Elt F .i32) (hn : S200.numel = o) (h : ∀ x, (idx x).toNat < z) (k : Fin o)
    (k' : Fin 200) (hk : k.val = k'.val) : (SparseCore.rows idx hn h k).val = (idx (ValueIdx.ix1 k')).toNat := by
  have e : S200.rowMajor.symm (k.cast hn.symm) = ValueIdx.ix1 k' :=
    (Equiv.symm_apply_eq _).2 (Fin.ext (by rw [Shape.rowMajor_val_one]; exact hk))
  show (idx (S200.rowMajor.symm (k.cast hn.symm))).toNat = _
  rw [e]

/-! ## What the indexed copy delivers -/

/-- THE GATHER'S PAYLOAD for batch row `g` of the subcore at grid point `L`: the rows of the padded table that the
    index words of batch row 128 w + g name. -/
theorem gather_rows (L : grid0.Coords) (fxd : S819200.Idx → BitVec 32) (fed : S100000x128.Idx → Elt F .f32) (g : Fin 128)
    (off : Fin 1 → Nat) (inb : ∀ a, off a + S200.size a ≤ S25600.size a) (hoff : off = ![200 * g.val])
    (hn : S200.numel = S200x128.size gathers_S100000x128_S200x128.axis')
    (hin : ∀ x, (((sI).slice (Rect.unit (s := S25600) off S200.size inb) (fun _ => rfl)).view.read (Elt F)
        (((xW).slice (Rect.unit (s := S819200) (k0_off1 L) S25600.size (k0_off1_inb L)) (fun _ => rfl)).view.read (Elt F) fxd) x).toNat
      < S100000x128.size gathers_S100000x128_S200x128.axis) :
    SparseCore.gatherPayload gathers_S100000x128_S200x128
        (((eW).slice (Rect.unit (s := S100000x128) ![0, 0] S100000x128.size inb_S100000x128_S100000x128_0_0) (fun _ => rfl)).view.read (Elt F) fed)
        (SparseCore.rows (((sI).slice (Rect.unit (s := S25600) off S200.size inb) (fun _ => rfl)).view.read (Elt F)
          (((xW).slice (Rect.unit (s := S819200) (k0_off1 L) S25600.size (k0_off1_inb L)) (fun _ => rfl)).view.read (Elt F) fxd)) hn hin)
      = rowsOf fxd fed (cL L) (jL L) g := by
  subst hoff
  funext y
  obtain ⟨l, q, rfl⟩ : ∃ (l : Fin 200) (q : Fin 128), y = ValueIdx.ix2 l q := ⟨y 0, y 1, ValueIdx.eq_ix2 y⟩
  -- the source index: the named row, the same column
  have hidx : gathers_S100000x128_S200x128.idx
      (SparseCore.rows (((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)) hn hin)
      (ValueIdx.ix2 l q)
      = ValueIdx.ix2 (SparseCore.rows (((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)) hn hin l) q := by
    funext b
    match b with
    | ⟨0, _⟩ => exact Shape.Gathers.idx_axis gathers_S100000x128_S200x128 _ (ValueIdx.ix2 l q)
    | ⟨1, _⟩ => exact Fin.ext (Shape.Gathers.idx_of_ne gathers_S100000x128_S200x128 _ (ValueIdx.ix2 l q) ⟨1, by decide⟩ (by decide))
  unfold SparseCore.gatherPayload
  rw [hidx]
  refine (read_table (F := F) fed _).trans ?_
  refine congrArg fed (congrArg (fun r => ValueIdx.ix2 r q) (Fin.ext ?_))
  -- word l' of the window is the index word at (128 w + g, l')
  have hw : ∀ l' : Fin 200,
      ((sI).slice (Rect.unit (s := S25600) ![200 * g.val] S200.size inb) (fun _ => rfl)).view.read (Elt F)
        (((xW).slice (Rect.unit (s := S819200) (k0_off1 L) S25600.size (k0_off1_inb L)) (fun _ => rfl)).view.read (Elt F) fxd)
        (ValueIdx.ix1 l')
      = fxd (ValueIdx.ix1 (Cert.Spec.flatPos (bOf (cL L) (jL L) g) l')) := fun l' =>
    (read_window (F := F) _ g inb l').trans ((read_stretch (F := F) L fxd _).trans
      (congrArg fxd (congrArg ValueIdx.ix1 (Fin.ext (by
        show 25600 * ((jL L).val * 2 + (cL L).val) + (200 * g.val + l'.val)
          = (((jL L).val * 2 + (cL L).val) * 128 + g.val) * 200 + l'.val
        omega)))))
  have hl : (fxd (ValueIdx.ix1 (Cert.Spec.flatPos (bOf (cL L) (jL L) g) l))).toNat < 100000 :=
    lt_of_eq_of_lt (congrArg BitVec.toNat (hw l)).symm (hin (ValueIdx.ix1 l))
  refine (rows_val (F := F) _ hn hin l l rfl).trans ((congrArg BitVec.toNat (hw l)).trans ?_)
  show (fxd (ValueIdx.ix1 (Cert.Spec.flatPos (bOf (cL L) (jL L) g) l))).toNat
    = min (fxd (ValueIdx.ix1 (Cert.Spec.flatPos (bOf (cL L) (jL L) g) l))).toNat 99999
  omega

/-! ## What the copy out leaves -/

/-- THE COPY OUT of batch row `g`: written whole through the squeezed slab view of batch row 128 w + g, the rows leave
    that batch row of the result at the 128-column lookup. -/
theorem out_row (L : grid0.Coords) (g : Fin 128) (off : Fin 3 → Nat)
    (inb : ∀ a, off a + S1x200x128.size a ≤ S4096x200x128.size a) (hoff : off = ![(bOf (cL L) (jL L) g).val, 0, 0])
    (fo : S4096x200x128.Idx → Elt F .f32) (fxd : S819200.Idx → BitVec 32) (fed : S100000x128.Idx → Elt F .f32) :
    ∀ j ∈ oPiece (bOf (cL L) (jL L) g),
      (((oW).slice (Rect.unit (s := S4096x200x128) off S1x200x128.size inb) (fun _ => rfl)).squeeze S200x128
          squeezes_S1x200x128_S200x128).view.writes (Elt F) fo
        [⟨Rect.whole S200x128, (ReadAs.same : ReadAs (Elt F) S200x128 .f32 S200x128 .f32).apply (rowsOf fxd fed (cL L) (jL L) g)⟩] j
        = Cert.Spec.padded fxd fed j := by
  subst hoff
  intro j hj
  have hm : (bOf (cL L) (jL L) g).val * 1 ≤ (j 0).val ∧ (j 0).val < (bOf (cL L) (jL L) g).val * 1 + 1 :=
    (Rect.mem_set_unit.mp hj) 0
  obtain ⟨b', l, q, rfl⟩ : ∃ (b' : Fin 4096) (l : Fin 200) (q : Fin 128), j = ValueIdx.ix3 b' l q :=
    ⟨j 0, j 1, j 2, ValueIdx.eq_ix3 j⟩
  have hb : b' = bOf (cL L) (jL L) g := Fin.ext (by
    have h0 : ((ValueIdx.ix3 b' l q : S4096x200x128.Idx) 0).val = b'.val := rfl
    omega)
  subst hb
  have hemb : ((((oW).slice (Rect.unit (s := S4096x200x128) ![(bOf (cL L) (jL L) g).val, 0, 0] S1x200x128.size inb) (fun _ => rfl)).squeeze S200x128
        squeezes_S1x200x128_S200x128).view.slice (Rect.whole S200x128)).emb (ValueIdx.ix2 l q)
      = ValueIdx.ix3 (bOf (cL L) (jL L) g) l q := by
    show (Rect.unit (s := S4096x200x128) ![(bOf (cL L) (jL L) g).val, 0, 0] S1x200x128.size inb).emb
        (Shape.reshapeEquiv _ ((Rect.whole S200x128).emb (ValueIdx.ix2 l q))) = _
    rw [Rect.emb_whole_apply, ValueIdx.reshapeEquiv_ix2_1ab]
    funext a; apply Fin.ext
    match a with
    | ⟨0, _⟩ => show (bOf (cL L) (jL L) g).val + 1 * 0 = (bOf (cL L) (jL L) g).val; omega
    | ⟨1, _⟩ => show 0 + 1 * l.val = l.val; omega
    | ⟨2, _⟩ => show 0 + 1 * q.val = q.val; omega
  rw [View.writes_singleton]
  refine (congrArg _ hemb.symm).trans ((View.write_emb_of_mem _ _ (Finset.mem_univ _)).trans ?_)
  rfl

end Cert.Proof.K

end
-- ==== Proof.K.Body.lean ====
/-
  One vector subcore's task, run once at a symbolic subcore (c, i).

  The task copies its 25600 index words into its index scratch, then moves its 128 batch rows through a ring of
  four 200 × 128 row buffers: batch row g is gathered from the padded table into buffer g mod 4 (an indexed copy,
  row r of the buffer taking the table row that index word 200 g + r names) and then copied from the buffer to
  batch row 128 w + g of the result. Each buffer has a semaphore for its gathers and one for its copies out, so
  on every semaphore at most one transfer is outstanding, and a buffer is touched by nothing between the start of
  a transfer on it and the wait for that transfer. Two gathers and two copies out are in the air at every loop
  boundary; the loop's invariant holds them as transfers in flight, each with what it will deliver.
-/
import proofs.«206599_g37160057045681_cont_8to1_b_383_13_alg».proof.Proof.K.Common
import proofs.«206599_g37160057045681_cont_8to1_b_383_13_alg».proof.Proof.K.TileValue

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v0_scv : Memref Cert.Kernel.sig Kind.scVector Space.hbm Cert.Kernel.S819200 EltTy.i32)
local notation "eW" => (Memref.whole Cert.Kernel.main_v1_scv : Memref Cert.Kernel.sig Kind.scVector Space.hbm Cert.Kernel.S100000x128 EltTy.f32)
local notation "oW" => (Memref.whole Cert.Kernel.main_v2_scv : Memref Cert.Kernel.sig Kind.scVector Space.hbm Cert.Kernel.S4096x200x128 EltTy.f32)
local notation "sI" => (Memref.whole Cert.Kernel.cc0_scratch0 : Memref Cert.Kernel.sig Kind.scVector Space.vmem Cert.Kernel.S25600 EltTy.i32)
local notation "sR" => (Memref.whole Cert.Kernel.cc0_scratch1 : Memref Cert.Kernel.sig Kind.scVector Space.vmem Cert.Kernel.S4x200x128 EltTy.f32)

/-! ## Taking listed members out of a separating family -/

section Pack
variable {M : Type} [URA M] {α : Type} [DecidableEq α]

/-- The listed members one by one, then the family over what is left. -/
def pack (Φ : α → sProp M) : List α → Finset α → sProp M
  | [], S => bigSep S Φ
  | a :: l, S => iprop(Φ a ∗ pack Φ l (S.erase a))

theorem bigSep_pack (Φ : α → sProp M) : ∀ (l : List α) (S : Finset α), l.Nodup → (∀ a ∈ l, a ∈ S) → bigSep S Φ = pack Φ l S
  | [], _, _, _ => rfl
  | a :: l, S, hn, hm => by
    rw [SparseCore.bigSep_erase' (hm a List.mem_cons_self)]
    show _ = iprop(Φ a ∗ pack Φ l (S.erase a))
    rw [bigSep_pack Φ l (S.erase a) (List.nodup_cons.mp hn).2 fun b hb =>
      Finset.mem_erase.mpr ⟨fun e => (List.nodup_cons.mp hn).1 (e ▸ hb), hm b (List.mem_cons_of_mem _ hb)⟩]

end Pack

variable [FloatOps F]

section Tile
variable (d : Dev nD) (L : grid0.Coords)

/-- The task's nine DMA semaphores: four for the gathers, four for the copies out, one for the index fetch. -/
def semList : List (DmaSem sig) :=
  [cc0_scratch2.sem, cc0_scratch3.sem, cc0_scratch4.sem, cc0_scratch5.sem, cc0_scratch6.sem, cc0_scratch7.sem, cc0_scratch8.sem, cc0_scratch9.sem, cc0_scoped0.sem]

theorem semList_nodup : (semList).Nodup := by decide
theorem semList_scoped : ∀ s ∈ semList, (SemLoc.dma s : SemLoc sig).isScoped .scVector = true := by decide

def cellList : List (GSem nD τ sig) := semList.map fun s => (V d (cV L) (jV L), SemLoc.dma s)

theorem ownSems0_V :
    (ownSems0 (V d (cV L) (jV L)) : sProp 𝕄) = pack (fun g => semVal g 0) (cellList d L) (ownCells (V d (cV L) (jV L))) := by
  unfold SparseCore.Cfg.ownSems0
  refine bigSep_pack _ _ _ ?_ ?_
  · exact (List.Nodup.map (fun a b e => by injection (Prod.mk.inj e).2) semList_nodup)
  · intro g hg
    obtain ⟨s, hs, rfl⟩ := List.mem_map.mp hg
    exact mem_ownCells.mpr ⟨rfl, semList_scoped s hs⟩

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The subcore's stretch of the flattened index array, as the task slices it. -/
abbrev xSl (L : grid0.Coords) : Memref sig .scVector .hbm S25600 .i32 :=
  (xW).slice (Rect.unit (s := S819200) (k0_off1 L) S25600.size (k0_off1_inb L)) (fun _ => rfl)

theorem xRect_eq : Rect.unit (s := S819200) (k0_off1 L) S25600.size (k0_off1_inb L) = Rect.part (s := S819200) (a₀ := 0) hdx (wOf (cL L) (jL L)) := by
  unfold Rect.part Rect.block
  congr 1 <;> funext a
  · rw [k0_off1_eq]
    match a with
    | 0 => simp [Shape.partIx, Shape.partSize, wOf]; omega
  · match a with
    | 0 => simp [Shape.partSize]

theorem set_xSl : (xSl L).view.set = xSet (wOf (cL L) (jL L)) := by
  show ((xW).view.slice (Rect.unit (s := S819200) (k0_off1 L) S25600.size (k0_off1_inb L))).set = _
  rw [xRect_eq]
  show ((View.whole (main_v0_scv : Ref sig .scVector)).slice _).set = _
  rw [View.set_slice]; exact Finset.map_refl

theorem pts_xSl (f : Buf (Elt F) (xLoc d)) :
    ((xSl L).view.loc (V d (cV L) (jV L)) ↦[(xSl L).view.set]{fullShare} f : sProp 𝕄) = xLoc d ↦[xSet (wOf (cL L) (jL L))]{fullShare} f := by
  rw [set_xSl]

theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl

/-- The index words the subcore fetched: its stretch of the flattened index array, read through the slice. -/
def idxOf (fxd : Buf (Elt F) (xLoc d)) : Buf (Elt F) ((V d (cV L) (jV L)).loc cc0_scratch0) :=
  (xSl L).view.read (Elt F) fxd

section Fin4
variable {M : Type} [URA M]
theorem bigSep_fin4 (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
end Fin4

theorem hd4 : 4 ∣ S4x200x128.size 0 := ⟨1, rfl⟩
/-- Row buffer `b` of the ring: one of the four 200 × 128 slabs of the rows scratch. -/
abbrev slotSet (b : Fin 4) : Finset S4x200x128.Idx := (Rect.part (s := S4x200x128) (a₀ := 0) hd4 b).set

abbrev slot0 : Memref sig .scVector .vmem S200x128 .f32 := ((sR).slice (Rect.unit (s := S4x200x128) ![0, 0, 0] S1x200x128.size inb_S4x200x128_S1x200x128_0_0_0) (fun _ => rfl)).squeeze S200x128 squeezes_S1x200x128_S200x128
abbrev slot1 : Memref sig .scVector .vmem S200x128 .f32 := ((sR).slice (Rect.unit (s := S4x200x128) ![1, 0, 0] S1x200x128.size inb_S4x200x128_S1x200x128_1_0_0) (fun _ => rfl)).squeeze S200x128 squeezes_S1x200x128_S200x128
abbrev slot2 : Memref sig .scVector .vmem S200x128 .f32 := ((sR).slice (Rect.unit (s := S4x200x128) ![2, 0, 0] S1x200x128.size inb_S4x200x128_S1x200x128_2_0_0) (fun _ => rfl)).squeeze S200x128 squeezes_S1x200x128_S200x128
abbrev slot3 : Memref sig .scVector .vmem S200x128 .f32 := ((sR).slice (Rect.unit (s := S4x200x128) ![3, 0, 0] S1x200x128.size inb_S4x200x128_S1x200x128_3_0_0) (fun _ => rfl)).squeeze S200x128 squeezes_S1x200x128_S200x128

theorem slotRect_eq (b : Fin 4) (inb : ∀ a, (![b.val, 0, 0] : Fin 3 → Nat) a + S1x200x128.size a ≤ S4x200x128.size a) :
    Rect.unit (s := S4x200x128) ![b.val, 0, 0] S1x200x128.size inb = Rect.part (s := S4x200x128) (a₀ := 0) hd4 b := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_slice_part (b : Fin 4) : ((sR).view.slice (Rect.part (s := S4x200x128) (a₀ := 0) hd4 b)).set = slotSet b := by
  show ((View.whole (cc0_scratch1 : Ref sig .scVector)).slice _).set = _
  rw [View.set_slice]; exact Finset.map_refl

theorem set_slot0 : (slot0).view.set = slotSet 0 := by
  rw [← set_slice_part]
  show (((sR).view.slice (Rect.unit (s := S4x200x128) ![0, 0, 0] S1x200x128.size inb_S4x200x128_S1x200x128_0_0_0)).reshape S200x128 squeezes_S1x200x128_S200x128.numel_eq).set
    = ((sR).view.slice (Rect.part (s := S4x200x128) (a₀ := 0) hd4 0)).set
  rw [View.set_reshape]
  exact slotRect_eq 0 _ ▸ rfl
theorem set_slot1 : (slot1).view.set = slotSet 1 := by
  rw [← set_slice_part]
  show (((sR).view.slice (Rect.unit (s := S4x200x128) ![1, 0, 0] S1x200x128.size inb_S4x200x128_S1x200x128_1_0_0)).reshape S200x128 squeezes_S1x200x128_S200x128.numel_eq).set
    = ((sR).view.slice (Rect.part (s := S4x200x128) (a₀ := 0) hd4 1)).set
  rw [View.set_reshape]
  exact slotRect_eq 1 _ ▸ rfl
theorem set_slot2 : (slot2).view.set = slotSet 2 := by
  rw [← set_slice_part]
  show (((sR).view.slice (Rect.unit (s := S4x200x128) ![2, 0, 0] S1x200x128.size inb_S4x200x128_S1x200x128_2_0_0)).reshape S200x128 squeezes_S1x200x128_S200x128.numel_eq).set
    = ((sR).view.slice (Rect.part (s := S4x200x128) (a₀ := 0) hd4 2)).set
  rw [View.set_reshape]
  exact slotRect_eq 2 _ ▸ rfl
theorem set_slot3 : (slot3).view.set = slotSet 3 := by
  rw [← set_slice_part]
  show (((sR).view.slice (Rect.unit (s := S4x200x128) ![3, 0, 0] S1x200x128.size inb_S4x200x128_S1x200x128_3_0_0)).reshape S200x128 squeezes_S1x200x128_S200x128.numel_eq).set
    = ((sR).view.slice (Rect.part (s := S4x200x128) (a₀ := 0) hd4 3)).set
  rw [View.set_reshape]
  exact slotRect_eq 3 _ ▸ rfl

/-- The rows scratch whole is its four row buffers. -/
theorem sR_slots (f : Buf (Elt F) ((V d (cV L) (jV L)).loc cc0_scratch1)) :
    ((V d (cV L) (jV L)).loc cc0_scratch1 ↦{fullShare} f : sProp 𝕄)
      = iprop(((slot0).view.loc (V d (cV L) (jV L)) ↦[(slot0).view.set]{fullShare} f) ∗ ((slot1).view.loc (V d (cV L) (jV L)) ↦[(slot1).view.set]{fullShare} f)
          ∗ ((slot2).view.loc (V d (cV L) (jV L)) ↦[(slot2).view.set]{fullShare} f) ∗ ((slot3).view.loc (V d (cV L) (jV L)) ↦[(slot3).view.set]{fullShare} f)) := by
  rw [set_slot0, set_slot1, set_slot2, set_slot3]
  rw [← bigSep_fin4 (fun b : Fin 4 => ((V d (cV L) (jV L)).loc cc0_scratch1 ↦[slotSet b]{fullShare} f : sProp 𝕄))]
  rw [← pointsTo_biUnion Finset.univ (ℓ := (V d (cV L) (jV L)).loc cc0_scratch1) slotSet (fun i _ j _ h => Rect.part_disjoint hd4 h), Rect.biUnion_part hd4]

theorem idxOf_lt (fxd : Buf (Elt F) (xLoc d)) (h : Cert.Spec.InRangeFlat fxd) (j : Idx ((V d (cV L) (jV L)).loc cc0_scratch0)) :
    (idxOf (F := F) d L fxd j).toNat < 100000 := by
  unfold idxOf; rw [View.read_apply, cast_eq]; exact h _

theorem pts_eW (q : PosShare TreeShare) (f : Buf (Elt F) (eLoc d)) :
    ((eW).view.loc (V d (cV L) (jV L)) ↦{q} f : sProp 𝕄) = eLoc d ↦{q} f := rfl

/-! ### The result's batch rows, as the task addresses them -/

theorem oRect_eq (off : Fin 3 → Nat) (inb : ∀ a, off a + S1x200x128.size a ≤ S4096x200x128.size a) (b : Fin 4096) (h : off = ![b.val, 0, 0]) :
    Rect.unit (s := S4096x200x128) off S1x200x128.size inb = Rect.part (s := S4096x200x128) (a₀ := 0) hdo b := by
  subst h
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_slice_opart (b : Fin 4096) : ((oW).view.slice (Rect.part (s := S4096x200x128) (a₀ := 0) hdo b)).set = oPiece b := by
  show ((View.whole (main_v2_scv : Ref sig .scVector)).slice _).set = _
  rw [View.set_slice]; exact Finset.map_refl

/-- A batch row of the result sliced at offsets `off` and squeezed, as the task's copies out name it. -/
abbrev oRow (off : Fin 3 → Nat) (inb : ∀ a, off a + S1x200x128.size a ≤ S4096x200x128.size a) : Memref sig .scVector .hbm S200x128 .f32 :=
  ((oW).slice (Rect.unit (s := S4096x200x128) off S1x200x128.size inb) (fun _ => rfl)).squeeze S200x128 squeezes_S1x200x128_S200x128

theorem set_oRow (off : Fin 3 → Nat) (inb : ∀ a, off a + S1x200x128.size a ≤ S4096x200x128.size a) (b : Fin 4096) (h : off = ![b.val, 0, 0]) :
    (oRow off inb).view.set = oPiece b := by
  rw [← set_slice_opart]
  show (((oW).view.slice (Rect.unit (s := S4096x200x128) off S1x200x128.size inb)).reshape S200x128 squeezes_S1x200x128_S200x128.numel_eq).set
    = ((oW).view.slice (Rect.part (s := S4096x200x128) (a₀ := 0) hdo b)).set
  rw [View.set_reshape]
  exact oRect_eq off inb b h ▸ rfl

theorem pts_oRow (off : Fin 3 → Nat) (inb : ∀ a, off a + S1x200x128.size a ≤ S4096x200x128.size a) (b : Fin 4096) (h : off = ![b.val, 0, 0])
    (f : Buf (Elt F) (oLoc d)) :
    ((oRow off inb).view.loc (V d (cV L) (jV L)) ↦[(oRow off inb).view.set]{fullShare} f : sProp 𝕄) = oLoc d ↦[oPiece b]{fullShare} f := by
  rw [set_oRow off inb b h]

theorem k0_off2_closed : ∀ (i : grid0.Coords) (r : Fin 4), k0_off2 i (k0_off2_at r) = ![256 * (i 1).val + 128 * (i 0).val + (k0_off2_at r).toNat, 0, 0] := by
  decide +kernel

/-- Batch row `g` of this subcore, as a row of the whole result. -/
abbrev bL (g : Fin 128) : Fin 4096 := bOf (cL L) (jL L) g

theorem off2_eq (r : Fin 4) (g : Fin 128) (hg : (k0_off2_at r).toNat = g.val) : k0_off2 L (k0_off2_at r) = ![(bL L g).val, 0, 0] := by
  rw [k0_off2_closed, hg]
  show _ = ![((L 1).val * 2 + (L 0).val) * 128 + g.val, 0, 0]
  congr 1; omega

theorem off4_eq (k : Fin k0_t1_loop.trips) (r : Fin 4) (g : Fin 128) (hg : 4 * k.val + r.val + 2 = g.val) :
    k0_off4 L k (BitVec.ofNat 32 r.val) = ![(bL L g).val, 0, 0] := by
  rw [k0_off4_eq]
  show _ = ![((L 1).val * 2 + (L 0).val) * 128 + g.val, 0, 0]
  congr 1; omega

section Families
variable {M : Type} [URA M]

/-- The batch rows from `lo` on, as a family: its first member and the rest. -/
theorem from_take (lo : ℕ) (h : lo < 128) (Φ : Fin 128 → sProp M) :
    bigSep (Finset.univ.filter fun g : Fin 128 => lo ≤ g.val) Φ = iprop(Φ ⟨lo, h⟩ ∗ bigSep (Finset.univ.filter fun g : Fin 128 => lo + 1 ≤ g.val) Φ) := by
  rw [← SparseCore.bigSep_insert' (by simp)]
  congr 1
  ext g
  simp only [Finset.mem_filter, Finset.mem_univ, true_and, Finset.mem_insert]
  constructor
  · intro hg
    by_cases e : g.val = lo
    · exact .inl (Fin.ext e)
    · exact .inr (by omega)
  · rintro (rfl | hg)
    · exact le_refl _
    · omega

/-- The batch rows below `hi + 1`: the one at `hi` and those below it. -/
theorem below_put (hi : ℕ) (h : hi < 128) (Φ : Fin 128 → sProp M) :
    bigSep (Finset.univ.filter fun g : Fin 128 => g.val < hi + 1) Φ = iprop(Φ ⟨hi, h⟩ ∗ bigSep (Finset.univ.filter fun g : Fin 128 => g.val < hi) Φ) := by
  rw [← SparseCore.bigSep_insert' (by simp)]
  congr 1
  ext g
  simp only [Finset.mem_filter, Finset.mem_univ, true_and, Finset.mem_insert]
  constructor
  · intro hg
    by_cases e : g.val = hi
    · exact .inl (Fin.ext e)
    · exact .inr (by omega)
  · rintro (rfl | hg)
    · exact Nat.lt_succ_self _
    · omega

theorem from_zero (Φ : Fin 128 → sProp M) : bigSep (Finset.univ.filter fun g : Fin 128 => 0 ≤ g.val) Φ = bigSep Finset.univ Φ := by
  rw [Finset.filter_true_of_mem (fun g _ => Nat.zero_le g.val)]
theorem below_all (Φ : Fin 128 → sProp M) : bigSep (Finset.univ.filter fun g : Fin 128 => g.val < 128) Φ = bigSep Finset.univ Φ := by
  rw [Finset.filter_true_of_mem (fun g _ => g.isLt)]
theorem below_zero (Φ : Fin 128 → sProp M) : bigSep (Finset.univ.filter fun g : Fin 128 => g.val < 0) Φ = iprop(emp) := by
  rw [show (Finset.univ.filter fun g : Fin 128 => g.val < 0) = ∅ from by ext g; simp]; exact bigSep_empty
theorem from_end (Φ : Fin 128 → sProp M) : bigSep (Finset.univ.filter fun g : Fin 128 => 128 ≤ g.val) Φ = iprop(emp) := by
  rw [show (Finset.univ.filter fun g : Fin 128 => 128 ≤ g.val) = ∅ from by ext g; simp]; exact bigSep_empty

end Families

/-! ### The index scratch's 128 list windows, the padded table as every gather names it -/

theorem hdl : 128 ∣ S25600.size 0 := ⟨200, rfl⟩
/-- The 200 index words of batch row `g`. -/
abbrev lwSet (g : Fin 128) : Finset S25600.Idx := (Rect.part (s := S25600) (a₀ := 0) hdl g).set

/-- A list window sliced at offset `off`, as a gather names it. -/
abbrev lwM (off : Fin 1 → Nat) (inb : ∀ a, off a + S200.size a ≤ S25600.size a) : Memref sig .scVector .vmem S200 .i32 :=
  (sI).slice (Rect.unit (s := S25600) off S200.size inb) (fun _ => rfl)

theorem lwRect_eq (off : Fin 1 → Nat) (inb : ∀ a, off a + S200.size a ≤ S25600.size a) (g : Fin 128) (h : off = ![200 * g.val]) :
    Rect.unit (s := S25600) off S200.size inb = Rect.part (s := S25600) (a₀ := 0) hdl g := by
  subst h
  unfold Rect.part Rect.block
  congr 1 <;> funext a
  · match a with
    | 0 => simp [Shape.partIx, Shape.partSize]; omega
  · match a with
    | 0 => simp [Shape.partSize]

theorem set_lwM (off : Fin 1 → Nat) (inb : ∀ a, off a + S200.size a ≤ S25600.size a) (g : Fin 128) (h : off = ![200 * g.val]) :
    (lwM off inb).view.set = lwSet g := by
  show ((sI).view.slice (Rect.unit (s := S25600) off S200.size inb)).set = _
  rw [lwRect_eq off inb g h]
  show ((View.whole (cc0_scratch0 : Ref sig .scVector)).slice _).set = _
  rw [View.set_slice]; exact Finset.map_refl

theorem pts_lwM (off : Fin 1 → Nat) (inb : ∀ a, off a + S200.size a ≤ S25600.size a) (g : Fin 128) (h : off = ![200 * g.val])
    (f : Buf (Elt F) ((V d (cV L) (jV L)).loc cc0_scratch0)) :
    ((lwM off inb).view.loc (V d (cV L) (jV L)) ↦[(lwM off inb).view.set]{fullShare} f : sProp 𝕄)
      = (V d (cV L) (jV L)).loc cc0_scratch0 ↦[lwSet g]{fullShare} f := by
  rw [set_lwM off inb g h]

/-- The index scratch whole is its 128 list windows. -/
theorem sI_windows (f : Buf (Elt F) ((V d (cV L) (jV L)).loc cc0_scratch0)) :
    ((sI).view.loc (V d (cV L) (jV L)) ↦{fullShare} f : sProp 𝕄)
      = bigSep Finset.univ fun g : Fin 128 => (V d (cV L) (jV L)).loc cc0_scratch0 ↦[lwSet g]{fullShare} f := by
  rw [← pointsTo_biUnion Finset.univ (ℓ := (V d (cV L) (jV L)).loc cc0_scratch0) lwSet (fun i _ j _ h => Rect.part_disjoint hdl h), Rect.biUnion_part hdl]

theorem off3_eq (k : Fin k0_t1_loop.trips) (r : Fin 4) (g : Fin 128) (hg : 4 * k.val + r.val + 4 = g.val) :
    k0_off3 k (BitVec.ofNat 32 r.val) = ![200 * g.val] := by
  rw [k0_off3_eq]; congr 1; omega

/-- The padded table, sliced whole, as every gather names its source. -/
abbrev eSl : Memref sig .scVector .hbm S100000x128 .f32 :=
  (eW).slice (Rect.unit (s := S100000x128) ![0, 0] S100000x128.size inb_S100000x128_S100000x128_0_0) (fun _ => rfl)

theorem trips_eq : k0_t1_loop.trips = 31 := by decide

/-- Batch row number `n` (kept below 128). -/
def gOf (n : ℕ) : Fin 128 := ⟨min n 127, by omega⟩
theorem gOf_of_lt {n : ℕ} (h : n < 128) : gOf n = ⟨n, h⟩ := Fin.ext (by show min n 127 = n; omega)

/-! ### The loop's invariant -/

theorem set_eSl : (eSl).view.set = Finset.univ := by
  have h : (eSl).view.set = (Rect.unit (s := S100000x128) ![0, 0] S100000x128.size inb_S100000x128_S100000x128_0_0).set := by
    show ((View.whole (main_v1_scv : Ref sig .scVector)).slice _).set = _
    rw [View.set_slice]; exact Finset.map_refl
  rw [h]
  refine Finset.eq_univ_iff_forall.mpr fun i => Rect.mem_set_unit.mpr fun a => ?_
  match a with
  | 0 => exact ⟨Nat.zero_le _, by simpa using (i 0).isLt⟩
  | 1 => exact ⟨Nat.zero_le _, by simpa using (i 1).isLt⟩

theorem pts_eSl (q : PosShare TreeShare) (f : Buf (Elt F) (eLoc d)) :
    ((eSl).view.loc (V d (cV L) (jV L)) ↦[(eSl).view.set]{q} f : sProp 𝕄) = (eW).view.loc (V d (cV L) (jV L)) ↦{q} f := by
  rw [set_eSl]

/-- A batch row of the result after the copy out of a row buffer holding batch row `g`: the 128-column lookup there. -/
theorem out_conv (g : Fin 128) (off : Fin 3 → Nat) (inb : ∀ a, off a + S1x200x128.size a ≤ S4096x200x128.size a) (hoff : off = ![(bL L g).val, 0, 0])
    (fod : Buf (Elt F) (oLoc d)) (fxd : Buf (Elt F) (xLoc d)) (fed : Buf (Elt F) (eLoc d)) (w : S200x128.Idx → Elt F .f32) (hw : w = rowsOf fxd fed (cL L) (jL L) g) :
    ((oRow off inb).view.loc (V d (cV L) (jV L)) ↦[(oRow off inb).view.set]{fullShare}
        (oRow off inb).view.writes (Elt F) fod [⟨Rect.whole S200x128, ReadAs.same.apply w⟩] : sProp 𝕄)
      = oLoc d ↦[oPiece (bL L g)]{fullShare} (Cert.Spec.padded fxd fed : Buf (Elt F) (oLoc d)) := by
  subst hw
  rw [pts_oRow d L off inb (bL L g) hoff]
  exact pointsTo_congr (out_row L g off inb hoff fod fxd fed)

/-- The gather of batch row `g` fills a row buffer with the batch row's table rows. -/
theorem slot_conv {sl : Memref sig .scVector .vmem S200x128 .f32} (f : Buf (Elt F) (sl.view.loc (V d (cV L) (jV L)))) (fxd : Buf (Elt F) (xLoc d)) (fed : Buf (Elt F) (eLoc d))
    (g : Fin 128) (off : Fin 1 → Nat) (inb : ∀ a, off a + S200.size a ≤ S25600.size a) (hoff : off = ![200 * g.val])
    (hn : S200.numel = S200x128.size gathers_S100000x128_S200x128.axis')
    (hin : ∀ x, ((lwM off inb).view.read (Elt F) (idxOf d L fxd) x).toNat < S100000x128.size gathers_S100000x128_S200x128.axis) :
    sl.view.read (Elt F) (sl.view.writes (Elt F) f [⟨Rect.whole S200x128,
      SparseCore.gatherPayload gathers_S100000x128_S200x128 ((eSl).view.read (Elt F) fed) (SparseCore.rows ((lwM off inb).view.read (Elt F) (idxOf d L fxd)) hn hin)⟩])
      = rowsOf fxd fed (cL L) (jL L) g :=
  (View.read_writes_whole _ _ _).trans (gather_rows L fxd fed g off inb hoff hn hin)

/-- What a copy out of a row buffer holding batch row `g` delivers, as the invariant states it. -/
theorem write_deliv (sl : Memref sig .scVector .vmem S200x128 .f32) (fs : Buf (Elt F) (sl.view.loc (V d (cV L) (jV L)))) (wpay : S200x128.Idx → Elt F .f32)
    (S' : Finset (Idx (sl.view.loc (V d (cV L) (jV L)))))
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) (hoff : off = ![(bL L g).val, 0, 0])
    (hw : wpay = ReadAs.same.apply (sl.view.read (Elt F) fs)) (hS : S' = sl.view.set)
    (hpay : sl.view.read (Elt F) fs = rowsOf fxd fed (cL L) (jL L) g) :
    (iprop(((oRow off inb).view.loc (V d (cV L) (jV L)) ↦[(oRow off inb).view.set]{fullShare}
          (oRow off inb).view.writes (Elt F) fod [⟨Rect.whole S200x128, wpay⟩])
        ∗ (sl.view.loc (V d (cV L) (jV L)) ↦[S']{fullShare} fs)) : sProp 𝕄)
      = iprop((oLoc d ↦[oPiece (bL L g)]{fullShare} (Cert.Spec.padded fxd fed : Buf (Elt F) (oLoc d)))
        ∗ (sl.view.loc (V d (cV L) (jV L)) ↦[sl.view.set]{fullShare} fs)) := by
  subst hw hS
  rw [out_conv d L g off inb hoff fod fxd fed _ hpay]

/-- The same of a batch row held (not in flight). -/
theorem row_deliv (sl : Memref sig .scVector .vmem S200x128 .f32) (fs : Buf (Elt F) (sl.view.loc (V d (cV L) (jV L)))) (wpay : S200x128.Idx → Elt F .f32)
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) (hoff : off = ![(bL L g).val, 0, 0])
    (hw : wpay = ReadAs.same.apply (sl.view.read (Elt F) fs))
    (hpay : sl.view.read (Elt F) fs = rowsOf fxd fed (cL L) (jL L) g) :
    ((oRow off inb).view.loc (V d (cV L) (jV L)) ↦[(oRow off inb).view.set]{fullShare}
          (oRow off inb).view.writes (Elt F) fod [⟨Rect.whole S200x128, wpay⟩] : sProp 𝕄)
      = oLoc d ↦[oPiece (bL L g)]{fullShare} (Cert.Spec.padded fxd fed : Buf (Elt F) (oLoc d)) := by
  subst hw
  rw [out_conv d L g off inb hoff fod fxd fed _ hpay]

/-- What a gather delivers, as the invariant states it: the list window under its batch row's number. -/
theorem gather_deliv (sl : Memref sig .scVector .vmem S200x128 .f32) (f : Buf (Elt F) (sl.view.loc (V d (cV L) (jV L))))
    (S' : Finset (Idx (sl.view.loc (V d (cV L) (jV L))))) (S'' : Finset (Idx ((eSl).view.loc (V d (cV L) (jV L)))))
    (fxd : Buf (Elt F) (xLoc d)) (fed : Buf (Elt F) (eLoc d)) (q : PosShare TreeShare)
    (g : Fin 128) (off : Fin 1 → Nat) (inb : ∀ a, off a + S200.size a ≤ S25600.size a) (hoff : off = ![200 * g.val])
    (hS : S' = sl.view.set) (hS'' : S'' = (eSl).view.set) :
    (iprop(((sl.view.loc (V d (cV L) (jV L)) ↦[S']{fullShare} f)
          ∗ ((lwM off inb).view.loc (V d (cV L) (jV L)) ↦[(lwM off inb).view.set]{fullShare} idxOf d L fxd))
        ∗ ((eSl).view.loc (V d (cV L) (jV L)) ↦[S'']{q} fed)) : sProp 𝕄)
      = iprop(((sl.view.loc (V d (cV L) (jV L)) ↦[sl.view.set]{fullShare} f)
          ∗ ((V d (cV L) (jV L)).loc cc0_scratch0 ↦[lwSet g]{fullShare} idxOf d L fxd))
        ∗ ((eSl).view.loc (V d (cV L) (jV L)) ↦[(eSl).view.set]{q} fed)) := by
  subst hS hS''
  rw [pts_lwM d L off inb g hoff]

theorem gOf_eq (n m : ℕ) (h : m < 128) (e : n = m) : gOf n = ⟨m, h⟩ := by subst e; exact gOf_of_lt h

section FilterCongr
variable {M : Type} [URA M]
theorem filter_congr' (p q : Fin 128 → Prop) [DecidablePred p] [DecidablePred q] (h : ∀ g, p g ↔ q g) (Φ : Fin 128 → sProp M) :
    bigSep (Finset.univ.filter p) Φ = bigSep (Finset.univ.filter q) Φ := by
  rw [Finset.filter_congr (fun g _ => h g)]
end FilterCongr

/-- A batch row of the result the copy out has landed in holds the lookup. -/
theorem row_done (sl : Memref sig .scVector .vmem S200x128 .f32) (fs : Buf (Elt F) (sl.view.loc (V d (cV L) (jV L)))) (wpay : S200x128.Idx → Elt F .f32)
    (fxd : Buf (Elt F) (xLoc d)) (fed : Buf (Elt F) (eLoc d)) (fod : Buf (Elt F) (oLoc d))
    (g : Fin 128) (off : Fin 3 → Nat) (inb : ∀ a, off a + S1x200x128.size a ≤ S4096x200x128.size a) :
    iprop(((oRow off inb).view.loc (V d (cV L) (jV L)) ↦[(oRow off inb).view.set]{fullShare} (oRow off inb).view.writes (Elt F) fod [⟨Rect.whole S200x128, wpay⟩])
        ∗ ⌜off = ![(bL L g).val, 0, 0] ∧ wpay = ReadAs.same.apply (sl.view.read (Elt F) fs) ∧ sl.view.read (Elt F) fs = rowsOf fxd fed (cL L) (jL L) g⌝)
      ⊢ (oLoc d ↦[oPiece (bL L g)]{fullShare} (Cert.Spec.padded fxd fed : Buf (Elt F) (oLoc d)) : sProp 𝕄) := by
  iintro ⟨H, %h⟩
  obtain ⟨h1, h2, h3⟩ := h
  iapply (Entails.of_eq (row_deliv (F := F) d L sl fs wpay fxd fed fod g off inb h1 h2 h3))
  iexact H

/-- A list window back from its gather, under its batch row's number. -/
theorem win_back (f : Buf (Elt F) ((V d (cV L) (jV L)).loc cc0_scratch0)) (g : Fin 128) (off : Fin 1 → Nat) (inb : ∀ a, off a + S200.size a ≤ S25600.size a) :
    iprop(((lwM off inb).view.loc (V d (cV L) (jV L)) ↦[(lwM off inb).view.set]{fullShare} f) ∗ ⌜off = ![200 * g.val]⌝)
      ⊢ ((V d (cV L) (jV L)).loc cc0_scratch0 ↦[lwSet g]{fullShare} f : sProp 𝕄) := by
  iintro ⟨H, %h⟩
  iapply (Entails.of_eq (pts_lwM (F := F) d L off inb g h f))
  iexact H

/-- The four row buffers, whatever they hold, are the rows scratch whole at some contents. -/
theorem slots_join :
    (bigSep Finset.univ fun b : Fin 4 => iprop(∃ f, (V d (cV L) (jV L)).loc cc0_scratch1 ↦[slotSet b]{fullShare} f))
      ⊢ (iprop(∃ f, (V d (cV L) (jV L)).loc cc0_scratch1 ↦{fullShare} f) : sProp 𝕄) := by
  refine (bigSep_exists_pi Finset.univ (fun b (f : Buf (Elt F) ((V d (cV L) (jV L)).loc cc0_scratch1)) => ((V d (cV L) (jV L)).loc cc0_scratch1 ↦[slotSet b]{fullShare} f : sProp 𝕄))).trans ?_
  iintro ⟨%fs, H⟩
  ihave H' := (pointsTo_biUnion_join Finset.univ slotSet fs (fs 0) (fun i _ j _ h => Rect.part_disjoint hd4 h)) $$ H
  icases H' with ⟨%g, -, Hg⟩
  rw [Rect.biUnion_part hd4]
  iexists g; iexact Hg

theorem pts_slot0 (f : Buf (Elt F) ((slot0).view.loc (V d (cV L) (jV L)))) :
    ((slot0).view.loc (V d (cV L) (jV L)) ↦[(slot0).view.set]{fullShare} f : sProp 𝕄) = (V d (cV L) (jV L)).loc cc0_scratch1 ↦[slotSet 0]{fullShare} f := by rw [set_slot0]
theorem pts_slot1 (f : Buf (Elt F) ((slot1).view.loc (V d (cV L) (jV L)))) :
    ((slot1).view.loc (V d (cV L) (jV L)) ↦[(slot1).view.set]{fullShare} f : sProp 𝕄) = (V d (cV L) (jV L)).loc cc0_scratch1 ↦[slotSet 1]{fullShare} f := by rw [set_slot1]
theorem pts_slot2 (f : Buf (Elt F) ((slot2).view.loc (V d (cV L) (jV L)))) :
    ((slot2).view.loc (V d (cV L) (jV L)) ↦[(slot2).view.set]{fullShare} f : sProp 𝕄) = (V d (cV L) (jV L)).loc cc0_scratch1 ↦[slotSet 2]{fullShare} f := by rw [set_slot2]
theorem pts_slot3 (f : Buf (Elt F) ((slot3).view.loc (V d (cV L) (jV L)))) :
    ((slot3).view.loc (V d (cV L) (jV L)) ↦[(slot3).view.set]{fullShare} f : sProp 𝕄) = (V d (cV L) (jV L)).loc cc0_scratch1 ↦[slotSet 3]{fullShare} f := by rw [set_slot3]

theorem vec1_eq (a b : ℕ) (h : a = b) : (![a] : Fin 1 → ℕ) = ![b] := by rw [h]

/-- The waits a run recorded, packed for the task's exit. -/
theorem owes_pack (O : CellTallies nD τ sig (HIx 1)) (W W1 : Waits sig (HIx 1)) :
    iprop(owes (V d (cV L) (jV L)) O W1 ∗ ⌜∀ p ∈ W1, p ∈ W ∨ p.2 = none⌝)
      ⊢ (iprop(∃ W', ⌜∀ p ∈ W', p ∈ W ∨ p.2 = none⌝ ∗ owes (V d (cV L) (jV L)) O W') : sProp 𝕄) := by
  iintro ⟨HO, %h⟩
  iexists W1; isplitr
  · ipureintro; exact h
  · iexact HO

section Inv
variable (fxd : Buf (Elt F) (xLoc d)) (fed : Buf (Elt F) (eLoc d)) (fod : Buf (Elt F) (oLoc d))

/-- A copy out of row buffer `sl`, holding batch row `g`, to batch row `g` of the result, in flight on semaphore `s`. -/
def writeFlight (s : DmaSem sig) (sl : Memref sig .scVector .vmem S200x128 .f32) (g : Fin 128) : sProp 𝕄 :=
  iprop(∃ (off : Fin 3 → Nat) (inb : ∀ a, off a + S1x200x128.size a ≤ S4096x200x128.size a) (wpay : S200x128.Idx → Elt F .f32)
      (fs : Buf (Elt F) (sl.view.loc (V d (cV L) (jV L)))),
    Transfers.Flight countersEmb (V d (cV L) (jV L)) (SemLoc.dma s) (default : HIx 1) 819200
      iprop(((oRow off inb).view.loc (V d (cV L) (jV L)) ↦[(oRow off inb).view.set]{fullShare} (oRow off inb).view.writes (Elt F) fod [⟨Rect.whole S200x128, wpay⟩])
        ∗ (sl.view.loc (V d (cV L) (jV L)) ↦[sl.view.set]{fullShare} fs))
    ∗ ⌜off = ![(bL L g).val, 0, 0] ∧ wpay = ReadAs.same.apply (sl.view.read (Elt F) fs) ∧ sl.view.read (Elt F) fs = rowsOf fxd fed (cL L) (jL L) g⌝)

/-- A gather of batch row `g` into row buffer `sl` in flight on semaphore `s`, reading the table at share `q`. -/
def gatherFlight (s : DmaSem sig) (sl : Memref sig .scVector .vmem S200x128 .f32) (q : PosShare TreeShare) (g : Fin 128) : sProp 𝕄 :=
  iprop(∃ (off : Fin 1 → Nat) (inb : ∀ a, off a + S200.size a ≤ S25600.size a) (fs : Buf (Elt F) (sl.view.loc (V d (cV L) (jV L)))),
    Transfers.Flight countersEmb (V d (cV L) (jV L)) (SemLoc.dma s) (default : HIx 1) 819200
      iprop(((sl.view.loc (V d (cV L) (jV L)) ↦[sl.view.set]{fullShare} fs)
          ∗ ((lwM off inb).view.loc (V d (cV L) (jV L)) ↦[(lwM off inb).view.set]{fullShare} idxOf d L fxd))
        ∗ ((eSl).view.loc (V d (cV L) (jV L)) ↦[(eSl).view.set]{q} fed))
    ∗ ⌜off = ![200 * g.val] ∧ sl.view.read (Elt F) fs = rowsOf fxd fed (cL L) (jL L) g⌝)

local notation "tokE" b => Transfers.shareTok (eShare (wOf (cL L) (jL L))) 4 b

/-- Before trip `k`: the copies out of batch rows 4k, 4k+1 and the gathers of batch rows 4k+2, 4k+3 are in flight; the other four semaphores
    rest at zero; the list windows from 4k+4 on are unused and those below 4k+2 are back; the batch rows of the result from 4k+2 on are untouched
    and those below 4k hold the lookup. -/
def inv (O : CellTallies nD τ sig (HIx 1)) (W : Waits sig (HIx 1)) (k : ℕ) (_ : PUnit) : sProp 𝕄 :=
  iprop(Transfers.MayWaits (V d (cV L) (jV L)) (none : HIx 1) O
    ∗ writeFlight d L fxd fed fod cc0_scratch6.sem slot0 (gOf (4 * k)) ∗ writeFlight d L fxd fed fod cc0_scratch7.sem slot1 (gOf (4 * k + 1))
    ∗ gatherFlight d L fxd fed cc0_scratch4.sem slot2 (tokE 2) (gOf (4 * k + 2)) ∗ gatherFlight d L fxd fed cc0_scratch5.sem slot3 (tokE 3) (gOf (4 * k + 3))
    ∗ semVal (V d (cV L) (jV L), SemLoc.dma cc0_scratch2.sem) 0 ∗ semVal (V d (cV L) (jV L), SemLoc.dma cc0_scratch3.sem) 0
    ∗ semVal (V d (cV L) (jV L), SemLoc.dma cc0_scratch8.sem) 0 ∗ semVal (V d (cV L) (jV L), SemLoc.dma cc0_scratch9.sem) 0
    ∗ ((eSl).view.loc (V d (cV L) (jV L)) ↦[(eSl).view.set]{tokE 0} fed) ∗ ((eSl).view.loc (V d (cV L) (jV L)) ↦[(eSl).view.set]{tokE 1} fed)
    ∗ bigSep (Finset.univ.filter fun g : Fin 128 => 4 * k + 4 ≤ g.val) (fun g => (V d (cV L) (jV L)).loc cc0_scratch0 ↦[lwSet g]{fullShare} idxOf d L fxd)
    ∗ bigSep (Finset.univ.filter fun g : Fin 128 => g.val < 4 * k + 2) (fun g => (V d (cV L) (jV L)).loc cc0_scratch0 ↦[lwSet g]{fullShare} idxOf d L fxd)
    ∗ bigSep (Finset.univ.filter fun g : Fin 128 => 4 * k + 2 ≤ g.val) (fun g => oLoc d ↦[oPiece (bL L g)]{fullShare} fod)
    ∗ bigSep (Finset.univ.filter fun g : Fin 128 => g.val < 4 * k) (fun g => oLoc d ↦[oPiece (bL L g)]{fullShare} (Cert.Spec.padded fxd fed : Buf (Elt F) (oLoc d)))
    ∗ ∃ W', ⌜∀ p ∈ W', p ∈ W ∨ p.2 = none⌝ ∗ owes (V d (cV L) (jV L)) O W')

end Inv

variable (fx : (d : Dev nD) → Buf (Elt F) (xLoc d)) (fe : (d : Dev nD) → Buf (Elt F) (eLoc d)) (fo : (d : Dev nD) → Buf (Elt F) (oLoc d))

set_option maxHeartbeats 4000000 in
theorem tile_body (hF : (K (F := F)).Facts) (hin : ∀ d, Cert.Spec.InRangeFlat (fx d)) (O : CellTallies nD τ sig (HIx 1)) (W : Waits sig (HIx 1)) (hO : ∀ g, O g none = 0) :
    iprop(levAts (K (F := F)).L (K (F := F)).lev ∗ emp ∗ goRes fx fe fo d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xW (Memref.isWhole_whole _) eW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => iprop(tdRes fx fe d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes cellList semList
  simp only [List.map, pack]
  iintro ⟨#Hlv, -, ⟨Hx, He, Ho⟩, ⟨⟨%fI, HsI⟩, ⟨%fR, HsR⟩, Hbufs⟩, ⟨Hg0, Hg1, Hg2, Hg3, Hw0, Hw1, Hw2, Hw3, Hf, Hsems⟩, HO⟩
  ihave Hmw := ((K (F := F)).mayWaits_none (thr := V d (cV L) (jV L)) hO) $$ Hlv
  ihave Hx' := (Entails.of_eq (pts_xSl (F := F) d L _).symm) $$ Hx
  ihave HsI' := (Entails.of_eq (pts_sI (F := F) d L _).symm) $$ HsI
  sl_exec
  have e0 : View.write (Elt F) (sI).view fI (tile_body.sl.dma0 d L fx) Finset.univ = idxOf d L (fx d) := by
    rw [View.write_whole_univ]; rfl
  ihave HsI2 := (Entails.of_eq (congrArg (fun f => ((sI).view.loc (V d (cV L) (jV L)) ↦{fullShare} f : sProp 𝕄)) e0)) $$ HsI'
  ihave HsR' := (Entails.of_eq (sR_slots (F := F) d L fR)) $$ HsR
  icases HsR' with ⟨Hs0, Hs1, Hs2, Hs3⟩
  -- the index scratch as its 128 list windows; the first four as the first four gathers name them
  ihave HsIw := (Entails.of_eq ((sI_windows (F := F) d L _).trans ((from_zero _).symm.trans ((from_take 0 (by decide) _).trans (congrArg _ ((from_take 1 (by decide) _).trans
    (congrArg _ ((from_take 2 (by decide) _).trans (congrArg _ (from_take 3 (by decide) _)))))))))) $$ HsI2
  icases HsIw with ⟨Hi0, Hi1, Hi2, Hi3, Hiw⟩
  ihave Hi0' := (Entails.of_eq (pts_lwM (F := F) d L ![0] inb_S25600_S200_0 ⟨0, _⟩ rfl _).symm) $$ Hi0
  ihave Hi1' := (Entails.of_eq (pts_lwM (F := F) d L ![200] inb_S25600_S200_200 ⟨1, _⟩ rfl _).symm) $$ Hi1
  ihave Hi2' := (Entails.of_eq (pts_lwM (F := F) d L ![400] inb_S25600_S200_400 ⟨2, _⟩ rfl _).symm) $$ Hi2
  ihave Hi3' := (Entails.of_eq (pts_lwM (F := F) d L ![600] inb_S25600_S200_600 ⟨3, _⟩ rfl _).symm) $$ Hi3
  ihave He' := (Entails.of_eq (pts_eW (F := F) d L _ _).symm) $$ He
  ihave Het := (Transfers.pointsTo_toks_split (eShare (wOf (cL L) (jL L))) 4) $$ He'
  icases Het with ⟨Her', Het⟩
  ihave Her := (Entails.of_eq (pts_eW (F := F) d L _ _)) $$ Her'
  ihave Het' := (Entails.of_eq (bigSep_fin4 _)) $$ Het
  icases Het' with ⟨He0w, He1w, He2w, He3w⟩
  ihave He0 := (Entails.of_eq (pts_eSl (F := F) d L _ _).symm) $$ He0w
  ihave He1 := (Entails.of_eq (pts_eSl (F := F) d L _ _).symm) $$ He1w
  ihave He2 := (Entails.of_eq (pts_eSl (F := F) d L _ _).symm) $$ He2w
  ihave He3 := (Entails.of_eq (pts_eSl (F := F) d L _ _).symm) $$ He3w
  have hinI : ∀ (r : Rect S25600) (hr : ∀ a, r.stride a = 1) (x : r.shape.Idx),
      ((((sI).slice r hr).view.read (Elt F) (idxOf d L (fx d)) x)).toNat < 100000 := by
    intro r hr x
    rw [View.read_apply, cast_eq]; exact idxOf_lt d L (fx d) (hin d) _
  sl_exec
  -- batch rows 0 and 1 of the result, as the first two copies out name them
  ihave Ho' := (Entails.of_eq ((from_zero _).symm.trans ((from_take 0 (by decide) _).trans (congrArg _ (from_take 1 (by decide) _))))) $$ Ho
  icases Ho' with ⟨Ho0, Ho1, Ho⟩
  ihave Ho0' := (Entails.of_eq (pts_oRow (F := F) d L (k0_off2 L 0#32) (k0_off2_inb L 0) (bL L ⟨0, _⟩) (off2_eq L 0 _ rfl) _).symm) $$ Ho0
  ihave Ho1' := (Entails.of_eq (pts_oRow (F := F) d L (k0_off2 L 1#32) (k0_off2_inb L 1) (bL L ⟨1, _⟩) (off2_eq L 1 _ rfl) _).symm) $$ Ho1
  sl_exec
  sl_for (inv d L (fx d) (fe d) (fo d) O W) $$ [Hmw Hw0 Hw1 Hg2 Hg3 Hg0 Hg1 Hw2 Hw3 He0 He1 Hiw Hi0' Hi1' Ho HO]
  case region =>
    intro k _
    have hk : k.val < 31 := trips_eq ▸ k.isLt
    have o3_0 : k0_off3 k 0#32 = ![200 * (4 * k.val + 4)] := (k0_off3_eq k 0).trans (by congr 1; simp; omega)
    have o3_1 : k0_off3 k 1#32 = ![200 * (4 * k.val + 4 + 1)] := (k0_off3_eq k 1).trans (by congr 1; simp; omega)
    have o3_2 : k0_off3 k 2#32 = ![200 * (4 * k.val + 4 + 1 + 1)] := (k0_off3_eq k 2).trans (by congr 1; simp; omega)
    have o3_3 : k0_off3 k 3#32 = ![200 * (4 * k.val + 4 + 1 + 1 + 1)] := (k0_off3_eq k 3).trans (by congr 1; simp; omega)
    have o3_0b : k0_off3 k 0#32 = ![200 * (4 * k.val + 2 + 1 + 1)] := (k0_off3_eq k 0).trans (by congr 1; simp; omega)
    have o3_1b : k0_off3 k 1#32 = ![200 * (4 * k.val + 2 + 1 + 1 + 1)] := (k0_off3_eq k 1).trans (by congr 1; simp; omega)
    have o4_0b : k0_off4 L k 0#32 = ![(bL L ⟨4 * k.val + 1 + 1, by omega⟩).val, 0, 0] := off4_eq L k 0 _ (by simp)
    have o4_1b : k0_off4 L k 1#32 = ![(bL L ⟨4 * k.val + 1 + 1 + 1, by omega⟩).val, 0, 0] := off4_eq L k 1 _ (by simp)
    have g0 : gOf (4 * k.val) = ⟨4 * k.val, by omega⟩ := gOf_eq _ _ _ rfl
    have g1 : gOf (4 * k.val + 1) = ⟨4 * k.val + 1, by omega⟩ := gOf_eq _ _ _ rfl
    have g2 : gOf (4 * k.val + 2) = ⟨4 * k.val + 2, by omega⟩ := gOf_eq _ _ _ rfl
    have g2b : gOf (4 * k.val + 2) = ⟨4 * k.val + 1 + 1, by omega⟩ := gOf_eq _ _ _ rfl
    have g3 : gOf (4 * k.val + 3) = ⟨4 * k.val + 2 + 1, by omega⟩ := gOf_eq _ _ _ rfl
    have g3b : gOf (4 * k.val + 3) = ⟨4 * k.val + 1 + 1 + 1, by omega⟩ := gOf_eq _ _ _ rfl
    have g4 : gOf (4 * (k.val + 1)) = ⟨4 * k.val + 2 + 1 + 1, by omega⟩ := gOf_eq _ _ _ (by omega)
    have g5 : gOf (4 * (k.val + 1) + 1) = ⟨4 * k.val + 2 + 1 + 1 + 1, by omega⟩ := gOf_eq _ _ _ (by omega)
    have g6 : gOf (4 * (k.val + 1) + 2) = ⟨4 * k.val + 4 + 1 + 1, by omega⟩ := gOf_eq _ _ _ (by omega)
    have g7 : gOf (4 * (k.val + 1) + 3) = ⟨4 * k.val + 4 + 1 + 1 + 1, by omega⟩ := gOf_eq _ _ _ (by omega)
    have o4_0 : k0_off4 L k 0#32 = ![(bL L ⟨4 * k.val + 2, by omega⟩).val, 0, 0] := off4_eq L k 0 _ (by simp)
    have o4_1 : k0_off4 L k 1#32 = ![(bL L ⟨4 * k.val + 2 + 1, by omega⟩).val, 0, 0] := off4_eq L k 1 _ (by simp)
    have o4_2 : k0_off4 L k 2#32 = ![(bL L ⟨4 * k.val + 2 + 1 + 1, by omega⟩).val, 0, 0] := off4_eq L k 2 _ (by simp)
    have o4_3 : k0_off4 L k 3#32 = ![(bL L ⟨4 * k.val + 2 + 1 + 1 + 1, by omega⟩).val, 0, 0] := off4_eq L k 3 _ (by simp)
    unfold inv writeFlight gatherFlight
    iintro ⟨Hmw, ⟨%wo0, %wi0, %wp0, %f0, Hw0, %hw0⟩, ⟨%wo1, %wi1, %wp1, %f1, Hw1, %hw1⟩, ⟨%lo2, %li2, %f2, Hg2, %hg2⟩, ⟨%lo3, %li3, %f3, Hg3, %hg3⟩, Hg0, Hg1, Hw2, Hw3, He0, He1, Hiw, Hiu, Ho, Hod, %W', %hW', HO⟩
    -- the four list windows and the four batch rows of the result this trip names
    ihave Hiw' := (Entails.of_eq ((from_take (4 * k.val + 4) (by omega) _).trans (congrArg _ ((from_take (4 * k.val + 4 + 1) (by omega) _).trans
      (congrArg _ ((from_take (4 * k.val + 4 + 1 + 1) (by omega) _).trans (congrArg _ (from_take (4 * k.val + 4 + 1 + 1 + 1) (by omega) _)))))))) $$ Hiw
    icases Hiw' with ⟨Hl0, Hl1, Hl2, Hl3, Hiw⟩
    ihave Hl0' := (Entails.of_eq (pts_lwM (F := F) d L (k0_off3 k 0#32) (k0_off3_inb k 0) ⟨4 * k.val + 4, _⟩ o3_0 _).symm) $$ Hl0
    ihave Hl1' := (Entails.of_eq (pts_lwM (F := F) d L (k0_off3 k 1#32) (k0_off3_inb k 1) ⟨4 * k.val + 4 + 1, _⟩ o3_1 _).symm) $$ Hl1
    ihave Hl2' := (Entails.of_eq (pts_lwM (F := F) d L (k0_off3 k 2#32) (k0_off3_inb k 2) ⟨4 * k.val + 4 + 1 + 1, _⟩ o3_2 _).symm) $$ Hl2
    ihave Hl3' := (Entails.of_eq (pts_lwM (F := F) d L (k0_off3 k 3#32) (k0_off3_inb k 3) ⟨4 * k.val + 4 + 1 + 1 + 1, _⟩ o3_3 _).symm) $$ Hl3
    ihave Ho' := (Entails.of_eq ((from_take (4 * k.val + 2) (by omega) _).trans (congrArg _ ((from_take (4 * k.val + 2 + 1) (by omega) _).trans
      (congrArg _ ((from_take (4 * k.val + 2 + 1 + 1) (by omega) _).trans (congrArg _ (from_take (4 * k.val + 2 + 1 + 1 + 1) (by omega) _)))))))) $$ Ho
    icases Ho' with ⟨Hr0, Hr1, Hr2, Hr3, Ho⟩
    ihave Hr0' := (Entails.of_eq (pts_oRow (F := F) d L (k0_off4 L k 0#32) (k0_off4_inb L k 0) (bL L ⟨4 * k.val + 2, _⟩) o4_0 _).symm) $$ Hr0
    ihave Hr1' := (Entails.of_eq (pts_oRow (F := F) d L (k0_off4 L k 1#32) (k0_off4_inb L k 1) (bL L ⟨4 * k.val + 2 + 1, _⟩) o4_1 _).symm) $$ Hr1
    ihave Hr2' := (Entails.of_eq (pts_oRow (F := F) d L (k0_off4 L k 2#32) (k0_off4_inb L k 2) (bL L ⟨4 * k.val + 2 + 1 + 1, _⟩) o4_2 _).symm) $$ Hr2
    ihave Hr3' := (Entails.of_eq (pts_oRow (F := F) d L (k0_off4 L k 3#32) (k0_off4_inb L k 3) (bL L ⟨4 * k.val + 2 + 1 + 1 + 1, _⟩) o4_3 _).symm) $$ Hr3
    sl_exec
    icases Hg2_dst with ⟨Hs2, Hlu2⟩
    sl_exec
    icases Hg3_dst with ⟨Hs3, Hlu3⟩
    sl_exec
    sl_step
    rw [g4, g5, g6, g7]
    isplitl [Hmw]; · iexact Hmw
    -- the copies out of batch rows 4k+4, 4k+5 now in flight
    isplitl [Hw0]
    · iexists _; iexists _; iexists _; iexists _
      isplitl [Hw0]; · iexact Hw0
      ipureintro
      exact ⟨o4_2, rfl, slot_conv d L f0 (fx d) (fe d) _ _ _ o3_0b _ _⟩
    isplitl [Hw1]
    · iexists _; iexists _; iexists _; iexists _
      isplitl [Hw1]; · iexact Hw1
      ipureintro
      exact ⟨o4_3, rfl, slot_conv d L f1 (fx d) (fe d) _ _ _ o3_1b _ _⟩
    -- the gathers of batch rows 4k+6, 4k+7 now in flight
    isplitl [Hg2]
    · iexists _; iexists _; iexists _
      isplitl [Hg2]; · iexact Hg2
      ipureintro
      exact ⟨o3_2, slot_conv d L f2 (fx d) (fe d) _ _ _ o3_2 _ _⟩
    isplitl [Hg3]
    · iexists _; iexists _; iexists _
      isplitl [Hg3]; · iexact Hg3
      ipureintro
      exact ⟨o3_3, slot_conv d L f3 (fx d) (fe d) _ _ _ o3_3 _ _⟩
    isplitl [Hg0]; · iexact Hg0
    isplitl [Hg1]; · iexact Hg1
    isplitl [Hw2]; · iexact Hw2
    isplitl [Hw3]; · iexact Hw3
    isplitl [He0]; · iexact He0
    isplitl [He1]; · iexact He1
    -- the list windows still unused
    isplitl [Hiw]
    · iapply (Entails.of_eq (filter_congr' (fun g : Fin 128 => 4 * k.val + 4 + 1 + 1 + 1 + 1 ≤ g.val) (fun g : Fin 128 => 4 * (k.val + 1) + 4 ≤ g.val) (fun g => by omega) _))
      iexact Hiw
    -- the list windows back from their gathers
    isplitl [Hiu Hlu2 Hlu3 Hl0' Hl1']
    · iapply (Entails.of_eq ((filter_congr' (fun g : Fin 128 => g.val < 4 * (k.val + 1) + 2) (fun g : Fin 128 => g.val < 4 * k.val + 2 + 1 + 1 + 1 + 1) (fun g => by omega) _).trans
        ((below_put (4 * k.val + 2 + 1 + 1 + 1) (by omega) _).trans (congrArg _ ((below_put (4 * k.val + 2 + 1 + 1) (by omega) _).trans
          (congrArg _ ((below_put (4 * k.val + 2 + 1) (by omega) _).trans (congrArg _ (below_put (4 * k.val + 2) (by omega) _)))))))).symm)
      isplitl [Hl1']
      · iapply (win_back (F := F) d L _ ⟨4 * k.val + 2 + 1 + 1 + 1, _⟩ _ _)
        isplitl [Hl1']; · iexact Hl1'
        ipureintro; exact o3_1b
      isplitl [Hl0']
      · iapply (win_back (F := F) d L _ ⟨4 * k.val + 2 + 1 + 1, _⟩ _ _)
        isplitl [Hl0']; · iexact Hl0'
        ipureintro; exact o3_0b
      isplitl [Hlu3]
      · iapply (win_back (F := F) d L _ ⟨4 * k.val + 2 + 1, _⟩ _ _)
        isplitl [Hlu3]; · iexact Hlu3
        ipureintro; exact g3 ▸ hg3.1
      isplitl [Hlu2]
      · iapply (win_back (F := F) d L _ ⟨4 * k.val + 2, _⟩ _ _)
        isplitl [Hlu2]; · iexact Hlu2
        ipureintro; exact g2 ▸ hg2.1
      iexact Hiu
    -- the batch rows of the result still untouched
    isplitl [Ho]
    · iapply (Entails.of_eq (filter_congr' (fun g : Fin 128 => 4 * k.val + 2 + 1 + 1 + 1 + 1 ≤ g.val) (fun g : Fin 128 => 4 * (k.val + 1) + 2 ≤ g.val) (fun g => by omega) _))
      iexact Ho
    -- the batch rows of the result that hold the lookup
    isplitl [Hod Hw0_dst Hw1_dst Hr0' Hr1']
    · iapply (Entails.of_eq ((filter_congr' (fun g : Fin 128 => g.val < 4 * (k.val + 1)) (fun g : Fin 128 => g.val < 4 * k.val + 1 + 1 + 1 + 1) (fun g => by omega) _).trans
        ((below_put (4 * k.val + 1 + 1 + 1) (by omega) _).trans (congrArg _ ((below_put (4 * k.val + 1 + 1) (by omega) _).trans
          (congrArg _ ((below_put (4 * k.val + 1) (by omega) _).trans (congrArg _ (below_put (4 * k.val) (by omega) _)))))))).symm)
      isplitl [Hr1']
      · iapply (row_done (F := F) d L slot3 f3 _ (fx d) (fe d) (fo d) ⟨4 * k.val + 1 + 1 + 1, _⟩ _ _)
        isplitl [Hr1']; · iexact Hr1'
        ipureintro; exact ⟨o4_1b, rfl, g3b ▸ hg3.2⟩
      isplitl [Hr0']
      · iapply (row_done (F := F) d L slot2 f2 _ (fx d) (fe d) (fo d) ⟨4 * k.val + 1 + 1, _⟩ _ _)
        isplitl [Hr0']; · iexact Hr0'
        ipureintro; exact ⟨o4_0b, rfl, g2b ▸ hg2.2⟩
      isplitl [Hw1_dst]
      · iapply (row_done (F := F) d L slot1 f1 wp1 (fx d) (fe d) (fo d) ⟨4 * k.val + 1, _⟩ wo1 wi1)
        isplitl [Hw1_dst]; · iexact Hw1_dst
        ipureintro; exact g1 ▸ hw1
      isplitl [Hw0_dst]
      · iapply (row_done (F := F) d L slot0 f0 wp0 (fx d) (fe d) (fo d) ⟨4 * k.val, _⟩ wo0 wi0)
        isplitl [Hw0_dst]; · iexact Hw0_dst
        ipureintro; exact g0 ▸ hw0
      iexact Hod
    iclear Hg2_src Hg3_src
    iapply (owes_pack (F := F) d L O W _)
    isplitl [HO]; · iexact HO
    ipureintro
    intro p hp
    repeat (rcases Finset.mem_insert.mp hp with rfl | hp; · exact .inr rfl)
    exact hW' p hp
  · -- the state after the opening moves is the invariant before trip 0
    unfold inv writeFlight gatherFlight
    have z0 : gOf (4 * 0) = ⟨0, by decide⟩ := gOf_eq _ _ _ rfl
    have z1 : gOf (4 * 0 + 1) = ⟨1, by decide⟩ := gOf_eq _ _ _ rfl
    have z2 : gOf (4 * 0 + 2) = ⟨2, by decide⟩ := gOf_eq _ _ _ rfl
    have z3 : gOf (4 * 0 + 3) = ⟨3, by decide⟩ := gOf_eq _ _ _ rfl
    rw [z0, z1, z2, z3]
    isplitl [Hmw]; · iexact Hmw
    isplitl [Hw0]
    · iexists _; iexists _; iexists _; iexists _
      isplitl [Hw0]; · iexact Hw0
      ipureintro
      exact ⟨off2_eq L 0 ⟨0, _⟩ rfl, rfl, slot_conv (sl := slot0) d L fR (fx d) (fe d) ⟨0, _⟩ ![0] inb_S25600_S200_0 (vec1_eq _ _ (by decide)) _ _⟩
    isplitl [Hw1]
    · iexists _; iexists _; iexists _; iexists _
      isplitl [Hw1]; · iexact Hw1
      ipureintro
      exact ⟨off2_eq L 1 ⟨1, _⟩ rfl, rfl, slot_conv (sl := slot1) d L fR (fx d) (fe d) ⟨1, _⟩ ![200] inb_S25600_S200_200 (vec1_eq _ _ (by decide)) _ _⟩
    isplitl [Hg2]
    · iexists _; iexists _; iexists _
      isplitl [Hg2]; · iexact Hg2
      ipureintro
      exact ⟨vec1_eq _ _ (by decide), slot_conv (sl := slot2) d L fR (fx d) (fe d) ⟨2, _⟩ ![400] inb_S25600_S200_400 (vec1_eq _ _ (by decide)) _ _⟩
    isplitl [Hg3]
    · iexists _; iexists _; iexists _
      isplitl [Hg3]; · iexact Hg3
      ipureintro
      exact ⟨vec1_eq _ _ (by decide), slot_conv (sl := slot3) d L fR (fx d) (fe d) ⟨3, _⟩ ![600] inb_S25600_S200_600 (vec1_eq _ _ (by decide)) _ _⟩
    isplitl [Hg0]; · iexact Hg0
    isplitl [Hg1]; · iexact Hg1
    isplitl [Hw2]; · iexact Hw2
    isplitl [Hw3]; · iexact Hw3
    isplitl [He0]; · iexact He0
    isplitl [He1]; · iexact He1
    isplitl [Hiw]
    · iapply (Entails.of_eq (filter_congr' (fun g : Fin 128 => 3 + 1 ≤ g.val) (fun g : Fin 128 => 4 * 0 + 4 ≤ g.val) (fun g => by omega) _))
      iexact Hiw
    isplitl [Hi0' Hi1']
    · iapply (Entails.of_eq ((filter_congr' (fun g : Fin 128 => g.val < 4 * 0 + 2) (fun g : Fin 128 => g.val < 0 + 1 + 1) (fun g => by omega) _).trans
        ((below_put (0 + 1) (by omega) _).trans (congrArg _ ((below_put 0 (by omega) _).trans (congrArg _ (below_zero _)))))).symm)
      isplitl [Hi1']
      · iapply (win_back (F := F) d L _ ⟨0 + 1, _⟩ _ _)
        isplitl [Hi1']; · iexact Hi1'
        ipureintro; exact vec1_eq _ _ (by decide)
      isplitl [Hi0']
      · iapply (win_back (F := F) d L _ ⟨0, _⟩ _ _)
        isplitl [Hi0']; · iexact Hi0'
        ipureintro; exact vec1_eq _ _ (by decide)
      iempintro
    isplitl [Ho]
    · iapply (Entails.of_eq (filter_congr' (fun g : Fin 128 => 1 + 1 ≤ g.val) (fun g : Fin 128 => 4 * 0 + 2 ≤ g.val) (fun g => by omega) _))
      iexact Ho
    isplitr [HO]
    · iapply (Entails.of_eq ((filter_congr' (fun g : Fin 128 => g.val < 4 * 0) (fun g : Fin 128 => g.val < 0) (fun g => by omega) _).trans (below_zero _)).symm)
      iempintro
    iapply (owes_pack (F := F) d L O W _)
    isplitl [HO]; · iexact HO
    ipureintro
    intro p hp
    repeat (rcases Finset.mem_insert.mp hp with rfl | hp; · exact .inr rfl)
    exact .inl hp
  -- after the loop: the last two gathers drained and copied out, the four copies out waited for
  iintro %_ HI
  have t31 : Scf.trips k0_t1_loop.lb k0_t1_loop.ub k0_t1_loop.st = 31 := trips_eq
  rw [t31]
  unfold inv writeFlight gatherFlight
  icases HI with ⟨-, ⟨%wo0, %wi0, %wp0, %f0, Hw0, %hw0⟩, ⟨%wo1, %wi1, %wp1, %f1, Hw1, %hw1⟩, ⟨%lo2, %li2, %f2, Hg2, %hg2⟩, ⟨%lo3, %li3, %f3, Hg3, %hg3⟩, Hg0, Hg1, Hw2, Hw3, He0, He1, Hiw, Hiu, Ho, Hod, %W', %hW', HO⟩
  have g124 : gOf (4 * 31) = ⟨4 * 31, by decide⟩ := gOf_eq _ _ _ rfl
  have g125 : gOf (4 * 31 + 1) = ⟨4 * 31 + 1, by decide⟩ := gOf_eq _ _ _ rfl
  have g126 : gOf (4 * 31 + 2) = ⟨4 * 31 + 1 + 1, by decide⟩ := gOf_eq _ _ _ rfl
  have g127 : gOf (4 * 31 + 3) = ⟨4 * 31 + 1 + 1 + 1, by decide⟩ := gOf_eq _ _ _ rfl
  ihave Ho' := (Entails.of_eq ((from_take (4 * 31 + 2) (by decide) _).trans (congrArg _ (from_take (4 * 31 + 2 + 1) (by decide) _)))) $$ Ho
  icases Ho' with ⟨Hr2, Hr3, -⟩
  ihave Hr2' := (Entails.of_eq (pts_oRow (F := F) d L (k0_off2 L 126#32) (k0_off2_inb L 2) (bL L ⟨4 * 31 + 2, _⟩) (off2_eq L 2 _ rfl) _).symm) $$ Hr2
  ihave Hr3' := (Entails.of_eq (pts_oRow (F := F) d L (k0_off2 L 127#32) (k0_off2_inb L 3) (bL L ⟨4 * 31 + 2 + 1, _⟩) (off2_eq L 3 _ rfl) _).symm) $$ Hr3
  sl_exec
  sl_step
  iclear Hiw
  have g126' : gOf (4 * 31 + 2) = ⟨4 * 31 + 2, by decide⟩ := gOf_eq _ _ _ rfl
  have g127' : gOf (4 * 31 + 3) = ⟨4 * 31 + 2 + 1, by decide⟩ := gOf_eq _ _ _ rfl
  unfold tdRes
  -- what the subcore hands back
  isplitl [Hx' Her He0 He1 He2 He3 Hod Hw0_dst Hw1_dst Hr2' Hr3']
  · isplitl [Hx']
    · iapply (Entails.of_eq (pts_xSl (F := F) d L _))
      iexact Hx'
    isplitl [Her He0 He1 He2 He3]
    · iapply (Entails.of_eq (pts_eW (F := F) d L _ _))
      iapply (Transfers.pointsTo_toks_join (eShare (wOf (cL L) (jL L))) 4)
      isplitl [Her]
      · iapply (Entails.of_eq (pts_eW (F := F) d L _ _).symm)
        iexact Her
      iapply (Entails.of_eq (bigSep_fin4 _).symm)
      isplitl [He0]
      · iapply (Entails.of_eq (pts_eSl (F := F) d L _ _))
        iexact He0
      isplitl [He1]
      · iapply (Entails.of_eq (pts_eSl (F := F) d L _ _))
        iexact He1
      isplitl [He2]
      · iapply (Entails.of_eq (pts_eSl (F := F) d L _ _))
        iexact He2
      iapply (Entails.of_eq (pts_eSl (F := F) d L _ _))
      iexact He3
    · iapply (Entails.of_eq ((below_all _).symm.trans ((filter_congr' (fun g : Fin 128 => g.val < 128) (fun g : Fin 128 => g.val < 4 * 31 + 1 + 1 + 1 + 1) (fun g => by omega) _).trans
        ((below_put (4 * 31 + 1 + 1 + 1) (by decide) _).trans (congrArg _ ((below_put (4 * 31 + 1 + 1) (by decide) _).trans
          (congrArg _ ((below_put (4 * 31 + 1) (by decide) _).trans (congrArg _ (below_put (4 * 31) (by decide) _))))))))).symm)
      isplitl [Hr3']
      · iapply (row_done (F := F) d L slot3 f3 _ (fx d) (fe d) (fo d) ⟨4 * 31 + 1 + 1 + 1, _⟩ _ _)
        isplitl [Hr3']; · iexact Hr3'
        ipureintro; exact ⟨off2_eq L 3 _ rfl, rfl, g127 ▸ hg3.2⟩
      isplitl [Hr2']
      · iapply (row_done (F := F) d L slot2 f2 _ (fx d) (fe d) (fo d) ⟨4 * 31 + 1 + 1, _⟩ _ _)
        isplitl [Hr2']; · iexact Hr2'
        ipureintro; exact ⟨off2_eq L 2 _ rfl, rfl, g126 ▸ hg2.2⟩
      isplitl [Hw1_dst]
      · iapply (row_done (F := F) d L slot1 f1 wp1 (fx d) (fe d) (fo d) ⟨4 * 31 + 1, _⟩ wo1 wi1)
        isplitl [Hw1_dst]; · iexact Hw1_dst
        ipureintro; exact g125 ▸ hw1
      isplitl [Hw0_dst]
      · iapply (row_done (F := F) d L slot0 f0 wp0 (fx d) (fe d) (fo d) ⟨4 * 31, _⟩ wo0 wi0)
        isplitl [Hw0_dst]; · iexact Hw0_dst
        ipureintro; exact g124 ▸ hw0
      iexact Hod
  -- its scratch buffers, whole again
  isplitl [Hiu Hg2_dst_and Hg3_dst_and Hw0_src Hw1_src Hg2_dst Hg3_dst Hbufs]
  · isplitl [Hiu Hg2_dst_and Hg3_dst_and]
    · iexists (idxOf d L (fx d))
      iapply (Entails.of_eq (pts_sI (F := F) d L _))
      iapply (Entails.of_eq ((sI_windows (F := F) d L _).trans ((below_all _).symm.trans ((filter_congr' (fun g : Fin 128 => g.val < 128) (fun g : Fin 128 => g.val < 4 * 31 + 2 + 1 + 1) (fun g => by omega) _).trans
        ((below_put (4 * 31 + 2 + 1) (by decide) _).trans (congrArg _ (below_put (4 * 31 + 2) (by decide) _)))))).symm)
      isplitl [Hg3_dst_and]
      · iapply (win_back (F := F) d L _ ⟨4 * 31 + 2 + 1, _⟩ _ _)
        isplitl [Hg3_dst_and]; · iexact Hg3_dst_and
        ipureintro; exact g127' ▸ hg3.1
      isplitl [Hg2_dst_and]
      · iapply (win_back (F := F) d L _ ⟨4 * 31 + 2, _⟩ _ _)
        isplitl [Hg2_dst_and]; · iexact Hg2_dst_and
        ipureintro; exact g126' ▸ hg2.1
      iexact Hiu
    isplitl [Hw0_src Hw1_src Hg2_dst Hg3_dst]
    · iapply (slots_join (F := F) d L)
      iapply (Entails.of_eq (bigSep_fin4 _).symm)
      isplitl [Hw0_src]
      · iexists _
        iapply (Entails.of_eq (pts_slot0 (F := F) d L _))
        iexact Hw0_src
      isplitl [Hw1_src]
      · iexists _
        iapply (Entails.of_eq (pts_slot1 (F := F) d L _))
        iexact Hw1_src
      isplitl [Hg2_dst]
      · iexists _
        iapply (Entails.of_eq (pts_slot2 (F := F) d L _))
        iexact Hg2_dst
      iexists _
      iapply (Entails.of_eq (pts_slot3 (F := F) d L _))
      iexact Hg3_dst
    iexact Hbufs
  -- its semaphores, at zero
  isplitl [Hg0 Hg1 Hg2 Hg3 Hw0 Hw1 Hw2 Hw3 Hf Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hf]; · iexact Hf
    iexact Hsems
  iapply (owes_pack (F := F) d L O W _)
  isplitl [HO]; · iexact HO
  ipureintro
  intro p hp
  repeat (rcases Finset.mem_insert.mp hp with rfl | hp; · exact .inr rfl)
  exact hW' p hp

end Tile

end Cert.Proof.K

end
-- ==== Proof.K.Tile.lean ====
/-
  The subcore's task as the launch theorem asks for it: the task's run at the subcore the launch names, its waits
  recorded at the kernel's own index.
-/
import proofs.«206599_g37160057045681_cont_8to1_b_383_13_alg».proof.Proof.K.Body

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem defs₀_vector (c : Fin τ.nSC) (s : Fin τ.nSub) :
    defs₀ (F := F) (.scVector c s) 0 ()
      = SparseCore.onTile hcore0 hsub0 (fun c s => cc0__gather_body (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (fx : (d : Dev nD) → Buf (Elt F) (xLoc d)) (fe : (d : Dev nD) → Buf (Elt F) (eLoc d)) (fo : (d : Dev nD) → Buf (Elt F) (oLoc d))
    (hin : ∀ d, Cert.Spec.InRangeFlat (fx d)) :
    (K (F := F)).TileObl (D (F := F)) 𝒱 (P fx fe fo) v₀ 0 := by
  intro d c i O W hO _ _
  simp only [show (P fx fe fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) fx fe fo facts hin O W hO).trans (wp_mono frame _ _ fun _ => obl_post)

end Cert.Proof.K

end
-- ==== Proof.K.Launch.lean ====
/-
  The launch of the SparseCore call, second part: @main on the TensorCore.

  @main flattens the index array, makes the padding value, pads the table to 128 columns, runs the SparseCore call
  and keeps the first 64 columns of what the call wrote. The four host operations before the call and the one
  after it run over the TensorCore's eight arrays held whole; before the call the flattened indices, the padded
  table and the 128-column result are cut into what the 32 subcores are handed, after it they are joined back, the
  result holding the 128-column lookup of the flattened indices in the padded table. The two argument arrays are
  only read, and end as they started.
-/
import proofs.«206599_g37160057045681_cont_8to1_b_383_13_alg».proof.Proof.K.LaunchSplit
import proofs.«206599_g37160057045681_cont_8to1_b_383_13_alg».proof.Proof.K.Tile
import proofs.«206599_g37160057045681_cont_8to1_b_383_13_alg».proof.Proof.HostValue

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The TensorCore's arrays -/

variable (m : (ℓ : Loc nD τ sig) → Buf (Elt F) ℓ) (ρ : Dev nD → PrngReg)

/-- The index array and the table (the arguments), the padding value as an integer and as a float, the result. -/
abbrev aLoc (d : Dev nD) : Loc nD τ sig := (SparseCore.T d).loc main_arg0
abbrev tLoc (d : Dev nD) : Loc nD τ sig := (SparseCore.T d).loc main_arg1
abbrev cLoc (d : Dev nD) : Loc nD τ sig := (SparseCore.T d).loc main_c
abbrev sLoc (d : Dev nD) : Loc nD τ sig := (SparseCore.T d).loc main_call0_v0
abbrev rLoc (d : Dev nD) : Loc nD τ sig := (SparseCore.T d).loc main_v3

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev c' : DevRef τ sig := Proc.devRef .tc (main_c : Ref sig .tc)
abbrev s' : DevRef τ sig := Proc.devRef .tc (main_call0_v0 : Ref sig .tc)
abbrev e' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The TensorCore's arrays, all unscoped. -/
abbrev S8 : Finset (DevRef τ sig) := {a', t', x', c', s', e', o', r'}

theorem held_S8 (d : Dev nD) (W : Valuation τ sig (Elt F)) :
    (held (T d) S8 W : sProp 𝕄)
      = iprop((aLoc d ↦{fullShare} W a') ∗ (tLoc d ↦{fullShare} W t') ∗ (xLoc d ↦{fullShare} W x') ∗ (cLoc d ↦{fullShare} W c')
          ∗ (sLoc d ↦{fullShare} W s') ∗ (eLoc d ↦{fullShare} W e') ∗ (oLoc d ↦{fullShare} W o') ∗ (rLoc d ↦{fullShare} W r')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (xLoc d ↦{fullShare} W main_v0) ∗ (cLoc d ↦{fullShare} W main_c)
          ∗ (sLoc d ↦{fullShare} W main_call0_v0) ∗ (eLoc d ↦{fullShare} W main_v1) ∗ (oLoc d ↦{fullShare} W main_v2) ∗ (rLoc d ↦{fullShare} W main_v3)) := by
  unfold unscopedBufs
  rw [show (Finset.univ.filter fun b : Ref sig .tc => ¬ b.isScoped)
      = {main_arg0, main_arg1, main_v0, main_c, main_call0_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

variable [FloatOps F]

/-! ## The host operations and what they leave -/

abbrev op1 : HloOp τ sig (Elt F) := StableHlo.reshape main_arg0 main_v0 rfl Facts₀.shapeCasts_S4096x200_S819200
abbrev op2 : HloOp τ sig (Elt F) := StableHlo.nullary main_c (constantI S_ 32 0#32)
abbrev op3 : HloOp τ sig (Elt F) :=
  StableHlo.TRef.unary (.of main_c : StableHlo.TRef sig ⟨S_, .i32⟩) (.of main_call0_v0 : StableHlo.TRef sig ⟨S_, .f32⟩) (sitofp .f32)
abbrev op4 : HloOp τ sig (Elt F) :=
  StableHlo.TRef.binary (.of main_arg1 : StableHlo.TRef sig ⟨S100000x64, .f32⟩) (.of main_call0_v0 : StableHlo.TRef sig ⟨S_, .f32⟩)
    (.of main_v1 : StableHlo.TRef sig ⟨S100000x128, .f32⟩)
    (fun x v => pad S100000x128 ![0, 0] ![0, 64] ![0, 0] x v Facts₀.pads_S100000x64_S100000x128_000_0640 Facts₀.h_S_)
abbrev op5 : HloOp τ sig (Elt F) :=
  StableHlo.unary main_v2 main_v3 ((extractStridedSlice S4096x200x64 ![0, 0, 0] · Facts₀.slices_S4096x200x128_S4096x200x64_0_0_0) :
    (⟨S4096x200x128, .f32⟩ : BufTy).Contents (Elt F) → (⟨S4096x200x64, .f32⟩ : BufTy).Contents (Elt F))

theorem hop1 : (op1 (F := F)).bufs ⊆ S8 := show ({a', x'} : Finset (DevRef τ sig)) ⊆ S8 by decide
theorem hop2 : (op2 (F := F)).bufs ⊆ S8 := show ({c'} : Finset (DevRef τ sig)) ⊆ S8 by decide
theorem hop3 : (op3 (F := F)).bufs ⊆ S8 := show ({c', s'} : Finset (DevRef τ sig)) ⊆ S8 by decide
theorem hop4 : (op4 (F := F)).bufs ⊆ S8 := show ({t', s', e'} : Finset (DevRef τ sig)) ⊆ S8 by decide
theorem hop5 : (op5 (F := F)).bufs ⊆ S8 := show ({o', r'} : Finset (DevRef τ sig)) ⊆ S8 by decide

/-- The arrays after the reshape, the constant, the conversion, the padding; after the call, the result at `f`; after the
    slice. -/
def V1 (d : Dev nD) : Valuation τ sig (Elt F) := (op1 (F := F)).result (V0 m d)
def V2 (d : Dev nD) : Valuation τ sig (Elt F) := (op2 (F := F)).result (V1 m d)
def V3 (d : Dev nD) : Valuation τ sig (Elt F) := (op3 (F := F)).result (V2 m d)
def V4 (d : Dev nD) : Valuation τ sig (Elt F) := (op4 (F := F)).result (V3 m d)
def V5 (d : Dev nD) (f : Buf (Elt F) (oLoc d)) : Valuation τ sig (Elt F) := Function.update (V4 m d) o' f
def V6 (d : Dev nD) (f : Buf (Elt F) (oLoc d)) : Valuation τ sig (Elt F) := (op5 (F := F)).result (V5 m d f)

/-- The flattened index array and the padded table, as functions of the launch memory. -/
def fxOf (d : Dev nD) : Buf (Elt F) (xLoc d) := fun i => shapeCast S819200 (m (aLoc d)) Facts₀.shapeCasts_S4096x200_S819200 i
def feOf (d : Dev nD) : Buf (Elt F) (eLoc d) :=
  pad S100000x128 ![0, 0] ![0, 64] ![0, 0] (m (tLoc d)) (sitofp (F := F) .f32 (constantI S_ 32 0#32)) Facts₀.pads_S100000x64_S100000x128_000_0640 Facts₀.h_S_

theorem V4_a (d : Dev nD) : V4 m d a' = m (aLoc d) := by
  unfold V4 V3 V2 V1
  rw [(op4 (F := F)).result_of_not_mem _ (b := a') (show a' ∉ ({e'} : Finset (DevRef τ sig)) by decide),
    (op3 (F := F)).result_of_not_mem _ (b := a') (show a' ∉ ({s'} : Finset (DevRef τ sig)) by decide),
    (op2 (F := F)).result_of_not_mem _ (b := a') (show a' ∉ ({c'} : Finset (DevRef τ sig)) by decide),
    (op1 (F := F)).result_of_not_mem _ (b := a') (show a' ∉ ({x'} : Finset (DevRef τ sig)) by decide)]
  rfl
theorem V4_t (d : Dev nD) : V4 m d t' = m (tLoc d) := by
  unfold V4 V3 V2 V1
  rw [(op4 (F := F)).result_of_not_mem _ (b := t') (show t' ∉ ({e'} : Finset (DevRef τ sig)) by decide),
    (op3 (F := F)).result_of_not_mem _ (b := t') (show t' ∉ ({s'} : Finset (DevRef τ sig)) by decide),
    (op2 (F := F)).result_of_not_mem _ (b := t') (show t' ∉ ({c'} : Finset (DevRef τ sig)) by decide),
    (op1 (F := F)).result_of_not_mem _ (b := t') (show t' ∉ ({x'} : Finset (DevRef τ sig)) by decide)]
  rfl
theorem V4_o (d : Dev nD) : V4 m d o' = m (oLoc d) := by
  unfold V4 V3 V2 V1
  rw [(op4 (F := F)).result_of_not_mem _ (b := o') (show o' ∉ ({e'} : Finset (DevRef τ sig)) by decide),
    (op3 (F := F)).result_of_not_mem _ (b := o') (show o' ∉ ({s'} : Finset (DevRef τ sig)) by decide),
    (op2 (F := F)).result_of_not_mem _ (b := o') (show o' ∉ ({c'} : Finset (DevRef τ sig)) by decide),
    (op1 (F := F)).result_of_not_mem _ (b := o') (show o' ∉ ({x'} : Finset (DevRef τ sig)) by decide)]
  rfl
theorem V4_x (d : Dev nD) : V4 m d x' = fxOf m d := by
  unfold V4 V3 V2 V1
  rw [(op4 (F := F)).result_of_not_mem _ (b := x') (show x' ∉ ({e'} : Finset (DevRef τ sig)) by decide),
    (op3 (F := F)).result_of_not_mem _ (b := x') (show x' ∉ ({s'} : Finset (DevRef τ sig)) by decide),
    (op2 (F := F)).result_of_not_mem _ (b := x') (show x' ∉ ({c'} : Finset (DevRef τ sig)) by decide)]
  exact (StableHlo.reshape_result main_arg0 main_v0 rfl Facts₀.shapeCasts_S4096x200_S819200 _ _ (V0 m d)).trans rfl
theorem V2_c (d : Dev nD) : V2 m d c' = constantI S_ 32 0#32 := by
  unfold V2
  exact StableHlo.nullary_result main_c (constantI S_ 32 0#32) _ (V1 m d)
theorem V3_s (d : Dev nD) : V3 m d s' = sitofp (F := F) .f32 (constantI S_ 32 0#32) := by
  unfold V3
  refine (StableHlo.unary_result main_c main_call0_v0 _ _ _ (V2 m d)).trans ?_
  rw [V2_c]; rfl
theorem V3_t (d : Dev nD) : V3 m d t' = m (tLoc d) := by
  unfold V3 V2 V1
  rw [(op3 (F := F)).result_of_not_mem _ (b := t') (show t' ∉ ({s'} : Finset (DevRef τ sig)) by decide),
    (op2 (F := F)).result_of_not_mem _ (b := t') (show t' ∉ ({c'} : Finset (DevRef τ sig)) by decide),
    (op1 (F := F)).result_of_not_mem _ (b := t') (show t' ∉ ({x'} : Finset (DevRef τ sig)) by decide)]
  rfl
theorem V4_e (d : Dev nD) : V4 m d e' = feOf m d := by
  unfold V4
  refine (StableHlo.binary_result main_arg1 main_call0_v0 main_v1 _ _ _ _ (V3 m d)).trans ?_
  rw [V3_t, V3_s]; rfl

/-! ## The arrays at each stage, read off the valuations -/

theorem held_V4 (d : Dev nD) :
    (held (T d) S8 ((op4 (F := F)).result (V3 m d)) : sProp 𝕄)
      = iprop((aLoc d ↦{fullShare} m (aLoc d)) ∗ (tLoc d ↦{fullShare} m (tLoc d)) ∗ (xLoc d ↦{fullShare} fxOf m d) ∗ (cLoc d ↦{fullShare} V4 m d c')
          ∗ (sLoc d ↦{fullShare} V4 m d s') ∗ (eLoc d ↦{fullShare} feOf m d) ∗ (oLoc d ↦{fullShare} m (oLoc d)) ∗ (rLoc d ↦{fullShare} V4 m d r')) := by
  show (held (T d) S8 (V4 m d) : sProp 𝕄) = _
  rw [held_S8, V4_a, V4_t, V4_x, V4_e, V4_o]

theorem held_V5 (d : Dev nD) (f : Buf (Elt F) (oLoc d)) :
    (held (T d) S8 (V5 m d f) : sProp 𝕄)
      = iprop((aLoc d ↦{fullShare} m (aLoc d)) ∗ (tLoc d ↦{fullShare} m (tLoc d)) ∗ (xLoc d ↦{fullShare} fxOf m d) ∗ (cLoc d ↦{fullShare} V4 m d c')
          ∗ (sLoc d ↦{fullShare} V4 m d s') ∗ (eLoc d ↦{fullShare} feOf m d) ∗ (oLoc d ↦{fullShare} f) ∗ (rLoc d ↦{fullShare} V4 m d r')) := by
  rw [held_S8]
  unfold V5
  rw [Function.update_of_ne (show a' ≠ o' by decide), Function.update_of_ne (show t' ≠ o' by decide), Function.update_of_ne (show x' ≠ o' by decide),
    Function.update_of_ne (show c' ≠ o' by decide), Function.update_of_ne (show s' ≠ o' by decide), Function.update_of_ne (show e' ≠ o' by decide),
    Function.update_of_ne (show r' ≠ o' by decide), Function.update_self, V4_a, V4_t, V4_x, V4_e]

theorem V6_ne (d : Dev nD) (f : Buf (Elt F) (oLoc d)) {b : DevRef τ sig} (hb : b ∉ ({r'} : Finset (DevRef τ sig))) (hb' : b ≠ o') :
    V6 m d f b = V4 m d b := by
  unfold V6 V5
  rw [(op5 (F := F)).result_of_not_mem _ (b := b) hb, Function.update_of_ne hb']

theorem V6_r (d : Dev nD) (f : Buf (Elt F) (oLoc d)) :
    V6 m d f r' = extractStridedSlice S4096x200x64 ![0, 0, 0] f Facts₀.slices_S4096x200x128_S4096x200x64_0_0_0 := by
  unfold V6 V5
  refine (StableHlo.unary_result main_v2 main_v3 _ _ _ _).trans ?_
  rw [Function.update_self]

/-- After the slice: the arguments as they started, the result the first 64 columns of what the call left. -/
theorem held_V6 (d : Dev nD) (f : Buf (Elt F) (oLoc d)) :
    (held (T d) S8 (V6 m d f) : sProp 𝕄)
      ⊢ iprop((aLoc d ↦{fullShare} m (aLoc d)) ∗ (tLoc d ↦{fullShare} m (tLoc d))
          ∗ (rLoc d ↦{fullShare} (extractStridedSlice S4096x200x64 ![0, 0, 0] f Facts₀.slices_S4096x200x128_S4096x200x64_0_0_0 : Buf (Elt F) (rLoc d)))) := by
  rw [held_S8, V6_ne m d f (b := a') (by decide) (by decide), V6_ne m d f (b := t') (by decide) (by decide), V6_r, V4_a, V4_t]
  iintro ⟨Ha, Ht, -, -, -, -, -, Hr⟩
  isplitl [Ha]; · iexact Ha
  isplitl [Ht]; · iexact Ht
  iexact Hr

/-! ## @main on the TensorCore -/

/-- The call's payloads at this launch: the flattened indices, the padded table, the result's launch contents. -/
abbrev PP : (K (F := F)).Pay (nD := nD) (Val := Elt F) (Name := ℕ) (U := UU) := P (fxOf m) (feOf m) (fun d => m (oLoc d))

/-- The result of the program, as a function of the launch memory. -/
def resOf (d : Dev nD) : Buf (Elt F) (rLoc d) := Cert.Spec.lookup (m (aLoc d)) (m (tLoc d))

theorem resOf_eq (d : Dev nD) :
    (extractStridedSlice S4096x200x64 ![0, 0, 0] (Cert.Spec.padded (fxOf m d) (feOf m d) : Buf (Elt F) (oLoc d))
      Facts₀.slices_S4096x200x128_S4096x200x64_0_0_0 : Buf (Elt F) (rLoc d)) = resOf m d :=
  Cert.Proof.HostValue.sliced_padded Facts₀.shapeCasts_S4096x200_S819200 Facts₀.pads_S100000x64_S100000x128_000_0640 Facts₀.h_S_
    Facts₀.slices_S4096x200x128_S4096x200x64_0_0_0 (m (aLoc d)) (m (tLoc d)) (sitofp (F := F) .f32 (constantI S_ 32 0#32))

/-- What @main leaves the claim: the arguments at their launch contents, the result at the lookup. -/
abbrev FIN (d : Dev nD) : sProp 𝕄 :=
  iprop((aLoc d ↦{fullShare} m (aLoc d)) ∗ (tLoc d ↦{fullShare} m (tLoc d)) ∗ (rLoc d ↦{fullShare} resOf m d))

theorem held_fin (d : Dev nD) :
    (held (T d) S8 ((op5 (F := F)).result (V5 m d (Cert.Spec.padded (fxOf m d) (feOf m d)))) : sProp 𝕄) ⊢ FIN m d := by
  refine (held_V6 m d _).trans ?_
  rw [resOf_eq]

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the reshape, the constant, the conversion, the padding
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) hop2 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S8) hop4 (V := V3 m d)) $$ [Hb Hheld]
  · isplitl [Hb]; · iexact Hb
    iexact Hheld
  iintro ⟨Hb, Hheld⟩
  rw [wp_ret]; imodintro; imodintro
  ihave Hh := (Entails.of_eq (held_V4 (F := F) m d)) $$ Hheld
  icases Hh with ⟨Ha, Ht, Hx, Hc, Hs, He, Ho, Hr⟩
  -- the call: the flattened indices, the padded table and the result, cut among the subcores and joined back
  iapply ((K (F := F)).wp_run (D (F := F)) 𝒱 (EH := EH) (P := PP m) κ d 0) $$ [Hst Hb Ha Ht Hx Hc Hs He Ho Hr]
  isplitr; · iexact Hctx
  isplitl [Hst]; · iexact Hst
  isplitl [Hx He Ho]
  · rw [st0_eq]
    isplitl [Hx]; · iexact Hx
    isplitl [He]; · iexact He
    iexact Ho
  iintro ⟨Hst, Hdn⟩
  ihave Hdn' := (Entails.of_eq (dn0_eq (F := F) (fxOf m) (feOf m) (fun d => m (oLoc d)) d)) $$ Hdn
  icases Hdn' with ⟨Hx, He, Ho⟩
  -- the slice
  iapply (wp_hlo_within 𝒱 (SparseCore.T d) none Set.univ (op := op5) (S := S8) hop5
      (V := V5 m d (Cert.Spec.padded (fxOf m d) (feOf m d)))) $$ [Hb Ha Ht Hx Hc Hs He Ho Hr]
  · isplitl [Hb]; · iexact Hb
    rw [held_V5]
    isplitl [Ha]; · iexact Ha
    isplitl [Ht]; · iexact Ht
    isplitl [Hx]; · iexact Hx
    isplitl [Hc]; · iexact Hc
    isplitl [Hs]; · iexact Hs
    isplitl [He]; · iexact He
    isplitl [Ho]; · iexact Ho
    iexact Hr
  iintro ⟨Hb, Hheld⟩
  ihave Hh := (held_fin (F := F) m d) $$ Hheld
  rw [wp_ret]; imodintro; imodintro
  isplitl [Hst]; · iexact Hst
  iexact Hh

/-! ## The final memory, the program's run -/

def fq (d : Dev nD) (s' : Phys nD τ sig (Elt F)) : Prop :=
  s'.mem.mem (rLoc d) = resOf m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The program runs from any launch memory whose index words all name rows of the table, and ends with the result
    holding the lookup and the two arguments unchanged. -/
theorem run_main [∀ e, Nonempty (Elt F e)] (hx : ∀ d : Dev nD, Cert.Spec.InRange (m ((SparseCore.T d).loc main_arg0))) :
    θ_run (defs (F := F)) (threads (F := F)) ⟨m, fun _ => 0, ρ⟩ (fun r => ∀ c : Dev nD,
      r.2.mem ((c.tc : Thread nD τ).loc main_v3) = Cert.Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := PP m) facts v₀
    (fun q hq => match q with | 0 => nomatch hq)
    (fun q _ => match q with
      | 0 => tileObl (fxOf m) (feOf m) (fun d => m (oLoc d)) fun d => Cert.Proof.HostValue.inRangeFlat_reshape Facts₀.shapeCasts_S4096x200_S819200 _ (hx d))
    (fun q _ => match q with | 0 => SparseCore.Cfg.VecSplit.of_plain (vecSplit (fxOf m) (feOf m) (fun d => m (oLoc d))))
    m ρ main (fun _ => iprop(emp)) (FIN m) (u₀ (F := F)) (sep_elim_left.trans (hu₀ (fxOf m) (feOf m) (fun d => m (oLoc d)))) (hmain m ρ) (fq m) (hfin m)
    _ (fun _ h => h)

end Cert.Proof.K

end
-- ==== Proof.lean ====
/-
  The certificate of the embedding lookup.

  Both programs compute one function of the two argument arrays: entry (b, l, d) of the result is entry (row, d) of the
  table, row being the index word at (b, l) (`Cert.Spec.lookup`). The reference is a gather of table rows, guarded by a
  range test that the precondition makes true everywhere. The kernel flattens the index array, pads the table to 128
  columns, has 32 vector subcores each gather 128 batch rows of 200 table rows through a ring of four row buffers into
  a 128-column result, and keeps the first 64 columns; the flattening, the padding and the final slice cancel
  (`Cert.Proof.HostValue.sliced_padded`). Only data moves, so the two results are equal element by element with no
  arithmetic on the extended reals; the precondition is used for the index range alone (an index out of range would
  stop an indexed copy). The ideal pass rewrote nothing, so there is nothing to preserve.
-/
import proofs.«206599_g37160057045681_cont_8to1_b_383_13_alg».proof.Defs
import proofs.«206599_g37160057045681_cont_8to1_b_383_13_alg».proof.Proof.Gen.Kernel
import proofs.«206599_g37160057045681_cont_8to1_b_383_13_alg».proof.Proof.Gen.Kernel.Skeleton
import proofs.«206599_g37160057045681_cont_8to1_b_383_13_alg».proof.Proof.Gen.KernelIdeal
import proofs.«206599_g37160057045681_cont_8to1_b_383_13_alg».proof.Proof.Gen.KernelIdeal.Skeleton
import proofs.«206599_g37160057045681_cont_8to1_b_383_13_alg».proof.Proof.Gen.ReferenceIdeal
import proofs.«206599_g37160057045681_cont_8to1_b_383_13_alg».proof.Proof.Gen.Pre_input_domain
import Idealize.ShloMosaic.Adequacy
import Idealize.ShloMosaic.Init
import proofs.«206599_g37160057045681_cont_8to1_b_383_13_alg».proof.Proof.PreDecode
import proofs.«206599_g37160057045681_cont_8to1_b_383_13_alg».proof.Proof.RefRun
import proofs.«206599_g37160057045681_cont_8to1_b_383_13_alg».proof.Proof.KI.Launch
import proofs.«206599_g37160057045681_cont_8to1_b_383_13_alg».proof.Proof.K.Launch

noncomputable section

namespace Cert.Proof

open Idealize.ShloMosaic Idealize.SL.Sem

/-- The word-level kernel runs and leaves its arguments unchanged. -/
theorem frame_k : Cert.frame_Kernel (hKernel := Cert.Kernel.Gen.facts) (hPre_input_domain := Cert.Pre_input_domain.Gen.facts) := fun m ρ hpre =>
  (θ_run Cert.Kernel.defs _ _).mono (fun _ h c => (h c).2)
    (Cert.Proof.K.run_main (F := Bits) m ρ (fun d => Cert.Proof.PreDecode.inRange_of_pre _ _ (hpre d)))

/-- The idealized kernel runs and leaves its arguments unchanged. -/
theorem frame_ki : Cert.frame_KernelIdeal (hKernelIdeal := Cert.KernelIdeal.Gen.facts) (hPre_input_domain := Cert.Pre_input_domain.Gen.facts) := fun m ρ hpre =>
  (θ_run Cert.KernelIdeal.defs _ _).mono (fun _ h c => (h c).2)
    (Cert.Proof.KI.run_main (F := Ideal) m ρ (fun d => Cert.Proof.PreDecode.inRange_of_pre _ _ (hpre d)))

/-- The reference runs and leaves its arguments unchanged. -/
theorem frame_ri : Cert.frame_ReferenceIdeal (hReferenceIdeal := Cert.ReferenceIdeal.Gen.facts) (hPre_input_domain := Cert.Pre_input_domain.Gen.facts) := fun m ρ hpre =>
  (θ_run Cert.ReferenceIdeal.defs _ _).mono (fun _ h c => (h c).2)
    (Cert.Proof.Ref.run (F := Ideal) m ρ (fun c => Cert.Proof.PreDecode.signed_of_pre _ _ (hpre c)))

/-- Nothing was rewritten between the kernel and its idealization. -/
theorem preserves : Cert.preserves_Kernel_KernelIdeal := trivial

/-- Both idealized programs end with the lookup of the shared arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  refine ⟨fun c => Cert.Spec.lookup (m ((c.tc : Thread _ _).loc Cert.KernelIdeal.main_arg0)) (m ((c.tc : Thread _ _).loc Cert.KernelIdeal.main_arg1)),
    Cert.Proof.KI.run_main (F := Ideal) m ρ (fun d => Cert.Proof.PreDecode.inRange_of_pre _ _ (hpre d)), ?_⟩
  refine (θ_run Cert.ReferenceIdeal.defs _ _).mono (fun _ h c => ⟨?_, (h c).2⟩)
    (Cert.Proof.Ref.run (F := Ideal) m' ρ' (fun c j => by
      rw [(hagree c).1]
      exact Cert.Proof.PreDecode.signed_of_pre _ _ (hpre c) j))
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
